-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S500000x16 : Shape := ⟨2, ![500000, 16]⟩
abbrev S300000x8 : Shape := ⟨2, ![300000, 8]⟩
abbrev S32x64 : Shape := ⟨2, ![32, 64]⟩
abbrev S64 : Shape := ⟨1, ![64]⟩
abbrev S64x64 : Shape := ⟨2, ![64, 64]⟩
abbrev S16x64 : Shape := ⟨2, ![16, 64]⟩
abbrev S8x64 : Shape := ⟨2, ![8, 64]⟩
abbrev S64x1 : Shape := ⟨2, ![64, 1]⟩
abbrev S1 : Shape := ⟨1, ![1]⟩
abbrev S800000 : Shape := ⟨1, ![800000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S300000x8 : S_.BroadcastsInDim S300000x8 (![] : Fin 0 → Fin S300000x8.rank)
  reducesTo_S300000x8_S_d0_1 : S300000x8.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S8x64 : S_.BroadcastsInDim S8x64 (![] : Fin 0 → Fin S8x64.rank)
  reducesTo_S8x64_S_d0_1 : S8x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg21 : FVec F S64x64 .f32) (main_arg22 : FVec F S64 .f32) (main_arg23 : FVec F S64x1 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg21
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x1 .f32 := Host.absf main_arg23
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg24
  fn_part7 (F := F) main_v118 main_v119

def fn_part5 {F : FTy → Type} [FloatOps F] (main_arg18 : FVec F S64 .f32) (main_arg19 : FVec F S64x64 .f32) (main_arg20 : FVec F S64 .f32) (main_arg21 : FVec F S64x64 .f32) (main_arg22 : FVec F S64 .f32) (main_arg23 : FVec F S64x1 .f32) (main_arg24 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg19
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S64 .f32) (main_arg15 : FVec F S8x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x1 .f32) (main_arg24 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S8x64 .f32 := Host.absf main_arg15
  let main_cst_28 : FVec F S_ .f32 := constant S_ .f32 0x7F800000#32
  let main_v75 : FVec F S8x64 .f32 := broadcastInDim S8x64 ![] bcast_S_S8x64 main_cst_28
  let main_v76 : IVec S8x64 1 := cmpf .olt main_v74 main_v75
  let main_c_29 : IVec S_ 1 := constantI S_ 1 1#1
  let main_v77 : IVec S_ 1 := (fun x v => Host.reduce IntOp.andi x v reducesTo_S8x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S64x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x1 .f32) (main_arg24 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S64x64 .f32) (main_arg8 : FVec F S64 .f32) (main_arg9 : FVec F S16x64 .f32) (main_arg10 : FVec F S64 .f32) (main_arg11 : FVec F S64x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x1 .f32) (main_arg24 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S16x64 .f32) (main_arg10 : FVec F S64 .f32) (main_arg11 : FVec F S64x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x1 .f32) (main_arg24 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x32 .f32) (main_arg1 : FVec F S500000x16 .f32) (main_arg2 : FVec F S300000x8 .f32) (main_arg3 : FVec F S32x64 .f32) (main_arg4 : FVec F S64 .f32) (main_arg5 : FVec F S64x64 .f32) (main_arg6 : FVec F S64 .f32) (main_arg7 : FVec F S64x64 .f32) (main_arg8 : FVec F S64 .f32) (main_arg9 : FVec F S16x64 .f32) (main_arg10 : FVec F S64 .f32) (main_arg11 : FVec F S64x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x1 .f32) (main_arg24 : FVec F S1 .f32) (main_arg25 : IVec S800000 32) (main_arg26 : IVec S800000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S300000x8 .f32 := Host.absf main_arg2
  let main_cst_2 : FVec F S_ .f32 := constant S_ .f32 0x7F800000#32
  let main_v10 : FVec F S300000x8 .f32 := broadcastInDim S300000x8 ![] bcast_S_S300000x8 main_cst_2
  let main_v11 : IVec S300000x8 1 := cmpf .olt main_v9 main_v10
  let main_c_3 : IVec S_ 1 := constantI S_ 1 1#1
  let main_v12 : IVec S_ 1 := (fun x v => Host.reduce IntOp.andi x v reducesTo_S300000x8_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x32 : Shape := ⟨2, ![50000, 32]⟩
abbrev S500000x16 : Shape := ⟨2, ![500000, 16]⟩
abbrev S300000x8 : Shape := ⟨2, ![300000, 8]⟩
abbrev S32x64 : Shape := ⟨2, ![32, 64]⟩
abbrev S64 : Shape := ⟨1, ![64]⟩
abbrev S64x64 : Shape := ⟨2, ![64, 64]⟩
abbrev S16x64 : Shape := ⟨2, ![16, 64]⟩
abbrev S8x64 : Shape := ⟨2, ![8, 64]⟩
abbrev S64x1 : Shape := ⟨2, ![64, 1]⟩
abbrev S1 : Shape := ⟨1, ![1]⟩
abbrev S800000 : Shape := ⟨1, ![800000]⟩
abbrev S1x64 : Shape := ⟨2, ![1, 64]⟩
abbrev S50000x64 : Shape := ⟨2, ![50000, 64]⟩
abbrev S2000x32 : Shape := ⟨2, ![2000, 32]⟩
abbrev S2000x64 : Shape := ⟨2, ![2000, 64]⟩
abbrev S500000x64 : Shape := ⟨2, ![500000, 64]⟩
abbrev S4000x16 : Shape := ⟨2, ![4000, 16]⟩
abbrev S4000x64 : Shape := ⟨2, ![4000, 64]⟩
abbrev S300000x64 : Shape := ⟨2, ![300000, 64]⟩
abbrev S4000x8 : Shape := ⟨2, ![4000, 8]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S500000 : Shape := ⟨1, ![500000]⟩
abbrev S300000 : Shape := ⟨1, ![300000]⟩
abbrev S500000x1 : Shape := ⟨2, ![500000, 1]⟩
abbrev S300000x1 : Shape := ⟨2, ![300000, 1]⟩
abbrev S4000x1 : Shape := ⟨2, ![4000, 1]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 133
  | .vmem => 68
  | .smem => 0
  | _ => 0

abbrev hbmTy0_0 (i : Nat) : BufTy := match i % 128 with
  | 0 => ⟨S50000x32, .f32⟩
  | 1 => ⟨S500000x16, .f32⟩
  | 2 => ⟨S300000x8, .f32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S16x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S8x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x1, .f32⟩
  | 24 => ⟨S1, .f32⟩
  | 25 => ⟨S800000, .i32⟩
  | 26 => ⟨S800000, .i32⟩
  | 27 => ⟨S1x64, .f32⟩
  | 28 => ⟨S1x64, .f32⟩
  | 29 => ⟨S1x64, .f32⟩
  | 30 => ⟨S50000x64, .bf16⟩
  | 31 => ⟨S1x64, .f32⟩
  | 32 => ⟨S1x64, .f32⟩
  | 33 => ⟨S1x64, .f32⟩
  | 34 => ⟨S500000x64, .bf16⟩
  | 35 => ⟨S1x64, .f32⟩
  | 36 => ⟨S1x64, .f32⟩
  | 37 => ⟨S1x64, .f32⟩
  | 38 => ⟨S300000x64, .bf16⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S800000x1, .i32⟩
  | 51 => ⟨S50000, .f32⟩
  | 52 => ⟨S_, .f32⟩
  | 53 => ⟨S50000, .f32⟩
  | 54 => ⟨S50000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000, .f32⟩
  | 73 => ⟨S800000, .f32⟩
  | 74 => ⟨S800000, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .bf16⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .bf16⟩
  | 94 => ⟨S500000, .i32⟩
  | 95 => ⟨S500000, .i32⟩
  | 96 => ⟨S300000, .i32⟩
  | 97 => ⟨S300000, .i32⟩
  | 98 => ⟨S500000x1, .f32⟩
  | 99 => ⟨S300000x1, .f32⟩
  | 100 => ⟨S500000x64, .bf16⟩
  | 101 => ⟨S300000x64, .bf16⟩
  | 102 => ⟨S500000x64, .bf16⟩
  | 103 => ⟨S300000x64, .bf16⟩
  | 104 => ⟨S500000x64, .f32⟩
  | 105 => ⟨S300000x64, .f32⟩
  | 106 => ⟨S_, .f32⟩
  | 107 => ⟨S50000x64, .f32⟩
  | 108 => ⟨S500000x1, .i32⟩
  | 109 => ⟨S50000x64, .f32⟩
  | 110 => ⟨S_, .f32⟩
  | 111 => ⟨S50000x64, .f32⟩
  | 112 => ⟨S300000x1, .i32⟩
  | 113 => ⟨S50000x64, .f32⟩
  | 114 => ⟨S50000x64, .f32⟩
  | 115 => ⟨S1x64, .f32⟩
  | 116 => ⟨S50000x64, .bf16⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .bf16⟩
  | 126 => ⟨S800000x64, .f32⟩
  | 127 => ⟨S_, .f32⟩
  | _ => ⟨S50000x32, .f32⟩

abbrev hbmTy0_1 (i : Nat) : BufTy := match i % 128 with
  | 0 => ⟨S50000x64, .f32⟩
  | 1 => ⟨S800000x1, .i32⟩
  | 2 => ⟨S50000x64, .f32⟩
  | 3 => ⟨S1x1, .f32⟩
  | 4 => ⟨S50000x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .bf16⟩
  | .local _ .vmem, ⟨9, _⟩ => ⟨S2000x64, .bf16⟩
  | .local _ .vmem, ⟨10, _⟩ => ⟨S4000x16, .f32⟩
  | .local _ .vmem, ⟨11, _⟩ => ⟨S4000x16, .f32⟩
  | .local _ .vmem, ⟨12, _⟩ => ⟨S16x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S4000x64, .bf16⟩
  | .local _ .vmem, ⟨19, _⟩ => ⟨S4000x64, .bf16⟩
  | .local _ .vmem, ⟨20, _⟩ => ⟨S4000x8, .f32⟩
  | .local _ .vmem, ⟨21, _⟩ => ⟨S4000x8, .f32⟩
  | .local _ .vmem, ⟨22, _⟩ => ⟨S8x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S4000x64, .bf16⟩
  | .local _ .vmem, ⟨29, _⟩ => ⟨S4000x64, .bf16⟩
  | .local _ .vmem, ⟨30, _⟩ => ⟨S4000x64, .bf16⟩
  | .local _ .vmem, ⟨31, _⟩ => ⟨S4000x64, .bf16⟩
  | .local _ .vmem, ⟨32, _⟩ => ⟨S4000x64, .bf16⟩
  | .local _ .vmem, ⟨33, _⟩ => ⟨S4000x64, .bf16⟩
  | .local _ .vmem, ⟨34, _⟩ => ⟨S4000x64, .bf16⟩
  | .local _ .vmem, ⟨35, _⟩ => ⟨S4000x64, .bf16⟩
  | .local _ .vmem, ⟨36, _⟩ => ⟨S4000x1, .f32⟩
  | .local _ .vmem, ⟨37, _⟩ => ⟨S4000x1, .f32⟩
  | .local _ .vmem, ⟨38, _⟩ => ⟨S4000x64, .f32⟩
  | .local _ .vmem, ⟨39, _⟩ => ⟨S4000x64, .f32⟩
  | .local _ .vmem, ⟨40, _⟩ => ⟨S4000x64, .bf16⟩
  | .local _ .vmem, ⟨41, _⟩ => ⟨S4000x64, .bf16⟩
  | .local _ .vmem, ⟨42, _⟩ => ⟨S4000x64, .bf16⟩
  | .local _ .vmem, ⟨43, _⟩ => ⟨S4000x64, .bf16⟩
  | .local _ .vmem, ⟨44, _⟩ => ⟨S4000x64, .bf16⟩
  | .local _ .vmem, ⟨45, _⟩ => ⟨S4000x64, .bf16⟩
  | .local _ .vmem, ⟨46, _⟩ => ⟨S4000x1, .f32⟩
  | .local _ .vmem, ⟨47, _⟩ => ⟨S4000x1, .f32⟩
  | .local _ .vmem, ⟨48, _⟩ => ⟨S4000x64, .f32⟩
  | .local _ .vmem, ⟨49, _⟩ => ⟨S4000x64, .f32⟩
  | .local _ .vmem, ⟨50, _⟩ => ⟨S2000x64, .f32⟩
  | .local _ .vmem, ⟨51, _⟩ => ⟨S2000x64, .f32⟩
  | .local _ .vmem, ⟨52, _⟩ => ⟨S64x64, .f32⟩
  | .local _ .vmem, ⟨53, _⟩ => ⟨S1x64, .f32⟩
  | .local _ .vmem, ⟨54, _⟩ => ⟨S2000x64, .bf16⟩
  | .local _ .vmem, ⟨55, _⟩ => ⟨S2000x64, .bf16⟩
  | .local _ .vmem, ⟨56, _⟩ => ⟨S4000x64, .bf16⟩
  | .local _ .vmem, ⟨57, _⟩ => ⟨S4000x64, .bf16⟩
  | .local _ .vmem, ⟨58, _⟩ => ⟨S4000x1, .f32⟩
  | .local _ .vmem, ⟨59, _⟩ => ⟨S4000x1, .f32⟩
  | .local _ .vmem, ⟨60, _⟩ => ⟨S4000x64, .f32⟩
  | .local _ .vmem, ⟨61, _⟩ => ⟨S4000x64, .f32⟩
  | .local _ .vmem, ⟨62, _⟩ => ⟨S2000x64, .f32⟩
  | .local _ .vmem, ⟨63, _⟩ => ⟨S2000x64, .f32⟩
  | .local _ .vmem, ⟨64, _⟩ => ⟨S64x1, .f32⟩
  | .local _ .vmem, ⟨65, _⟩ => ⟨S1x1, .f32⟩
  | .local _ .vmem, ⟨66, _⟩ => ⟨S2000x1, .f32⟩
  | .local _ .vmem, ⟨67, _⟩ => ⟨S2000x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_cst_0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_c : Ref sig .tc := ⟨.hbm, 55, rfl⟩
abbrev main_v23 : Ref sig .tc := ⟨.hbm, 56, rfl⟩
abbrev main_v24 : Ref sig .tc := ⟨.hbm, 57, rfl⟩
abbrev main_c_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_5 : Ref sig .tc := ⟨.hbm, 64, rfl⟩
abbrev main_v30 : Ref sig .tc := ⟨.hbm, 65, rfl⟩
abbrev main_v31 : Ref sig .tc := ⟨.hbm, 66, rfl⟩
abbrev main_c_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_v40 : Ref sig .tc := ⟨.hbm, 77, rfl⟩
abbrev main_v41 : Ref sig .tc := ⟨.hbm, 78, rfl⟩
abbrev main_c_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_c_9 : Ref sig .tc := ⟨.hbm, 85, rfl⟩
abbrev main_v47 : Ref sig .tc := ⟨.hbm, 86, rfl⟩
abbrev main_v48 : Ref sig .tc := ⟨.hbm, 87, rfl⟩
abbrev main_c_10 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_13 : Ref sig .tc := ⟨.hbm, 117, rfl⟩
abbrev main_v75 : Ref sig .tc := ⟨.hbm, 118, rfl⟩
abbrev main_v76 : Ref sig .tc := ⟨.hbm, 119, rfl⟩
abbrev main_c_14 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_15 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  inb_S4000x16_S4000x16_0_0 : ∀ a, (![0, 0] : Fin 2 → Nat) a + S4000x16.size a ≤ S4000x16.size a
  h_S4000x16 : 0 < S4000x16.numel
  inb_S16x64_S16x64_0_0 : ∀ a, (![0, 0] : Fin 2 → Nat) a + S16x64.size a ≤ S16x64.size a
  h_S16x64 : 0 < S16x64.numel
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  inb_S4000x8_S4000x8_0_0 : ∀ a, (![0, 0] : Fin 2 → Nat) a + S4000x8.size a ≤ S4000x8.size a
  h_S4000x8 : 0 < S4000x8.numel
  inb_S8x64_S8x64_0_0 : ∀ a, (![0, 0] : Fin 2 → Nat) a + S8x64.size a ≤ S8x64.size a
  h_S8x64 : 0 < S8x64.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S800000_S500000_0 : S800000.Slices ![0] S500000
  slices_S800000_S300000_500000 : S800000.Slices ![500000] S300000
  slices_S800000x1_S500000x1_0_0 : S800000x1.Slices ![0, 0] S500000x1
  slices_S800000x1_S300000x1_500000_0 : S800000x1.Slices ![500000, 0] S300000x1
  slices_S800000x64_S500000x64_0_0 : S800000x64.Slices ![0, 0] S500000x64
  slices_S800000x64_S300000x64_500000_0 : S800000x64.Slices ![500000, 0] S300000x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S50000x64 : S_.BroadcastsInDim S50000x64 (![] : Fin 0 → Fin S50000x64.rank)
  bcast_S500000_S500000x1_0 : S500000.BroadcastsInDim S500000x1 (![0] : Fin 1 → Fin S500000x1.rank)
  bcast_S300000_S300000x1_0 : S300000.BroadcastsInDim S300000x1 (![0] : Fin 1 → Fin S300000x1.rank)
  shapeCasts_S2000x64_S2000x64 : S2000x64.ShapeCasts S2000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x32_S32x64_S2000x64_1_0_0_1_n_n_wf : DotDims.WF S2000x32 S32x64 S2000x64 [1] [0] [0] [1] [] []
  dot_S2000x64_S64x64_S2000x64_1_0_0_1_n_n_wf : DotDims.WF S2000x64 S64x64 S2000x64 [1] [0] [0] [1] [] []
  dot_S4000x16_S16x64_S4000x64_1_0_0_1_n_n_wf : DotDims.WF S4000x16 S16x64 S4000x64 [1] [0] [0] [1] [] []
  dot_S4000x64_S64x64_S4000x64_1_0_0_1_n_n_wf : DotDims.WF S4000x64 S64x64 S4000x64 [1] [0] [0] [1] [] []
  dot_S4000x8_S8x64_S4000x64_1_0_0_1_n_n_wf : DotDims.WF S4000x8 S8x64 S4000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S500000x1_S500000x64_1_0_0_1_wf : ScatterDims.WF S50000x64 S500000x1 S500000x64 [1] [0] [0] 1
  scatter_S50000x64_S300000x1_S300000x64_1_0_0_1_wf : ScatterDims.WF S50000x64 S300000x1 S300000x64 [1] [0] [0] 1
  scatter_S50000x64_S800000x1_S800000x64_1_0_0_1_wf : ScatterDims.WF S50000x64 S800000x1 S800000x64 [1] [0] [0] 1
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .bf16 = 32 ∨ (Rect.block (s := S50000x64) S2000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S500000x16.size a
  hwx1_0 : ∀ i : grid1.Coords, EltTy.bits .f32 = 32 ∨ (Rect.block (s := S500000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S500000x64.size a
  hwx1_7 : ∀ i : grid1.Coords, EltTy.bits .bf16 = 32 ∨ (Rect.block (s := S500000x64) S4000x64.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S300000x8.size a
  hwx2_0 : ∀ i : grid2.Coords, EltTy.bits .f32 = 32 ∨ (Rect.block (s := S300000x8) S4000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x64.size a ≤ S8x64.size a
  hwx2_1 : ∀ i : grid2.Coords, EltTy.bits .f32 = 32 ∨ (Rect.block (s := S8x64) S8x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S300000x64.size a
  hwx2_7 : ∀ i : grid2.Coords, EltTy.bits .bf16 = 32 ∨ (Rect.block (s := S300000x64) S4000x64.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S500000x64.size a
  hwx3_0 : ∀ i : grid3.Coords, EltTy.bits .bf16 = 32 ∨ (Rect.block (s := S500000x64) S4000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S500000x64.size a
  hwx3_1 : ∀ i : grid3.Coords, EltTy.bits .bf16 = 32 ∨ (Rect.block (s := S500000x64) S4000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S500000x64.size a
  hwx3_2 : ∀ i : grid3.Coords, EltTy.bits .bf16 = 32 ∨ (Rect.block (s := S500000x64) S4000x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S500000x1.size a
  hwx3_3 : ∀ i : grid3.Coords, EltTy.bits .f32 = 32 ∨ (Rect.block (s := S500000x1) S4000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S500000x64.size a
  hwx3_4 : ∀ i : grid3.Coords, EltTy.bits .f32 = 32 ∨ (Rect.block (s := S500000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S300000x64.size a
  hwx4_0 : ∀ i : grid4.Coords, EltTy.bits .bf16 = 32 ∨ (Rect.block (s := S300000x64) S4000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S300000x64.size a
  hwx4_1 : ∀ i : grid4.Coords, EltTy.bits .bf16 = 32 ∨ (Rect.block (s := S300000x64) S4000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S300000x64.size a
  hwx4_2 : ∀ i : grid4.Coords, EltTy.bits .bf16 = 32 ∨ (Rect.block (s := S300000x64) S4000x64.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S300000x1.size a
  hwx4_3 : ∀ i : grid4.Coords, EltTy.bits .f32 = 32 ∨ (Rect.block (s := S300000x1) S4000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S300000x64.size a
  hwx4_4 : ∀ i : grid4.Coords, EltTy.bits .f32 = 32 ∨ (Rect.block (s := S300000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .bf16 = 32 ∨ (Rect.block (s := S50000x64) S2000x64.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S800000x64.size a
  hwx6_0 : ∀ i : grid6.Coords, EltTy.bits .bf16 = 32 ∨ (Rect.block (s := S800000x64) S4000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S800000x1.size a
  hwx6_1 : ∀ i : grid6.Coords, EltTy.bits .f32 = 32 ∨ (Rect.block (s := S800000x1) S4000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S800000x64.size a
  hwx6_2 : ∀ i : grid6.Coords, EltTy.bits .f32 = 32 ∨ (Rect.block (s := S800000x64) S4000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x1.size a ≤ S50000x1.size a
  hwx7_3 : ∀ i : grid7.Coords, EltTy.bits .f32 = 32 ∨ (Rect.block (s := S50000x1) S2000x1.size (cc7_transform_3 i) (hinb7_3 i)).WholeWords (EltTy.packing .f32)

variable [Facts₀]

def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S50000x64_S300000x1_S300000x64_1_0_0_1 : ScatterDims S50000x64 S300000x1 S300000x64 where
  updateWindowDims := [1]
  insertedWindowDims := [0]
  scatterDimsToOperandDims := [0]
  indexVectorDim := 1
  wf := scatter_S50000x64_S300000x1_S300000x64_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S8x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v64) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v59) S4000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v72) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg21) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v81) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v82) S4000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v85) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg23) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v86) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v87) S2000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x32 : Shape := ⟨2, ![50000, 32]⟩
abbrev S500000x16 : Shape := ⟨2, ![500000, 16]⟩
abbrev S300000x8 : Shape := ⟨2, ![300000, 8]⟩
abbrev S32x64 : Shape := ⟨2, ![32, 64]⟩
abbrev S64 : Shape := ⟨1, ![64]⟩
abbrev S64x64 : Shape := ⟨2, ![64, 64]⟩
abbrev S16x64 : Shape := ⟨2, ![16, 64]⟩
abbrev S8x64 : Shape := ⟨2, ![8, 64]⟩
abbrev S64x1 : Shape := ⟨2, ![64, 1]⟩
abbrev S1 : Shape := ⟨1, ![1]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S500000x64 : Shape := ⟨2, ![500000, 64]⟩
abbrev S300000x64 : Shape := ⟨2, ![300000, 64]⟩
abbrev S800000x64 : Shape := ⟨2, ![800000, 64]⟩
abbrev S50000 : Shape := ⟨1, ![50000]⟩
abbrev S800000x1 : Shape := ⟨2, ![800000, 1]⟩
abbrev S50000x1 : Shape := ⟨2, ![50000, 1]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S50000x32, .f32⟩
  | 1 => ⟨S500000x16, .f32⟩
  | 2 => ⟨S300000x8, .f32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S16x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S8x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x1, .f32⟩
  | 24 => ⟨S1, .f32⟩
  | 25 => ⟨S800000, .i32⟩
  | 26 => ⟨S800000, .i32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S500000x64, .f32⟩
  | 46 => ⟨S1x64, .f32⟩
  | 47 => ⟨S500000x64, .f32⟩
  | 48 => ⟨S500000x64, .f32⟩
  | 49 => ⟨S_, .f32⟩
  | 50 => ⟨S500000x64, .f32⟩
  | 51 => ⟨S500000x64, .f32⟩
  | 52 => ⟨S500000x64, .f32⟩
  | 53 => ⟨S1x64, .f32⟩
  | 54 => ⟨S500000x64, .f32⟩
  | 55 => ⟨S500000x64, .f32⟩
  | 56 => ⟨S_, .f32⟩
  | 57 => ⟨S500000x64, .f32⟩
  | 58 => ⟨S500000x64, .f32⟩
  | 59 => ⟨S500000x64, .f32⟩
  | 60 => ⟨S1x64, .f32⟩
  | 61 => ⟨S500000x64, .f32⟩
  | 62 => ⟨S500000x64, .f32⟩
  | 63 => ⟨S300000x64, .f32⟩
  | 64 => ⟨S1x64, .f32⟩
  | 65 => ⟨S300000x64, .f32⟩
  | 66 => ⟨S300000x64, .f32⟩
  | 67 => ⟨S_, .f32⟩
  | 68 => ⟨S300000x64, .f32⟩
  | 69 => ⟨S300000x64, .f32⟩
  | 70 => ⟨S300000x64, .f32⟩
  | 71 => ⟨S1x64, .f32⟩
  | 72 => ⟨S300000x64, .f32⟩
  | 73 => ⟨S300000x64, .f32⟩
  | 74 => ⟨S_, .f32⟩
  | 75 => ⟨S300000x64, .f32⟩
  | 76 => ⟨S300000x64, .f32⟩
  | 77 => ⟨S300000x64, .f32⟩
  | 78 => ⟨S1x64, .f32⟩
  | 79 => ⟨S300000x64, .f32⟩
  | 80 => ⟨S300000x64, .f32⟩
  | 81 => ⟨S800000x64, .f32⟩
  | 82 => ⟨S_, .f32⟩
  | 83 => ⟨S800000, .f32⟩
  | 84 => ⟨S_, .f32⟩
  | 85 => ⟨S50000, .f32⟩
  | 86 => ⟨S800000x1, .i32⟩
  | 87 => ⟨S50000, .f32⟩
  | 88 => ⟨S_, .f32⟩
  | 89 => ⟨S50000, .f32⟩
  | 90 => ⟨S50000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S800000, .f32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x32, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S800000x64, .f32⟩
  | 10 => ⟨S800000x64, .f32⟩
  | 11 => ⟨S800000x64, .f32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S50000x1, .f32⟩
  | 40 => ⟨S1x1, .f32⟩
  | 41 => ⟨S50000x1, .f32⟩
  | 42 => ⟨S50000x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_cst : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_cst : Ref sig .tc := ⟨.hbm, 38, rfl⟩
abbrev main_call1_v0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call2_cst : Ref sig .tc := ⟨.hbm, 49, rfl⟩
abbrev main_call2_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call3_cst : Ref sig .tc := ⟨.hbm, 56, rfl⟩
abbrev main_call3_v0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call4_cst : Ref sig .tc := ⟨.hbm, 67, rfl⟩
abbrev main_call4_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call5_cst : Ref sig .tc := ⟨.hbm, 74, rfl⟩
abbrev main_call5_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst : Ref sig .tc := ⟨.hbm, 82, rfl⟩
abbrev main_v43 : Ref sig .tc := ⟨.hbm, 83, rfl⟩
abbrev main_cst_0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_1 : Ref sig .tc := ⟨.hbm, 88, rfl⟩
abbrev main_v47 : Ref sig .tc := ⟨.hbm, 89, rfl⟩
abbrev main_v48 : Ref sig .tc := ⟨.hbm, 90, rfl⟩
abbrev main_cst_2 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_3 : Ref sig .tc := ⟨.hbm, 95, rfl⟩
abbrev main_v52 : Ref sig .tc := ⟨.hbm, 96, rfl⟩
abbrev main_v53 : Ref sig .tc := ⟨.hbm, 97, rfl⟩
abbrev main_c : Ref sig .tc := ⟨.hbm, 98, rfl⟩
abbrev main_v54 : Ref sig .tc := ⟨.hbm, 99, rfl⟩
abbrev main_v55 : Ref sig .tc := ⟨.hbm, 100, rfl⟩
abbrev main_c_4 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_5 : Ref sig .tc := ⟨.hbm, 107, rfl⟩
abbrev main_v61 : Ref sig .tc := ⟨.hbm, 108, rfl⟩
abbrev main_v62 : Ref sig .tc := ⟨.hbm, 109, rfl⟩
abbrev main_c_6 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_7 : Ref sig .tc := ⟨.hbm, 119, rfl⟩
abbrev main_v71 : Ref sig .tc := ⟨.hbm, 120, rfl⟩
abbrev main_v72 : Ref sig .tc := ⟨.hbm, 121, rfl⟩
abbrev main_c_8 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_9 : Ref sig .tc := ⟨.hbm, 128, rfl⟩
abbrev main_v78 : Ref sig .tc := ⟨.hbm, 129, rfl⟩
abbrev main_v79 : Ref sig .tc := ⟨.hbm, 130, rfl⟩
abbrev main_c_10 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_11 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_call6_cst : Ref sig .tc := ⟨.hbm, 149, rfl⟩
abbrev main_call6_v0 : Ref sig .tc := ⟨.hbm, 150, rfl⟩
abbrev main_v96 : Ref sig .tc := ⟨.hbm, 151, rfl⟩
abbrev main_c_12 : Ref sig .tc := ⟨.hbm, 152, rfl⟩
abbrev main_v97 : Ref sig .tc := ⟨.hbm, 153, rfl⟩
abbrev main_v98 : Ref sig .tc := ⟨.hbm, 154, rfl⟩
abbrev main_c_13 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_14 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  concatenates_S500000x64_S300000x64_S800000x64_d0 : Shape.Concatenates [S500000x64, S300000x64] S800000x64 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x32_S32x64_S50000x64_1_0_0_1_n_n_wf : DotDims.WF S50000x32 S32x64 S50000x64 [1] [0] [0] [1] [] []
  dot_S50000x64_S64x64_S50000x64_1_0_0_1_n_n_wf : DotDims.WF S50000x64 S64x64 S50000x64 [1] [0] [0] [1] [] []
  dot_S500000x16_S16x64_S500000x64_1_0_0_1_n_n_wf : DotDims.WF S500000x16 S16x64 S500000x64 [1] [0] [0] [1] [] []
  dot_S500000x64_S64x64_S500000x64_1_0_0_1_n_n_wf : DotDims.WF S500000x64 S64x64 S500000x64 [1] [0] [0] [1] [] []
  dot_S300000x8_S8x64_S300000x64_1_0_0_1_n_n_wf : DotDims.WF S300000x8 S8x64 S300000x64 [1] [0] [0] [1] [] []
  dot_S300000x64_S64x64_S300000x64_1_0_0_1_n_n_wf : DotDims.WF S300000x64 S64x64 S300000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S500000x16_S16x64_S500000x64_1_0_0_1_n_n : DotDims S500000x16 S16x64 S500000x64 where
  lhsContracting := [1]
  rhsContracting := [0]
  lhsNonContracting := [0]
  rhsNonContracting := [1]
  lhsBatch := []
  rhsBatch := []
  wf := dot_S500000x16_S16x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S300000x8_S8x64_S300000x64_1_0_0_1_n_n : DotDims S300000x8 S8x64 S300000x64 where
  lhsContracting := [1]
  rhsContracting := [0]
  lhsNonContracting := [0]
  rhsNonContracting := [1]
  lhsBatch := []
  rhsBatch := []
  wf := dot_S300000x8_S8x64_S300000x64_1_0_0_1_n_n_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized device program's run, with its result named. The program is eight device calls among stretches of
  host operations; its generated frame proof follows the contents of every buffer from the launch through each
  boundary between stretches and calls. Read at the result buffer instead of only at the arguments, the same run
  says what the program returns: the contents the last boundary holds there.
-/
import proofs.«165014_j22557168239387_2_alg».proof.Proof.Gen.KernelIdeal.Frame

-- membership in a rectangle of production extents (`View.cover_of_tiled`): the elaborator's structural look
-- recurses once per coordinate of the long axes
set_option maxRecDepth 16384

noncomputable section

namespace Cert.KernelIdeal.Regions

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT NAMED: from any memory with zero counters every weakly fair execution of the program
    terminates, nothing faulting, and in every final state the result buffer holds what the last boundary of the run
    holds there (`W15`), the argument arrays what they held at the launch. -/
theorem run_result : θ_run defs (onTc (τ := τ) (main (F := F))) ⟨m, fun _ => 0, ρ⟩ (fun r => ∀ c : Dev nD,
      r.2.mem ((c.tc : Thread nD τ).loc main_v87) = W15 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v87 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c),
       (h c _ (mem_uc main_arg26 (by decide))).trans (W15_main_arg26 m ρ c)⟩)

end Cert.KernelIdeal.Regions

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«165014_j22557168239387_2_alg».proof.Proof.LibPlainMatmul
import proofs.«165014_j22557168239387_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«165014_j22557168239387_2_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«165014_j22557168239387_2_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Forms.lean ====
/-
  The whole-array functions the eight device computations and the host stages between them are instances of, over
  the extended reals, each with the fact that lets it be computed a block of rows at a time: an entry of the result
  depends on ONE row of the row-indexed operands.

  * `relu A`: the larger of each entry and zero (the zero kept as the float word both programs write).
  * `mlp3 X W0 B0 W1 B1 W2 B2`: three dense layers X ↦ X·W + B (B a 1 × D row added to every row) with the positive
    part taken after the first two.
  * `combine A B C N`: entry (e, l) is (A(e,l) + B(e,l) + C(e,l)) · N(e, 0) — three arrays added left to right, each
    row scaled by that row's entry of a one-column array.
  * `scaleRows A N`: entry (e, l) is A(e,l) · N(e, 0).
  Then the spellings: what one block of the matrix unit's layer computes (operands narrowed to a shorter float
  format, which changes nothing over the extended reals, multiplied into zeros, a broadcast row added) is the
  dense layer of the blocks; the vector unit's sums and products with a broadcast column are `combine` and
  `scaleRows` of the blocks; and the host's forms of the same.
-/
import proofs.«165014_j22557168239387_2_alg».proof.Proof.LibBiasedBlock
import proofs.«165014_j22557168239387_2_alg».proof.Proof.LibColumnBroadcast
import Idealize.ShloMosaic.PureOps.Ideal.Laws
import Idealize.ShloMosaic.Lib.ValueLayout
import Idealize.ShloMosaic.Lib.Pipeline.Value
import Idealize.ShloMosaic.Lib.ValueIdx

noncomputable section

namespace Cert.Gnn

open Idealize.ShloMosaic Idealize.ShloMosaic.ValueIdx Cert.MatrixProduct Cert.Gcn

/-- The positive part, entry by entry. -/
def relu {s : Shape} (A : s.Idx → EReal) : s.Idx → EReal :=
  fun i => max (A i) (Ideal.ofBits .f32 0x00000000#32)

/-- Three dense layers with the positive part after the first two. -/
def mlp3 {M K D : ℕ} (X : (⟨2, ![M, K]⟩ : Shape).Idx → EReal) (W0 : (⟨2, ![K, D]⟩ : Shape).Idx → EReal)
    (B0 : (⟨2, ![1, D]⟩ : Shape).Idx → EReal) (W1 : (⟨2, ![D, D]⟩ : Shape).Idx → EReal) (B1 : (⟨2, ![1, D]⟩ : Shape).Idx → EReal)
    (W2 : (⟨2, ![D, D]⟩ : Shape).Idx → EReal) (B2 : (⟨2, ![1, D]⟩ : Shape).Idx → EReal) : (⟨2, ![M, D]⟩ : Shape).Idx → EReal :=
  biasedProduct (relu (biasedProduct (relu (biasedProduct X W0 B0)) W1 B1)) W2 B2

/-- Three arrays added left to right, each row scaled by its entry of a one-column array. -/
def combine {E C : ℕ} (A B Cc : (⟨2, ![E, C]⟩ : Shape).Idx → EReal) (N : (⟨2, ![E, 1]⟩ : Shape).Idx → EReal) :
    (⟨2, ![E, C]⟩ : Shape).Idx → EReal :=
  fun i => (A i + B i + Cc i) * N (ix2 (i 0) (0 : Fin 1))

/-- Each row scaled by its entry of a one-column array. -/
def scaleRows {E C : ℕ} (A : (⟨2, ![E, C]⟩ : Shape).Idx → EReal) (N : (⟨2, ![E, 1]⟩ : Shape).Idx → EReal) :
    (⟨2, ![E, C]⟩ : Shape).Idx → EReal :=
  fun i => A i * N (ix2 (i 0) (0 : Fin 1))

/-! ## One row in, one row out -/

/-- Row `p` of a dense layer of a block is row `r` of the dense layer of the whole array when row `p` of the block
    is row `r` of the array (same right factor, same added row). -/
theorem dense_row {M R K N : ℕ} (X : (⟨2, ![M, K]⟩ : Shape).Idx → EReal) (x : (⟨2, ![R, K]⟩ : Shape).Idx → EReal)
    (W : (⟨2, ![K, N]⟩ : Shape).Idx → EReal) (B : (⟨2, ![1, N]⟩ : Shape).Idx → EReal) (p : Fin R) (r : Fin M)
    (h : ∀ k : Fin K, x (ix2 p k) = X (ix2 r k)) (q : Fin N) :
    biasedProduct x W B (ix2 p q) = biasedProduct X W B (ix2 r q) :=
  biasedProduct_row X W B x W B p q r h (fun _ => rfl) rfl

/-- The positive part at one entry depends on that entry only. -/
theorem relu_at {s t : Shape} (A : s.Idx → EReal) (A' : t.Idx → EReal) (i : s.Idx) (j : t.Idx) (h : A i = A' j) :
    relu A i = relu A' j := congrArg (max · (Ideal.ofBits .f32 0x00000000#32)) h

/-- Row `p` of the three-layer stack of a block is row `r` of the stack of the whole array. -/
theorem mlp3_row {M R K D : ℕ} (X : (⟨2, ![M, K]⟩ : Shape).Idx → EReal) (x : (⟨2, ![R, K]⟩ : Shape).Idx → EReal)
    (W0 : (⟨2, ![K, D]⟩ : Shape).Idx → EReal)
    (B0 : (⟨2, ![1, D]⟩ : Shape).Idx → EReal) (W1 : (⟨2, ![D, D]⟩ : Shape).Idx → EReal) (B1 : (⟨2, ![1, D]⟩ : Shape).Idx → EReal)
    (W2 : (⟨2, ![D, D]⟩ : Shape).Idx → EReal) (B2 : (⟨2, ![1, D]⟩ : Shape).Idx → EReal) (p : Fin R) (r : Fin M)
    (h : ∀ k : Fin K, x (ix2 p k) = X (ix2 r k)) (q : Fin D) :
    mlp3 x W0 B0 W1 B1 W2 B2 (ix2 p q) = mlp3 X W0 B0 W1 B1 W2 B2 (ix2 r q) := by
  unfold mlp3
  refine dense_row _ _ W2 B2 p r (fun k2 => ?_) q
  refine relu_at _ _ _ _ ?_
  refine dense_row _ _ W1 B1 p r (fun k1 => ?_) k2
  refine relu_at _ _ _ _ ?_
  exact dense_row X x W0 B0 p r h k1

/-- Row `p` of the positive part of a dense layer of a block is row `r` of that of the whole array. -/
theorem relu_dense_row {M R K N : ℕ} (X : (⟨2, ![M, K]⟩ : Shape).Idx → EReal) (x : (⟨2, ![R, K]⟩ : Shape).Idx → EReal)
    (W : (⟨2, ![K, N]⟩ : Shape).Idx → EReal) (B : (⟨2, ![1, N]⟩ : Shape).Idx → EReal) (p : Fin R) (r : Fin M)
    (h : ∀ k : Fin K, x (ix2 p k) = X (ix2 r k)) (q : Fin N) :
    relu (biasedProduct x W B) (ix2 p q) = relu (biasedProduct X W B) (ix2 r q) :=
  relu_at _ _ _ _ (dense_row X x W B p r h q)

/-- Entry `(p, l)` of `combine` of blocks is entry `(r, l)` of `combine` of the arrays when the blocks hold row `r`
    of each array at row `p`. -/
theorem combine_at {E R C : ℕ} (A B Cc : (⟨2, ![E, C]⟩ : Shape).Idx → EReal) (N : (⟨2, ![E, 1]⟩ : Shape).Idx → EReal)
    (a b cc : (⟨2, ![R, C]⟩ : Shape).Idx → EReal) (n : (⟨2, ![R, 1]⟩ : Shape).Idx → EReal) (p : Fin R) (r : Fin E) (l : Fin C)
    (ha : a (ix2 p l) = A (ix2 r l)) (hb : b (ix2 p l) = B (ix2 r l)) (hc : cc (ix2 p l) = Cc (ix2 r l))
    (hn : n (ix2 p (0 : Fin 1)) = N (ix2 r (0 : Fin 1))) :
    combine a b cc n (ix2 p l) = combine A B Cc N (ix2 r l) := by
  show (a (ix2 p l) + b (ix2 p l) + cc (ix2 p l)) * n (ix2 p (0 : Fin 1))
    = (A (ix2 r l) + B (ix2 r l) + Cc (ix2 r l)) * N (ix2 r (0 : Fin 1))
  rw [ha, hb, hc, hn]

/-- The same for `scaleRows`. -/
theorem scaleRows_at {E R C : ℕ} (A : (⟨2, ![E, C]⟩ : Shape).Idx → EReal) (N : (⟨2, ![E, 1]⟩ : Shape).Idx → EReal)
    (a : (⟨2, ![R, C]⟩ : Shape).Idx → EReal) (n : (⟨2, ![R, 1]⟩ : Shape).Idx → EReal) (p : Fin R) (r : Fin E) (l : Fin C)
    (ha : a (ix2 p l) = A (ix2 r l)) (hn : n (ix2 p (0 : Fin 1)) = N (ix2 r (0 : Fin 1))) :
    scaleRows a n (ix2 p l) = scaleRows A N (ix2 r l) := by
  show a (ix2 p l) * n (ix2 p (0 : Fin 1)) = A (ix2 r l) * N (ix2 r (0 : Fin 1))
  rw [ha, hn]

/-! ## The device's spellings, on blocks -/

/-- One layer of the matrix unit on a block: both operands narrowed, multiplied into zeros, the broadcast row added. -/
theorem layer_block {R K N : ℕ}
    (w : DotDims.WF ⟨2, ![R, K]⟩ ⟨2, ![K, N]⟩ ⟨2, ![R, N]⟩ [1] [0] [0] [1] [] [])
    (hb : FTy.bits .bf16 < FTy.bits .f32) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 x0 hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, broadcastTo_1b_ab_apply]
  rfl

/-- The vector unit's larger-of with a splat of the zero word is the positive part. -/
theorem relu_block {s : Shape} (A : FVec Ideal s .f32) :
    maximumf A (broadcast s (Scalar.ofBits (F := Ideal) .f32 0x00000000#32)) = relu A := by
  funext j
  rfl

/-- Narrowing to a shorter float format changes nothing over the extended reals. -/
theorem truncf_id {s : Shape} (hb : FTy.bits .bf16 < FTy.bits .f32) (A : FVec Ideal s .f32) :
    (truncf .bf16 A hb : s.Idx → EReal) = A := rfl

/-- Widening back changes nothing either. -/
theorem extf_id {s : Shape} (hb : FTy.bits .bf16 < FTy.bits .f32) (A : FVec Ideal s .bf16) :
    (extf .f32 A hb : s.Idx → EReal) = A := rfl

/-- The three-layer block: what one grid point of the stack stores is `mlp3` of the blocks it loaded. -/
theorem mlp3_block {R K D : ℕ}
    (w0 : DotDims.WF ⟨2, ![R, K]⟩ ⟨2, ![K, D]⟩ ⟨2, ![R, D]⟩ [1] [0] [0] [1] [] [])
    (w1 : DotDims.WF ⟨2, ![R, D]⟩ ⟨2, ![D, D]⟩ ⟨2, ![R, D]⟩ [1] [0] [0] [1] [] [])
    (hb : FTy.bits .bf16 < FTy.bits .f32) (h2 : (⟨2, ![1, D]⟩ : Shape).ShapeCasts ⟨2, ![1, D]⟩)
    (hbc : (⟨2, ![1, D]⟩ : Shape).Broadcasts ⟨2, ![R, D]⟩)
    (x : FVec Ideal ⟨2, ![R, K]⟩ .f32) (W0 : FVec Ideal ⟨2, ![K, D]⟩ .f32) (B0 : FVec Ideal ⟨2, ![1, D]⟩ .f32)
    (W1 : FVec Ideal ⟨2, ![D, D]⟩ .f32) (B1 : FVec Ideal ⟨2, ![1, D]⟩ .f32)
    (W2 : FVec Ideal ⟨2, ![D, D]⟩ .f32) (B2 : FVec Ideal ⟨2, ![1, D]⟩ .f32) :
    (truncf .bf16
      (addf (matmul (⟨[1], [0], [0], [1], [], [], w1⟩ : DotDims ⟨2, ![R, D]⟩ ⟨2, ![D, D]⟩ ⟨2, ![R, D]⟩) none
        (truncf .bf16
          (maximumf
            (addf (matmul (⟨[1], [0], [0], [1], [], [], w1⟩ : DotDims ⟨2, ![R, D]⟩ ⟨2, ![D, D]⟩ ⟨2, ![R, D]⟩) none
              (truncf .bf16
                (maximumf
                  (addf (matmul (⟨[1], [0], [0], [1], [], [], w0⟩ : DotDims ⟨2, ![R, K]⟩ ⟨2, ![K, D]⟩ ⟨2, ![R, D]⟩) none
                      (truncf .bf16 x hb) (truncf .bf16 W0 hb) (constant (F := Ideal) ⟨2, ![R, D]⟩ .f32 0x00000000#32))
                    (broadcastTo ⟨2, ![R, D]⟩ (shapeCast ⟨2, ![1, D]⟩ B0 h2) hbc))
                  (broadcast ⟨2, ![R, D]⟩ (Scalar.ofBits (F := Ideal) .f32 0x00000000#32))) hb)
              (truncf .bf16 W1 hb) (constant (F := Ideal) ⟨2, ![R, D]⟩ .f32 0x00000000#32))
              (broadcastTo ⟨2, ![R, D]⟩ (shapeCast ⟨2, ![1, D]⟩ B1 h2) hbc))
            (broadcast ⟨2, ![R, D]⟩ (Scalar.ofBits (F := Ideal) .f32 0x00000000#32))) hb)
        (truncf .bf16 W2 hb) (constant (F := Ideal) ⟨2, ![R, D]⟩ .f32 0x00000000#32))
        (broadcastTo ⟨2, ![R, D]⟩ (shapeCast ⟨2, ![1, D]⟩ B2 h2) hbc)) hb : (⟨2, ![R, D]⟩ : Shape).Idx → EReal)
      = mlp3 x W0 B0 W1 B1 W2 B2 := by
  rw [truncf_id, layer_block, relu_block, layer_block, relu_block, layer_block]
  rfl

/-- The one-layer block with the positive part: what one grid point of the first graph layer stores. -/
theorem relu_dense_block {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    (truncf .bf16
      (maximumf
        (addf (matmul (⟨[1], [0], [0], [1], [], [], w⟩ : DotDims ⟨2, ![R, K]⟩ ⟨2, ![K, N]⟩ ⟨2, ![R, N]⟩) none
            (truncf .bf16 (shapeCast ⟨2, ![R, K]⟩ x0 h0) hb) (truncf .bf16 x1 hb)
            (constant (F := Ideal) ⟨2, ![R, N]⟩ .f32 0x00000000#32))
          (broadcastTo ⟨2, ![R, N]⟩ (shapeCast ⟨2, ![1, N]⟩ x2 h2) hbc))
        (broadcast ⟨2, ![R, N]⟩ (Scalar.ofBits (F := Ideal) .f32 0x00000000#32))) hb : (⟨2, ![R, N]⟩ : Shape).Idx → EReal)
      = relu (biasedProduct x0 x1 x2) := by
  rw [truncf_id, block_linear, relu_block]

/-- The vector unit's `combine` on blocks: three blocks (cast to their own shape, widened) added left to right,
    times the one-column block broadcast along the rows. -/
theorem combine_block {R C : ℕ} (hb : FTy.bits .bf16 < FTy.bits .f32)
    (h0 : (⟨2, ![R, C]⟩ : Shape).ShapeCasts ⟨2, ![R, C]⟩) (h1 : (⟨2, ![R, 1]⟩ : Shape).ShapeCasts ⟨2, ![R, 1]⟩)
    (hbc : (⟨2, ![R, 1]⟩ : Shape).Broadcasts ⟨2, ![R, C]⟩)
    (a b cc : FVec Ideal ⟨2, ![R, C]⟩ .bf16) (n : FVec Ideal ⟨2, ![R, 1]⟩ .f32) :
    mulf (addf (addf (extf .f32 (shapeCast ⟨2, ![R, C]⟩ a h0) hb) (extf .f32 (shapeCast ⟨2, ![R, C]⟩ b h0) hb))
          (extf .f32 (shapeCast ⟨2, ![R, C]⟩ cc h0) hb))
        (broadcastTo ⟨2, ![R, C]⟩ (shapeCast ⟨2, ![R, 1]⟩ n h1) hbc)
      = combine a b cc n := by
  funext j
  obtain ⟨p, l, rfl⟩ : ∃ (p : Fin R) (l : Fin C), j = ix2 p l := ⟨j 0, j 1, eq_ix2 j⟩
  simp only [shapeCast_self]
  rw [mulf_apply, broadcastTo_a1_ab_apply]
  rfl

/-- The vector unit's row scaling on blocks. -/
theorem scale_block {R C : ℕ} (hb : FTy.bits .bf16 < FTy.bits .f32)
    (h0 : (⟨2, ![R, C]⟩ : Shape).ShapeCasts ⟨2, ![R, C]⟩) (h1 : (⟨2, ![R, 1]⟩ : Shape).ShapeCasts ⟨2, ![R, 1]⟩)
    (hbc : (⟨2, ![R, 1]⟩ : Shape).Broadcasts ⟨2, ![R, C]⟩)
    (a : FVec Ideal ⟨2, ![R, C]⟩ .bf16) (n : FVec Ideal ⟨2, ![R, 1]⟩ .f32) :
    mulf (extf .f32 (shapeCast ⟨2, ![R, C]⟩ a h0) hb) (broadcastTo ⟨2, ![R, C]⟩ (shapeCast ⟨2, ![R, 1]⟩ n h1) hbc)
      = scaleRows a n := by
  funext j
  obtain ⟨p, l, rfl⟩ : ∃ (p : Fin R) (l : Fin C), j = ix2 p l := ⟨j 0, j 1, eq_ix2 j⟩
  simp only [shapeCast_self]
  rw [mulf_apply, broadcastTo_a1_ab_apply]
  rfl

end Cert.Gnn

end
-- ==== Proof.FormsAt.lean ====
/-
  The dense forms read at one entry of a block, against the whole arrays.
  A row-tiled device call holds, at a grid point, one block of rows of its row-indexed operand and ALL of its other
  operands (the right factors and the added rows). Entry j of what it computes from these is entry i of the same
  form of the whole arrays, as soon as j and i are in the same column and row (j 0) of the block is row (i 0) of the
  array.
-/
import proofs.«165014_j22557168239387_2_alg».proof.Proof.Forms

noncomputable section

namespace Cert.Gnn

open Idealize.ShloMosaic Idealize.ShloMosaic.ValueIdx Cert.MatrixProduct Cert.Gcn

/-- A dense layer at an entry of a block. -/
theorem dense_at {M R K N : ℕ} (X : (⟨2, ![M, K]⟩ : Shape).Idx → EReal) (x : (⟨2, ![R, K]⟩ : Shape).Idx → EReal)
    (W w : (⟨2, ![K, N]⟩ : Shape).Idx → EReal) (B b : (⟨2, ![1, N]⟩ : Shape).Idx → EReal) (hW : w = W) (hB : b = B)
    (j : (⟨2, ![R, N]⟩ : Shape).Idx) (i : (⟨2, ![M, N]⟩ : Shape).Idx) (hcol : (j 1).val = (i 1).val)
    (hrow : ∀ k : Fin K, x (ix2 (j 0) k) = X (ix2 (i 0) k)) :
    biasedProduct x w b j = biasedProduct X W B i := by
  subst hW hB
  obtain ⟨p, q, rfl⟩ : ∃ (p : Fin R) (q : Fin N), j = ix2 p q := ⟨j 0, j 1, eq_ix2 j⟩
  obtain ⟨r, q', rfl⟩ : ∃ (r : Fin M) (q' : Fin N), i = ix2 r q' := ⟨i 0, i 1, eq_ix2 i⟩
  obtain rfl : q = q' := Fin.ext hcol
  exact dense_row X x w b p r hrow q

/-- The positive part of a dense layer at an entry of a block. -/
theorem relu_dense_at {M R K N : ℕ} (X : (⟨2, ![M, K]⟩ : Shape).Idx → EReal) (x : (⟨2, ![R, K]⟩ : Shape).Idx → EReal)
    (W w : (⟨2, ![K, N]⟩ : Shape).Idx → EReal) (B b : (⟨2, ![1, N]⟩ : Shape).Idx → EReal) (hW : w = W) (hB : b = B)
    (j : (⟨2, ![R, N]⟩ : Shape).Idx) (i : (⟨2, ![M, N]⟩ : Shape).Idx) (hcol : (j 1).val = (i 1).val)
    (hrow : ∀ k : Fin K, x (ix2 (j 0) k) = X (ix2 (i 0) k)) :
    relu (biasedProduct x w b) j = relu (biasedProduct X W B) i :=
  relu_at _ _ _ _ (dense_at X x W w B b hW hB j i hcol hrow)

/-- The three-layer stack at an entry of a block. -/
theorem mlp3_at {M R K D : ℕ} (X : (⟨2, ![M, K]⟩ : Shape).Idx → EReal) (x : (⟨2, ![R, K]⟩ : Shape).Idx → EReal)
    (W0 w0 : (⟨2, ![K, D]⟩ : Shape).Idx → EReal) (B0 b0 : (⟨2, ![1, D]⟩ : Shape).Idx → EReal)
    (W1 w1 : (⟨2, ![D, D]⟩ : Shape).Idx → EReal) (B1 b1 : (⟨2, ![1, D]⟩ : Shape).Idx → EReal)
    (W2 w2 : (⟨2, ![D, D]⟩ : Shape).Idx → EReal) (B2 b2 : (⟨2, ![1, D]⟩ : Shape).Idx → EReal)
    (hW0 : w0 = W0) (hB0 : b0 = B0) (hW1 : w1 = W1) (hB1 : b1 = B1) (hW2 : w2 = W2) (hB2 : b2 = B2)
    (j : (⟨2, ![R, D]⟩ : Shape).Idx) (i : (⟨2, ![M, D]⟩ : Shape).Idx) (hcol : (j 1).val = (i 1).val)
    (hrow : ∀ k : Fin K, x (ix2 (j 0) k) = X (ix2 (i 0) k)) :
    mlp3 x w0 b0 w1 b1 w2 b2 j = mlp3 X W0 B0 W1 B1 W2 B2 i := by
  subst hW0 hB0 hW1 hB1 hW2 hB2
  obtain ⟨p, q, rfl⟩ : ∃ (p : Fin R) (q : Fin D), j = ix2 p q := ⟨j 0, j 1, eq_ix2 j⟩
  obtain ⟨r, q', rfl⟩ : ∃ (r : Fin M) (q' : Fin D), i = ix2 r q' := ⟨i 0, i 1, eq_ix2 i⟩
  obtain rfl : q = q' := Fin.ext hcol
  exact mlp3_row X x w0 b0 w1 b1 w2 b2 p r hrow q

end Cert.Gnn

end
-- ==== Proof.Region6.lean ====
/-
  The row-scaling computation (the sixth device call), as one function of the arrays it finds.
  Its grid has 200 points; point t loads rows 4000·t … 4000·t + 3999 of the 800000 × 64 array and of the
  800000 × 1 column of factors, and stores the rows times their factors as the same rows of the result. Every
  row of the result is written by exactly one point, so when the call returns the result array holds, at (e, l),
  the entry (e, l) of the array times the factor of row e.
-/
import proofs.«165014_j22557168239387_2_alg».proof.Proof.Gen.KernelIdeal.Frame
import proofs.«165014_j22557168239387_2_alg».proof.Proof.Forms
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A product of equals. -/
theorem mul_congr {a a' b b' : EReal} (h1 : a = a') (h2 : b = b') : a * b = a' * b' := by rw [h1, h2]

theorem hz2 : (![0, 0] : Fin 2 → Nat) = fun _ => 0 := funext fun a => by fin_cases a <;> rfl

/-- What one point stores is `scaleRows` of the two blocks it loaded. -/
theorem pay6_eq (x0 : Vec Ideal S4000x64 .bf16) (x1 : Vec Ideal S4000x1 .f32) :
    k6_pay1 (F := Ideal) x0 x1 = scaleRows x0 x1 := by
  unfold k6_pay1
  exact scale_block _ _ _ _ _ _

/-- The three index maps over the grid: each window's block row is the point's number, its block column 0. -/
theorem idx_facts6 : ∀ t : Fin cfg6.N, win6_0.index t (0 : Fin 2) = win6_2.index t (0 : Fin 2)
    ∧ win6_0.index t (1 : Fin 2) = 0 ∧ win6_1.index t (0 : Fin 2) = win6_2.index t (0 : Fin 2)
    ∧ win6_1.index t (1 : Fin 2) = 0 ∧ win6_2.index t (1 : Fin 2) = 0 ∧ win6_2.index t (0 : Fin 2) ≤ 199 :=
  (by decide +kernel : ∀ t : Fin grid6.N, _)

/-- Every block row is some point's. -/
theorem idx_onto6 : ∀ q0 : Fin 200, ∃ t : Fin cfg6.N, win6_2.index t = ![q0.val, 0] :=
  (by decide +kernel : ∀ q0 : Fin 200, ∃ t : Fin grid6.N, win6_2.index t = ![q0.val, 0])

/-- What point `t` writes back is block `t` of `scaleRows` of the two arrays as the call finds them. -/
theorem flushed6 (c : Dev nD) (t : Fin cfg6.N) :
    (dat6 V c).flushed 2 t = ((cfg6.win 2).blk t).view.read (Elt Ideal) (scaleRows (V c main_v81) (V c main_v39)) := by
  show (cfg6.win 2).cut (grid6.coords t) ((dat6 V c).after 2 t) = _
  rw [after6_2]
  unfold out6_2
  rw [View.canon_unit_zero hz2]
  simp only [View.ld_unit_zero (S := S4000x64) hz2, View.ld_unit_zero (S := S4000x1) hz2]
  rw [pay6_eq]
  obtain ⟨e0, e1, e2, e3, e4, e5⟩ := idx_facts6 t
  funext j
  have hj0 : (j 0).val < 4000 := (j 0).isLt
  have hj1 : (j 1).val < 64 := (j 1).isLt
  have h0 : ((cfg6.win 0).blk t).view.emb j = ((cfg6.win 2).blk t).view.emb j := by
    funext a; apply Fin.ext
    match a with
    | ⟨0, _⟩ => show win6_0.index t (0 : Fin 2) * 4000 + 1 * (j 0).val = win6_2.index t (0 : Fin 2) * 4000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb (ix2 ⟨(j 0).val, hj0⟩ (0 : Fin 1))
      = ix2 ⟨((((cfg6.win 2).blk t).view.emb j) 0).val, (((cfg6.win 2).blk t).view.emb j 0).isLt⟩ (0 : Fin 1) := by
    funext a; apply Fin.ext
    match a with
    | ⟨0, _⟩ => show win6_1.index t (0 : Fin 2) * 4000 + 1 * (j 0).val = win6_2.index t (0 : Fin 2) * 4000 + 1 * (j 0).val; omega
    | ⟨1, _⟩ => show win6_1.index t (1 : Fin 2) * 1 + 1 * 0 = 0; omega
  exact mul_congr (congrArg (V c main_v81) h0) (congrArg (V c main_v39) h1)

/-- An index of the result is in point `t`'s block iff each coordinate is in the block's range on its axis. -/
theorem mem_blk6 (t : Fin cfg6.N) (i : S800000x64.Idx) :
    i ∈ ((cfg6.win 2).blk t).view.set ↔ ∀ a : Fin 2, win6_2.index t a * S4000x64.size a ≤ (i a).val ∧ (i a).val < win6_2.index t a * S4000x64.size a + S4000x64.size a := by
  show i ∈ ((View.whole main_v82).slice (win6_2.rect t)).set ↔ _
  rw [View.set_slice_whole, Rect.mem_set_unit]
  exact Iff.rfl

/-- Every index of the result is in some point's block: row e is in block e / 4000. -/
theorem cover6 (i : S800000x64.Idx) :
    ∃ t : Fin cfg6.N, (cfg6.win 2).flush t = true ∧ i ∈ ((cfg6.win 2).blk t).view.set := by
  have hi0 : (i 0).val < 800000 := (i 0).isLt
  have hi1 : (i 1).val < 64 := (i 1).isLt
  obtain ⟨t, ht⟩ := idx_onto6 ⟨(i 0).val / 4000, by omega⟩
  have q0 : win6_2.index t (0 : Fin 2) = (i 0).val / 4000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 64 ≤ (i 1).val ∧ (i 1).val < win6_2.index t (1 : Fin 2) * 64 + 64; omega

/-- THE RESULT ARRAY when the call returns: each row of the array it found times that row's factor. -/
theorem final6 (c : Dev nD) :
    (dat6 V c).arrAt 2 cfg6.N = scaleRows (V c main_v81) (V c main_v39) :=
  (dat6 V c).arrAt_eq_of_cover 2 _ (fun t _ => flushed6 V c t) cover6

end Cert.KernelIdeal.Regions

end
-- ==== Proof.Region0.lean ====
/-
  The three-layer dense stack on the node features (a device call), as one function of the arrays it finds.
  Its grid has 25 points; point t loads rows 2000·t … 2000·t + 1999 of the 50000 × 32 feature array together with
  the WHOLE of the three weight matrices and the three 1 × 64 rows, and stores the stack's value on those rows as
  the same rows of the 50000 × 64 result. A row of the stack's value depends on that row of the features only, and every
  row of the result is written by exactly one point: so when the call returns the result array is the stack's value on
  the whole feature array.
-/
import proofs.«165014_j22557168239387_2_alg».proof.Proof.Gen.KernelIdeal.Frame
import proofs.«165014_j22557168239387_2_alg».proof.Proof.Forms
import proofs.«165014_j22557168239387_2_alg».proof.Proof.FormsAt
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- What one point stores, as a function of the blocks it loaded. -/
theorem pay0_eq (x0 : Vec Ideal S2000x32 .f32) (x1 : Vec Ideal S32x64 .f32) (x2 : Vec Ideal S1x64 .f32) (x3 : Vec Ideal S64x64 .f32) (x4 : Vec Ideal S1x64 .f32) (x5 : Vec Ideal S64x64 .f32) (x6 : Vec Ideal S1x64 .f32) :
    (k0_pay1 (F := Ideal) x0 x1 x2 x3 x4 x5 x6 : S2000x64.Idx → EReal) = mlp3 x0 x1 x2 x3 x4 x5 x6 := by
  unfold k0_pay1
  exact mlp3_block _ _ _ _ _ _ _ _ _ _ _ _

/-- The index maps over the grid: the row-indexed windows' block row is the point's number, every other block index 0. -/
theorem idx_facts0 : ∀ t : Fin cfg0.N, win0_0.index t (0 : Fin 2) = win0_7.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (1 : Fin 2) = 0
    ∧ win0_7.index t (0 : Fin 2) ≤ 24 :=
  (by decide +kernel : ∀ t : Fin grid0.N, _)

/-- Every block row is some point's. -/
theorem idx_onto0 : ∀ q0 : Fin 25, ∃ t : Fin cfg0.N, win0_7.index t = ![q0.val, 0] :=
  (by decide +kernel : ∀ q0 : Fin 25, ∃ t : Fin grid0.N, win0_7.index t = ![q0.val, 0])

/-- Window 1 is the whole of its array at every point. -/
theorem whole0_1 (c : Dev nD) (t : Fin cfg0.N) : iblk0 V c 1 t = V c main_arg3 := by
  obtain ⟨e0, e1, e2, e3, e4, e5, e6, e7, e8, e9, e10, e11, e12, e13, e14, e15⟩ := idx_facts0 t
  funext y
  refine congrArg (V c main_arg3) ?_
  funext a; apply Fin.ext
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- Window 2 is the whole of its array at every point. -/
theorem whole0_2 (c : Dev nD) (t : Fin cfg0.N) : iblk0 V c 2 t = V c main_v0 := by
  obtain ⟨e0, e1, e2, e3, e4, e5, e6, e7, e8, e9, e10, e11, e12, e13, e14, e15⟩ := idx_facts0 t
  funext y
  refine congrArg (V c main_v0) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3 is the whole of its array at every point. -/
theorem whole0_3 (c : Dev nD) (t : Fin cfg0.N) : iblk0 V c 3 t = V c main_arg5 := by
  obtain ⟨e0, e1, e2, e3, e4, e5, e6, e7, e8, e9, e10, e11, e12, e13, e14, e15⟩ := idx_facts0 t
  funext y
  refine congrArg (V c main_arg5) ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4 is the whole of its array at every point. -/
theorem whole0_4 (c : Dev nD) (t : Fin cfg0.N) : iblk0 V c 4 t = V c main_v1 := by
  obtain ⟨e0, e1, e2, e3, e4, e5, e6, e7, e8, e9, e10, e11, e12, e13, e14, e15⟩ := idx_facts0 t
  funext y
  refine congrArg (V c main_v1) ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5 is the whole of its array at every point. -/
theorem whole0_5 (c : Dev nD) (t : Fin cfg0.N) : iblk0 V c 5 t = V c main_arg7 := by
  obtain ⟨e0, e1, e2, e3, e4, e5, e6, e7, e8, e9, e10, e11, e12, e13, e14, e15⟩ := idx_facts0 t
  funext y
  refine congrArg (V c main_arg7) ?_
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6 is the whole of its array at every point. -/
theorem whole0_6 (c : Dev nD) (t : Fin cfg0.N) : iblk0 V c 6 t = V c main_v2 := by
  obtain ⟨e0, e1, e2, e3, e4, e5, e6, e7, e8, e9, e10, e11, e12, e13, e14, e15⟩ := idx_facts0 t
  funext y
  refine congrArg (V c main_v2) ?_
  funext a; apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- What point `t` writes back is block `t` of the whole arrays' form. -/
theorem flushed0 (c : Dev nD) (t : Fin cfg0.N) :
    (dat0 V c).flushed 7 t = ((cfg0.win 7).blk t).view.read (Elt Ideal) (mlp3 (V c main_arg0) (V c main_arg3) (V c main_v0) (V c main_arg5) (V c main_v1) (V c main_arg7) (V c main_v2)) := by
  show (cfg0.win 7).cut (grid0.coords t) ((dat0 V c).after 7 t) = _
  rw [after0_7]
  unfold out0_7
  rw [View.canon_unit_zero hz2]
  simp only [View.ld_unit_zero (S := S2000x32) hz2, View.ld_unit_zero (S := S32x64) hz2, View.ld_unit_zero (S := S1x64) hz2, View.ld_unit_zero (S := S64x64) hz2]
  rw [pay0_eq]
  obtain ⟨e0, e1, e2, e3, e4, e5, e6, e7, e8, e9, e10, e11, e12, e13, e14, e15⟩ := idx_facts0 t
  funext j
  have hj0 : (j 0).val < 2000 := (j 0).isLt
  have hj1 : (j 1).val < 64 := (j 1).isLt
  refine mlp3_at (V c main_arg0) (iblk0 V c 0 t) (V c main_arg3) (iblk0 V c 1 t) (V c main_v0) (iblk0 V c 2 t) (V c main_arg5) (iblk0 V c 3 t) (V c main_v1) (iblk0 V c 4 t) (V c main_arg7) (iblk0 V c 5 t) (V c main_v2) (iblk0 V c 6 t) (whole0_1 V c t) (whole0_2 V c t) (whole0_3 V c t) (whole0_4 V c t) (whole0_5 V c t) (whole0_6 V c t) j (((cfg0.win 7).blk t).view.emb j) ?_ (fun k => ?_)
  · show (j 1).val = win0_7.index t (1 : Fin 2) * 64 + 1 * (j 1).val
    omega
  · refine congrArg (V c main_arg0) ?_
    funext a; apply Fin.ext
    match a with
    | ⟨0, _⟩ => show win0_0.index t (0 : Fin 2) * 2000 + 1 * (j 0).val = win0_7.index t (0 : Fin 2) * 2000 + 1 * (j 0).val; omega
    | ⟨1, _⟩ => show win0_0.index t (1 : Fin 2) * 32 + 1 * k.val = k.val; omega

/-- An index of the result is in point `t`'s block iff each coordinate is in the block's range on its axis. -/
theorem mem_blk0 (t : Fin cfg0.N) (i : S50000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v3).slice (win0_7.rect t)).set ↔ _
  rw [View.set_slice_whole, Rect.mem_set_unit]
  exact Iff.rfl

/-- Every index of the result is in some point's block: row e is in block e / 2000. -/
theorem cover0 (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ := idx_onto0 ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 64 ≤ (i 1).val ∧ (i 1).val < win0_7.index t (1 : Fin 2) * 64 + 64; omega

/-- THE RESULT ARRAY when the call returns. -/
theorem final0 (c : Dev nD) :
    (dat0 V c).arrAt 7 cfg0.N = mlp3 (V c main_arg0) (V c main_arg3) (V c main_v0) (V c main_arg5) (V c main_v1) (V c main_arg7) (V c main_v2) :=
  (dat0 V c).arrAt_eq_of_cover 7 _ (fun t _ => flushed0 V c t) cover0

end Cert.KernelIdeal.Regions

end
-- ==== Proof.Region1.lean ====
/-
  The three-layer dense stack on the features of the first kind of edge (a device call), as one function of the arrays it finds.
  Its grid has 125 points; point t loads rows 4000·t … 4000·t + 3999 of the 500000 × 16 feature array together with
  the WHOLE of the three weight matrices and the three 1 × 64 rows, and stores the stack's value on those rows as
  the same rows of the 500000 × 64 result. A row of the stack's value depends on that row of the features only, and every
  row of the result is written by exactly one point: so when the call returns the result array is the stack's value on
  the whole feature array.
-/
import proofs.«165014_j22557168239387_2_alg».proof.Proof.Gen.KernelIdeal.Frame
import proofs.«165014_j22557168239387_2_alg».proof.Proof.Forms
import proofs.«165014_j22557168239387_2_alg».proof.Proof.FormsAt
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- What one point stores, as a function of the blocks it loaded. -/
theorem pay1_eq (x0 : Vec Ideal S4000x16 .f32) (x1 : Vec Ideal S16x64 .f32) (x2 : Vec Ideal S1x64 .f32) (x3 : Vec Ideal S64x64 .f32) (x4 : Vec Ideal S1x64 .f32) (x5 : Vec Ideal S64x64 .f32) (x6 : Vec Ideal S1x64 .f32) :
    (k1_pay1 (F := Ideal) x0 x1 x2 x3 x4 x5 x6 : S4000x64.Idx → EReal) = mlp3 x0 x1 x2 x3 x4 x5 x6 := by
  unfold k1_pay1
  exact mlp3_block _ _ _ _ _ _ _ _ _ _ _ _

/-- The index maps over the grid: the row-indexed windows' block row is the point's number, every other block index 0. -/
theorem idx_facts1 : ∀ t : Fin cfg1.N, win1_0.index t (0 : Fin 2) = win1_7.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (1 : Fin 2) = 0
    ∧ win1_7.index t (0 : Fin 2) ≤ 124 :=
  (by decide +kernel : ∀ t : Fin grid1.N, _)

/-- Every block row is some point's. -/
theorem idx_onto1 : ∀ q0 : Fin 125, ∃ t : Fin cfg1.N, win1_7.index t = ![q0.val, 0] :=
  (by decide +kernel : ∀ q0 : Fin 125, ∃ t : Fin grid1.N, win1_7.index t = ![q0.val, 0])

/-- Window 1 is the whole of its array at every point. -/
theorem whole1_1 (c : Dev nD) (t : Fin cfg1.N) : iblk1 V c 1 t = V c main_arg9 := by
  obtain ⟨e0, e1, e2, e3, e4, e5, e6, e7, e8, e9, e10, e11, e12, e13, e14, e15⟩ := idx_facts1 t
  funext y
  refine congrArg (V c main_arg9) ?_
  funext a; apply Fin.ext
  match a with
  | ⟨0, _⟩ => show win1_1.index t (0 : Fin 2) * 16 + 1 * (y 0).val = (y 0).val; omega
  | ⟨1, _⟩ => show win1_1.index t (1 : Fin 2) * 64 + 1 * (y 1).val = (y 1).val; omega

/-- Window 2 is the whole of its array at every point. -/
theorem whole1_2 (c : Dev nD) (t : Fin cfg1.N) : iblk1 V c 2 t = V c main_v4 := by
  obtain ⟨e0, e1, e2, e3, e4, e5, e6, e7, e8, e9, e10, e11, e12, e13, e14, e15⟩ := idx_facts1 t
  funext y
  refine congrArg (V c main_v4) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3 is the whole of its array at every point. -/
theorem whole1_3 (c : Dev nD) (t : Fin cfg1.N) : iblk1 V c 3 t = V c main_arg11 := by
  obtain ⟨e0, e1, e2, e3, e4, e5, e6, e7, e8, e9, e10, e11, e12, e13, e14, e15⟩ := idx_facts1 t
  funext y
  refine congrArg (V c main_arg11) ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4 is the whole of its array at every point. -/
theorem whole1_4 (c : Dev nD) (t : Fin cfg1.N) : iblk1 V c 4 t = V c main_v5 := by
  obtain ⟨e0, e1, e2, e3, e4, e5, e6, e7, e8, e9, e10, e11, e12, e13, e14, e15⟩ := idx_facts1 t
  funext y
  refine congrArg (V c main_v5) ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 5 is the whole of its array at every point. -/
theorem whole1_5 (c : Dev nD) (t : Fin cfg1.N) : iblk1 V c 5 t = V c main_arg13 := by
  obtain ⟨e0, e1, e2, e3, e4, e5, e6, e7, e8, e9, e10, e11, e12, e13, e14, e15⟩ := idx_facts1 t
  funext y
  refine congrArg (V c main_arg13) ?_
  funext a; apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6 is the whole of its array at every point. -/
theorem whole1_6 (c : Dev nD) (t : Fin cfg1.N) : iblk1 V c 6 t = V c main_v6 := by
  obtain ⟨e0, e1, e2, e3, e4, e5, e6, e7, e8, e9, e10, e11, e12, e13, e14, e15⟩ := idx_facts1 t
  funext y
  refine congrArg (V c main_v6) ?_
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- What point `t` writes back is block `t` of the whole arrays' form. -/
theorem flushed1 (c : Dev nD) (t : Fin cfg1.N) :
    (dat1 V c).flushed 7 t = ((cfg1.win 7).blk t).view.read (Elt Ideal) (mlp3 (V c main_arg1) (V c main_arg9) (V c main_v4) (V c main_arg11) (V c main_v5) (V c main_arg13) (V c main_v6)) := by
  show (cfg1.win 7).cut (grid1.coords t) ((dat1 V c).after 7 t) = _
  rw [after1_7]
  unfold out1_7
  rw [View.canon_unit_zero hz2]
  simp only [View.ld_unit_zero (S := S4000x16) hz2, View.ld_unit_zero (S := S16x64) hz2, View.ld_unit_zero (S := S1x64) hz2, View.ld_unit_zero (S := S64x64) hz2]
  rw [pay1_eq]
  obtain ⟨e0, e1, e2, e3, e4, e5, e6, e7, e8, e9, e10, e11, e12, e13, e14, e15⟩ := idx_facts1 t
  funext j
  have hj0 : (j 0).val < 4000 := (j 0).isLt
  have hj1 : (j 1).val < 64 := (j 1).isLt
  refine mlp3_at (V c main_arg1) (iblk1 V c 0 t) (V c main_arg9) (iblk1 V c 1 t) (V c main_v4) (iblk1 V c 2 t) (V c main_arg11) (iblk1 V c 3 t) (V c main_v5) (iblk1 V c 4 t) (V c main_arg13) (iblk1 V c 5 t) (V c main_v6) (iblk1 V c 6 t) (whole1_1 V c t) (whole1_2 V c t) (whole1_3 V c t) (whole1_4 V c t) (whole1_5 V c t) (whole1_6 V c t) j (((cfg1.win 7).blk t).view.emb j) ?_ (fun k => ?_)
  · show (j 1).val = win1_7.index t (1 : Fin 2) * 64 + 1 * (j 1).val
    omega
  · refine congrArg (V c main_arg1) ?_
    funext a; apply Fin.ext
    match a with
    | ⟨0, _⟩ => show win1_0.index t (0 : Fin 2) * 4000 + 1 * (j 0).val = win1_7.index t (0 : Fin 2) * 4000 + 1 * (j 0).val; omega
    | ⟨1, _⟩ => show win1_0.index t (1 : Fin 2) * 16 + 1 * k.val = k.val; omega

/-- An index of the result is in point `t`'s block iff each coordinate is in the block's range on its axis. -/
theorem mem_blk1 (t : Fin cfg1.N) (i : S500000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v7).slice (win1_7.rect t)).set ↔ _
  rw [View.set_slice_whole, Rect.mem_set_unit]
  exact Iff.rfl

/-- Every index of the result is in some point's block: row e is in block e / 4000. -/
theorem cover1 (i : S500000x64.Idx) :
    ∃ t : Fin cfg1.N, (cfg1.win 7).flush t = true ∧ i ∈ ((cfg1.win 7).blk t).view.set := by
  have hi0 : (i 0).val < 500000 := (i 0).isLt
  have hi1 : (i 1).val < 64 := (i 1).isLt
  obtain ⟨t, ht⟩ := idx_onto1 ⟨(i 0).val / 4000, by omega⟩
  have q0 : win1_7.index t (0 : Fin 2) = (i 0).val / 4000 := congrFun ht 0
  have q1 : win1_7.index t (1 : Fin 2) = 0 := congrFun ht 1
  refine ⟨t, flush1_7 t, ?_⟩
  rw [mem_blk1]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 64 ≤ (i 1).val ∧ (i 1).val < win1_7.index t (1 : Fin 2) * 64 + 64; omega

/-- THE RESULT ARRAY when the call returns. -/
theorem final1 (c : Dev nD) :
    (dat1 V c).arrAt 7 cfg1.N = mlp3 (V c main_arg1) (V c main_arg9) (V c main_v4) (V c main_arg11) (V c main_v5) (V c main_arg13) (V c main_v6) :=
  (dat1 V c).arrAt_eq_of_cover 7 _ (fun t _ => flushed1 V c t) cover1

end Cert.KernelIdeal.Regions

end
-- ==== Proof.Region2.lean ====
/-
  The three-layer dense stack on the features of the second kind of edge (a device call), as one function of the arrays it finds.
  Its grid has 75 points; point t loads rows 4000·t … 4000·t + 3999 of the 300000 × 8 feature array together with
  the WHOLE of the three weight matrices and the three 1 × 64 rows, and stores the stack's value on those rows as
  the same rows of the 300000 × 64 result. A row of the stack's value depends on that row of the features only, and every
  row of the result is written by exactly one point: so when the call returns the result array is the stack's value on
  the whole feature array.
-/
import proofs.«165014_j22557168239387_2_alg».proof.Proof.Gen.KernelIdeal.Frame
import proofs.«165014_j22557168239387_2_alg».proof.Proof.Forms
import proofs.«165014_j22557168239387_2_alg».proof.Proof.FormsAt
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- What one point stores, as a function of the blocks it loaded. -/
theorem pay2_eq (x0 : Vec Ideal S4000x8 .f32) (x1 : Vec Ideal S8x64 .f32) (x2 : Vec Ideal S1x64 .f32) (x3 : Vec Ideal S64x64 .f32) (x4 : Vec Ideal S1x64 .f32) (x5 : Vec Ideal S64x64 .f32) (x6 : Vec Ideal S1x64 .f32) :
    (k2_pay1 (F := Ideal) x0 x1 x2 x3 x4 x5 x6 : S4000x64.Idx → EReal) = mlp3 x0 x1 x2 x3 x4 x5 x6 := by
  unfold k2_pay1
  exact mlp3_block _ _ _ _ _ _ _ _ _ _ _ _

/-- The index maps over the grid: the row-indexed windows' block row is the point's number, every other block index 0. -/
theorem idx_facts2 : ∀ t : Fin cfg2.N, win2_0.index t (0 : Fin 2) = win2_7.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (1 : Fin 2) = 0
    ∧ win2_7.index t (0 : Fin 2) ≤ 74 :=
  (by decide +kernel : ∀ t : Fin grid2.N, _)

/-- Every block row is some point's. -/
theorem idx_onto2 : ∀ q0 : Fin 75, ∃ t : Fin cfg2.N, win2_7.index t = ![q0.val, 0] :=
  (by decide +kernel : ∀ q0 : Fin 75, ∃ t : Fin grid2.N, win2_7.index t = ![q0.val, 0])

/-- Window 1 is the whole of its array at every point. -/
theorem whole2_1 (c : Dev nD) (t : Fin cfg2.N) : iblk2 V c 1 t = V c main_arg15 := by
  obtain ⟨e0, e1, e2, e3, e4, e5, e6, e7, e8, e9, e10, e11, e12, e13, e14, e15⟩ := idx_facts2 t
  funext y
  refine congrArg (V c main_arg15) ?_
  funext a; apply Fin.ext
  match a with
  | ⟨0, _⟩ => show win2_1.index t (0 : Fin 2) * 8 + 1 * (y 0).val = (y 0).val; omega
  | ⟨1, _⟩ => show win2_1.index t (1 : Fin 2) * 64 + 1 * (y 1).val = (y 1).val; omega

/-- Window 2 is the whole of its array at every point. -/
theorem whole2_2 (c : Dev nD) (t : Fin cfg2.N) : iblk2 V c 2 t = V c main_v8 := by
  obtain ⟨e0, e1, e2, e3, e4, e5, e6, e7, e8, e9, e10, e11, e12, e13, e14, e15⟩ := idx_facts2 t
  funext y
  refine congrArg (V c main_v8) ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Window 3 is the whole of its array at every point. -/
theorem whole2_3 (c : Dev nD) (t : Fin cfg2.N) : iblk2 V c 3 t = V c main_arg17 := by
  obtain ⟨e0, e1, e2, e3, e4, e5, e6, e7, e8, e9, e10, e11, e12, e13, e14, e15⟩ := idx_facts2 t
  funext y
  refine congrArg (V c main_arg17) ?_
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4 is the whole of its array at every point. -/
theorem whole2_4 (c : Dev nD) (t : Fin cfg2.N) : iblk2 V c 4 t = V c main_v9 := by
  obtain ⟨e0, e1, e2, e3, e4, e5, e6, e7, e8, e9, e10, e11, e12, e13, e14, e15⟩ := idx_facts2 t
  funext y
  refine congrArg (V c main_v9) ?_
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Window 5 is the whole of its array at every point. -/
theorem whole2_5 (c : Dev nD) (t : Fin cfg2.N) : iblk2 V c 5 t = V c main_arg19 := by
  obtain ⟨e0, e1, e2, e3, e4, e5, e6, e7, e8, e9, e10, e11, e12, e13, e14, e15⟩ := idx_facts2 t
  funext y
  refine congrArg (V c main_arg19) ?_
  funext a; apply Fin.ext
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- Window 6 is the whole of its array at every point. -/
theorem whole2_6 (c : Dev nD) (t : Fin cfg2.N) : iblk2 V c 6 t = V c main_v10 := by
  obtain ⟨e0, e1, e2, e3, e4, e5, e6, e7, e8, e9, e10, e11, e12, e13, e14, e15⟩ := idx_facts2 t
  funext y
  refine congrArg (V c main_v10) ?_
  funext a; apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- What point `t` writes back is block `t` of the whole arrays' form. -/
theorem flushed2 (c : Dev nD) (t : Fin cfg2.N) :
    (dat2 V c).flushed 7 t = ((cfg2.win 7).blk t).view.read (Elt Ideal) (mlp3 (V c main_arg2) (V c main_arg15) (V c main_v8) (V c main_arg17) (V c main_v9) (V c main_arg19) (V c main_v10)) := by
  show (cfg2.win 7).cut (grid2.coords t) ((dat2 V c).after 7 t) = _
  rw [after2_7]
  unfold out2_7
  rw [View.canon_unit_zero hz2]
  simp only [View.ld_unit_zero (S := S4000x8) hz2, View.ld_unit_zero (S := S8x64) hz2, View.ld_unit_zero (S := S1x64) hz2, View.ld_unit_zero (S := S64x64) hz2]
  rw [pay2_eq]
  obtain ⟨e0, e1, e2, e3, e4, e5, e6, e7, e8, e9, e10, e11, e12, e13, e14, e15⟩ := idx_facts2 t
  funext j
  have hj0 : (j 0).val < 4000 := (j 0).isLt
  have hj1 : (j 1).val < 64 := (j 1).isLt
  refine mlp3_at (V c main_arg2) (iblk2 V c 0 t) (V c main_arg15) (iblk2 V c 1 t) (V c main_v8) (iblk2 V c 2 t) (V c main_arg17) (iblk2 V c 3 t) (V c main_v9) (iblk2 V c 4 t) (V c main_arg19) (iblk2 V c 5 t) (V c main_v10) (iblk2 V c 6 t) (whole2_1 V c t) (whole2_2 V c t) (whole2_3 V c t) (whole2_4 V c t) (whole2_5 V c t) (whole2_6 V c t) j (((cfg2.win 7).blk t).view.emb j) ?_ (fun k => ?_)
  · show (j 1).val = win2_7.index t (1 : Fin 2) * 64 + 1 * (j 1).val
    omega
  · refine congrArg (V c main_arg2) ?_
    funext a; apply Fin.ext
    match a with
    | ⟨0, _⟩ => show win2_0.index t (0 : Fin 2) * 4000 + 1 * (j 0).val = win2_7.index t (0 : Fin 2) * 4000 + 1 * (j 0).val; omega
    | ⟨1, _⟩ => show win2_0.index t (1 : Fin 2) * 8 + 1 * k.val = k.val; omega

/-- An index of the result is in point `t`'s block iff each coordinate is in the block's range on its axis. -/
theorem mem_blk2 (t : Fin cfg2.N) (i : S300000x64.Idx) :
    i ∈ ((cfg2.win 7).blk t).view.set ↔ ∀ a : Fin 2, win2_7.index t a * S4000x64.size a ≤ (i a).val ∧ (i a).val < win2_7.index t a * S4000x64.size a + S4000x64.size a := by
  show i ∈ ((View.whole main_v11).slice (win2_7.rect t)).set ↔ _
  rw [View.set_slice_whole, Rect.mem_set_unit]
  exact Iff.rfl

/-- Every index of the result is in some point's block: row e is in block e / 4000. -/
theorem cover2 (i : S300000x64.Idx) :
    ∃ t : Fin cfg2.N, (cfg2.win 7).flush t = true ∧ i ∈ ((cfg2.win 7).blk t).view.set := by
  have hi0 : (i 0).val < 300000 := (i 0).isLt
  have hi1 : (i 1).val < 64 := (i 1).isLt
  obtain ⟨t, ht⟩ := idx_onto2 ⟨(i 0).val / 4000, by omega⟩
  have q0 : win2_7.index t (0 : Fin 2) = (i 0).val / 4000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 64 ≤ (i 1).val ∧ (i 1).val < win2_7.index t (1 : Fin 2) * 64 + 64; omega

/-- THE RESULT ARRAY when the call returns. -/
theorem final2 (c : Dev nD) :
    (dat2 V c).arrAt 7 cfg2.N = mlp3 (V c main_arg2) (V c main_arg15) (V c main_v8) (V c main_arg17) (V c main_v9) (V c main_arg19) (V c main_v10) :=
  (dat2 V c).arrAt_eq_of_cover 7 _ (fun t _ => flushed2 V c t) cover2

end Cert.KernelIdeal.Regions

end
-- ==== Proof.Region3.lean ====
/-
  The sum of three arrays with every row scaled (the fourth device call), as one function of the arrays it finds.
  Its grid has 125 points; point t loads rows 4000·t … 4000·t + 3999 of three 500000 × 64 arrays and of the
  500000 × 1 column of factors, and stores the sum of the three blocks of rows, each row times its factor, as the
  same rows of the result. Every row of the result is written by exactly one point, so when the call returns the
  result array holds, at (e, l), the sum of the three arrays' entries (e, l), added left to right, times the factor
  of row e.
-/
import proofs.«165014_j22557168239387_2_alg».proof.Proof.Gen.KernelIdeal.Frame
import proofs.«165014_j22557168239387_2_alg».proof.Proof.Forms
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A sum of three terms times a factor, of equals. -/
private theorem sum3_mul_congr {a a' b b' d d' n n' : EReal} (h1 : a = a') (h2 : b = b') (h3 : d = d') (h4 : n = n') :
    (a + b + d) * n = (a' + b' + d') * n' := by rw [h1, h2, h3, h4]

/-- What one point stores is `combine` of the four blocks it loaded. -/
theorem pay3_eq (x0 x1 x2 : Vec Ideal S4000x64 .bf16) (x3 : Vec Ideal S4000x1 .f32) :
    k3_pay1 (F := Ideal) x0 x1 x2 x3 = combine x0 x1 x2 x3 := by
  unfold k3_pay1
  exact combine_block _ _ _ _ _ _ _ _

/-- The five index maps over the grid: each window's block row is the point's number, its block column 0. -/
theorem idx_facts3 : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = win3_4.index t (0 : Fin 2)
    ∧ win3_2.index t (1 : Fin 2) = 0 ∧ win3_3.index t (0 : Fin 2) = win3_4.index t (0 : Fin 2)
    ∧ win3_3.index t (1 : Fin 2) = 0 ∧ win3_4.index t (1 : Fin 2) = 0 ∧ win3_4.index t (0 : Fin 2) ≤ 124 :=
  (by decide +kernel : ∀ t : Fin grid3.N, _)

/-- Every block row is some point's. -/
theorem idx_onto3 : ∀ q0 : Fin 125, ∃ t : Fin cfg3.N, win3_4.index t = ![q0.val, 0] :=
  (by decide +kernel : ∀ q0 : Fin 125, ∃ t : Fin grid3.N, win3_4.index t = ![q0.val, 0])

/-- What point `t` writes back is block `t` of `combine` of the four arrays as the call finds them. -/
theorem flushed3 (c : Dev nD) (t : Fin cfg3.N) :
    (dat3 V c).flushed 4 t = ((cfg3.win 4).blk t).view.read (Elt Ideal)
      (combine (V c main_v60) (V c main_v62) (V c main_v7) (V c main_v58)) := by
  show (cfg3.win 4).cut (grid3.coords t) ((dat3 V c).after 4 t) = _
  rw [after3_4]
  unfold out3_4
  rw [View.canon_unit_zero hz2]
  simp only [View.ld_unit_zero (S := S4000x64) hz2, View.ld_unit_zero (S := S4000x1) hz2]
  rw [pay3_eq]
  obtain ⟨e0, e1, e2, e3, e4, e5, e6, e7, e8, e9⟩ := idx_facts3 t
  funext j
  have hj0 : (j 0).val < 4000 := (j 0).isLt
  have hj1 : (j 1).val < 64 := (j 1).isLt
  have h0 : ((cfg3.win 0).blk t).view.emb j = ((cfg3.win 4).blk t).view.emb j := by
    funext a; apply Fin.ext
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 4000 + 1 * (j 0).val = win3_4.index t (0 : Fin 2) * 4000 + 1 * (j 0).val; omega
    | ⟨1, _⟩ => show win3_2.index t (1 : Fin 2) * 64 + 1 * (j 1).val = win3_4.index t (1 : Fin 2) * 64 + 1 * (j 1).val; omega
  have h3 : ((cfg3.win 3).blk t).view.emb (ix2 ⟨(j 0).val, hj0⟩ (0 : Fin 1))
      = ix2 ⟨((((cfg3.win 4).blk t).view.emb j) 0).val, (((cfg3.win 4).blk t).view.emb j 0).isLt⟩ (0 : Fin 1) := by
    funext a; apply Fin.ext
    match a with
    | ⟨0, _⟩ => show win3_3.index t (0 : Fin 2) * 4000 + 1 * (j 0).val = win3_4.index t (0 : Fin 2) * 4000 + 1 * (j 0).val; omega
    | ⟨1, _⟩ => show win3_3.index t (1 : Fin 2) * 1 + 1 * 0 = 0; omega
  exact sum3_mul_congr (congrArg (V c main_v60) h0) (congrArg (V c main_v62) h1) (congrArg (V c main_v7) h2)
    (congrArg (V c main_v58) h3)

/-- An index of the result is in point `t`'s block iff each coordinate is in the block's range on its axis. -/
theorem mem_blk3 (t : Fin cfg3.N) (i : S500000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v64).slice (win3_4.rect t)).set ↔ _
  rw [View.set_slice_whole, Rect.mem_set_unit]
  exact Iff.rfl

/-- Every index of the result is in some point's block: row e is in block e / 4000. -/
theorem cover3 (i : S500000x64.Idx) :
    ∃ t : Fin cfg3.N, (cfg3.win 4).flush t = true ∧ i ∈ ((cfg3.win 4).blk t).view.set := by
  have hi0 : (i 0).val < 500000 := (i 0).isLt
  have hi1 : (i 1).val < 64 := (i 1).isLt
  obtain ⟨t, ht⟩ := idx_onto3 ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 64 ≤ (i 1).val ∧ (i 1).val < win3_4.index t (1 : Fin 2) * 64 + 64; omega

/-- THE RESULT ARRAY when the call returns: the three arrays it found added left to right, each row times that
    row's factor. -/
theorem final3 (c : Dev nD) :
    (dat3 V c).arrAt 4 cfg3.N = combine (V c main_v60) (V c main_v62) (V c main_v7) (V c main_v58) :=
  (dat3 V c).arrAt_eq_of_cover 4 _ (fun t _ => flushed3 V c t) cover3

end Cert.KernelIdeal.Regions

end
-- ==== Proof.Region4.lean ====
/-
  The sum of three arrays with every row scaled (the fifth device call), as one function of the arrays it finds.
  Its grid has 75 points; point t loads rows 4000·t … 4000·t + 3999 of three 300000 × 64 arrays and of the
  300000 × 1 column of factors, and stores the sum of the three blocks of rows, each row times its factor, as the
  same rows of the result. Every row of the result is written by exactly one point, so when the call returns the
  result array holds, at (e, l), the sum of the three arrays' entries (e, l), added left to right, times the factor
  of row e.
-/
import proofs.«165014_j22557168239387_2_alg».proof.Proof.Gen.KernelIdeal.Frame
import proofs.«165014_j22557168239387_2_alg».proof.Proof.Forms
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A sum of three terms times a factor, of equals. -/
private theorem sum3_mul_congr {a a' b b' d d' n n' : EReal} (h1 : a = a') (h2 : b = b') (h3 : d = d') (h4 : n = n') :
    (a + b + d) * n = (a' + b' + d') * n' := by rw [h1, h2, h3, h4]

/-- What one point stores is `combine` of the four blocks it loaded. -/
theorem pay4_eq (x0 x1 x2 : Vec Ideal S4000x64 .bf16) (x3 : Vec Ideal S4000x1 .f32) :
    k4_pay1 (F := Ideal) x0 x1 x2 x3 = combine x0 x1 x2 x3 := by
  unfold k4_pay1
  exact combine_block _ _ _ _ _ _ _ _

/-- The five index maps over the grid: each window's block row is the point's number, its block column 0. -/
theorem idx_facts4 : ∀ t : Fin cfg4.N, win4_0.index t (0 : Fin 2) = win4_4.index t (0 : Fin 2)
    ∧ win4_0.index t (1 : Fin 2) = 0 ∧ win4_1.index t (0 : Fin 2) = win4_4.index t (0 : Fin 2)
    ∧ win4_1.index t (1 : Fin 2) = 0 ∧ win4_2.index t (0 : Fin 2) = win4_4.index t (0 : Fin 2)
    ∧ win4_2.index t (1 : Fin 2) = 0 ∧ win4_3.index t (0 : Fin 2) = win4_4.index t (0 : Fin 2)
    ∧ win4_3.index t (1 : Fin 2) = 0 ∧ win4_4.index t (1 : Fin 2) = 0 ∧ win4_4.index t (0 : Fin 2) ≤ 74 :=
  (by decide +kernel : ∀ t : Fin grid4.N, _)

/-- Every block row is some point's. -/
theorem idx_onto4 : ∀ q0 : Fin 75, ∃ t : Fin cfg4.N, win4_4.index t = ![q0.val, 0] :=
  (by decide +kernel : ∀ q0 : Fin 75, ∃ t : Fin grid4.N, win4_4.index t = ![q0.val, 0])

/-- What point `t` writes back is block `t` of `combine` of the four arrays as the call finds them. -/
theorem flushed4 (c : Dev nD) (t : Fin cfg4.N) :
    (dat4 V c).flushed 4 t = ((cfg4.win 4).blk t).view.read (Elt Ideal)
      (combine (V c main_v61) (V c main_v63) (V c main_v11) (V c main_v59)) := by
  show (cfg4.win 4).cut (grid4.coords t) ((dat4 V c).after 4 t) = _
  rw [after4_4]
  unfold out4_4
  rw [View.canon_unit_zero hz2]
  simp only [View.ld_unit_zero (S := S4000x64) hz2, View.ld_unit_zero (S := S4000x1) hz2]
  rw [pay4_eq]
  obtain ⟨e0, e1, e2, e3, e4, e5, e6, e7, e8, e9⟩ := idx_facts4 t
  funext j
  have hj0 : (j 0).val < 4000 := (j 0).isLt
  have hj1 : (j 1).val < 64 := (j 1).isLt
  have h0 : ((cfg4.win 0).blk t).view.emb j = ((cfg4.win 4).blk t).view.emb j := by
    funext a; apply Fin.ext
    match a with
    | ⟨0, _⟩ => show win4_0.index t (0 : Fin 2) * 4000 + 1 * (j 0).val = win4_4.index t (0 : Fin 2) * 4000 + 1 * (j 0).val; omega
    | ⟨1, _⟩ => show win4_0.index t (1 : Fin 2) * 64 + 1 * (j 1).val = win4_4.index t (1 : Fin 2) * 64 + 1 * (j 1).val; omega
  have h1 : ((cfg4.win 1).blk t).view.emb j = ((cfg4.win 4).blk t).view.emb j := by
    funext a; apply Fin.ext
    match a with
    | ⟨0, _⟩ => show win4_1.index t (0 : Fin 2) * 4000 + 1 * (j 0).val = win4_4.index t (0 : Fin 2) * 4000 + 1 * (j 0).val; omega
    | ⟨1, _⟩ => show win4_1.index t (1 : Fin 2) * 64 + 1 * (j 1).val = win4_4.index t (1 : Fin 2) * 64 + 1 * (j 1).val; omega
  have h2 : ((cfg4.win 2).blk t).view.emb j = ((cfg4.win 4).blk t).view.emb j := by
    funext a; apply Fin.ext
    match a with
    | ⟨0, _⟩ => show win4_2.index t (0 : Fin 2) * 4000 + 1 * (j 0).val = win4_4.index t (0 : Fin 2) * 4000 + 1 * (j 0).val; omega
    | ⟨1, _⟩ => show win4_2.index t (1 : Fin 2) * 64 + 1 * (j 1).val = win4_4.index t (1 : Fin 2) * 64 + 1 * (j 1).val; omega
  have h3 : ((cfg4.win 3).blk t).view.emb (ix2 ⟨(j 0).val, hj0⟩ (0 : Fin 1))
      = ix2 ⟨((((cfg4.win 4).blk t).view.emb j) 0).val, (((cfg4.win 4).blk t).view.emb j 0).isLt⟩ (0 : Fin 1) := by
    funext a; apply Fin.ext
    match a with
    | ⟨0, _⟩ => show win4_3.index t (0 : Fin 2) * 4000 + 1 * (j 0).val = win4_4.index t (0 : Fin 2) * 4000 + 1 * (j 0).val; omega
    | ⟨1, _⟩ => show win4_3.index t (1 : Fin 2) * 1 + 1 * 0 = 0; omega
  exact sum3_mul_congr (congrArg (V c main_v61) h0) (congrArg (V c main_v63) h1) (congrArg (V c main_v11) h2)
    (congrArg (V c main_v59) h3)

/-- An index of the result is in point `t`'s block iff each coordinate is in the block's range on its axis. -/
theorem mem_blk4 (t : Fin cfg4.N) (i : S300000x64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole main_v65).slice (win4_4.rect t)).set ↔ _
  rw [View.set_slice_whole, Rect.mem_set_unit]
  exact Iff.rfl

/-- Every index of the result is in some point's block: row e is in block e / 4000. -/
theorem cover4 (i : S300000x64.Idx) :
    ∃ t : Fin cfg4.N, (cfg4.win 4).flush t = true ∧ i ∈ ((cfg4.win 4).blk t).view.set := by
  have hi0 : (i 0).val < 300000 := (i 0).isLt
  have hi1 : (i 1).val < 64 := (i 1).isLt
  obtain ⟨t, ht⟩ := idx_onto4 ⟨(i 0).val / 4000, by omega⟩
  have q0 : win4_4.index t (0 : Fin 2) = (i 0).val / 4000 := congrFun ht 0
  have q1 : win4_4.index t (1 : Fin 2) = 0 := congrFun ht 1
  refine ⟨t, flush4_4 t, ?_⟩
  rw [mem_blk4]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 64 ≤ (i 1).val ∧ (i 1).val < win4_4.index t (1 : Fin 2) * 64 + 64; omega

/-- THE RESULT ARRAY when the call returns: the three arrays it found added left to right, each row times that
    row's factor. -/
theorem final4 (c : Dev nD) :
    (dat4 V c).arrAt 4 cfg4.N = combine (V c main_v61) (V c main_v63) (V c main_v11) (V c main_v59) :=
  (dat4 V c).arrAt_eq_of_cover 4 _ (fun t _ => flushed4 V c t) cover4

end Cert.KernelIdeal.Regions

end
-- ==== Proof.Region5.lean ====
/-
  The first graph layer's dense step (a device call), as one function of the arrays it finds.
  Its grid has 25 points; point t loads rows 2000·t … 2000·t + 1999 of the 50000 × 64 aggregate together with the WHOLE
  64 × 64 weight matrix and the 1 × 64 row, and stores the positive part of the product plus the row on those rows as the same rows of the
  50000 × 64 result. A row of the value depends on that row of the aggregate only, and every row of the result is
  written by exactly one point: so when the call returns the result array is the layer's value on the whole aggregate.
-/
import proofs.«165014_j22557168239387_2_alg».proof.Proof.Gen.KernelIdeal.Frame
import proofs.«165014_j22557168239387_2_alg».proof.Proof.Forms
import proofs.«165014_j22557168239387_2_alg».proof.Proof.FormsAt
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- What one point stores, as a function of the blocks it loaded. -/
theorem pay5_eq (x0 : Vec Ideal S2000x64 .f32) (x1 : Vec Ideal S64x64 .f32) (x2 : Vec Ideal S1x64 .f32) :
    (k5_pay1 (F := Ideal) x0 x1 x2 : S2000x64.Idx → EReal) = relu (biasedProduct x0 x1 x2) := by
  unfold k5_pay1
  exact relu_dense_block _ _ _ _ _ _ _ _

/-- The index maps over the grid: the row-indexed windows' block row is the point's number, every other block index 0. -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (1 : Fin 2) = 0
    ∧ win5_3.index t (0 : Fin 2) ≤ 24 :=
  (by decide +kernel : ∀ t : Fin grid5.N, _)

/-- Every block row is some point's. -/
theorem idx_onto5 : ∀ q0 : Fin 25, ∃ t : Fin cfg5.N, win5_3.index t = ![q0.val, 0] :=
  (by decide +kernel : ∀ q0 : Fin 25, ∃ t : Fin grid5.N, win5_3.index t = ![q0.val, 0])

/-- Window 1 is the whole of its array at every point. -/
theorem whole5_1 (c : Dev nD) (t : Fin cfg5.N) : iblk5 V c 1 t = V c main_arg21 := by
  obtain ⟨e0, e1, e2, e3, e4, e5, e6, e7⟩ := idx_facts5 t
  funext y
  refine congrArg (V c main_arg21) ?_
  funext a; apply Fin.ext
  match a with
  | ⟨0, _⟩ => show win5_1.index t (0 : Fin 2) * 64 + 1 * (y 0).val = (y 0).val; omega
  | ⟨1, _⟩ => show win5_1.index t (1 : Fin 2) * 64 + 1 * (y 1).val = (y 1).val; omega

/-- Window 2 is the whole of its array at every point. -/
theorem whole5_2 (c : Dev nD) (t : Fin cfg5.N) : iblk5 V c 2 t = V c main_v73 := by
  obtain ⟨e0, e1, e2, e3, e4, e5, e6, e7⟩ := idx_facts5 t
  funext y
  refine congrArg (V c main_v73) ?_
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- What point `t` writes back is block `t` of the whole arrays' form. -/
theorem flushed5 (c : Dev nD) (t : Fin cfg5.N) :
    (dat5 V c).flushed 3 t = ((cfg5.win 3).blk t).view.read (Elt Ideal) (relu (biasedProduct (V c main_v72) (V c main_arg21) (V c main_v73))) := by
  show (cfg5.win 3).cut (grid5.coords t) ((dat5 V c).after 3 t) = _
  rw [after5_3]
  unfold out5_3
  rw [View.canon_unit_zero hz2]
  simp only [View.ld_unit_zero (S := S2000x64) hz2, View.ld_unit_zero (S := S64x64) hz2, View.ld_unit_zero (S := S1x64) hz2]
  rw [pay5_eq]
  obtain ⟨e0, e1, e2, e3, e4, e5, e6, e7⟩ := idx_facts5 t
  funext j
  have hj0 : (j 0).val < 2000 := (j 0).isLt
  have hj1 : (j 1).val < 64 := (j 1).isLt
  refine relu_dense_at (V c main_v72) (iblk5 V c 0 t) (V c main_arg21) (iblk5 V c 1 t) (V c main_v73) (iblk5 V c 2 t) (whole5_1 V c t) (whole5_2 V c t) j (((cfg5.win 3).blk t).view.emb j) ?_ (fun k => ?_)
  · show (j 1).val = win5_3.index t (1 : Fin 2) * 64 + 1 * (j 1).val
    omega
  · refine congrArg (V c main_v72) ?_
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 64 + 1 * k.val = k.val; omega

/-- An index of the result is in point `t`'s block iff each coordinate is in the block's range on its axis. -/
theorem mem_blk5 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v74).slice (win5_3.rect t)).set ↔ _
  rw [View.set_slice_whole, Rect.mem_set_unit]
  exact Iff.rfl

/-- Every index of the result is in some point's block: row e is in block e / 2000. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto5 ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- THE RESULT ARRAY when the call returns. -/
theorem final5 (c : Dev nD) :
    (dat5 V c).arrAt 3 cfg5.N = relu (biasedProduct (V c main_v72) (V c main_arg21) (V c main_v73)) :=
  (dat5 V c).arrAt_eq_of_cover 3 _ (fun t _ => flushed5 V c t) cover5

end Cert.KernelIdeal.Regions

end
-- ==== Proof.Region7.lean ====
/-
  The second graph layer's dense step (a device call), as one function of the arrays it finds.
  Its grid has 25 points; point t loads rows 2000·t … 2000·t + 1999 of the 50000 × 64 aggregate together with the WHOLE
  64 × 1 weight matrix and the 1 × 1 row, and stores the product plus the row on those rows as the same rows of the
  50000 × 1 result. A row of the value depends on that row of the aggregate only, and every row of the result is
  written by exactly one point: so when the call returns the result array is the layer's value on the whole aggregate.
-/
import proofs.«165014_j22557168239387_2_alg».proof.Proof.Gen.KernelIdeal.Frame
import proofs.«165014_j22557168239387_2_alg».proof.Proof.Forms
import proofs.«165014_j22557168239387_2_alg».proof.Proof.FormsAt
import proofs.«165014_j22557168239387_2_alg».proof.Proof.Region6
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- What one point stores, as a function of the blocks it loaded. -/
theorem pay7_eq (x0 : Vec Ideal S2000x64 .f32) (x1 : Vec Ideal S64x1 .f32) (x2 : Vec Ideal S1x1 .f32) :
    (k7_pay1 (F := Ideal) x0 x1 x2 : S2000x1.Idx → EReal) = biasedProduct x0 x1 x2 := by
  unfold k7_pay1
  exact block_linear _ _ _ _ _ _ _ _

/-- The index maps over the grid: the row-indexed windows' block row is the point's number, every other block index 0. -/
theorem idx_facts7 : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (1 : Fin 2) = 0
    ∧ win7_3.index t (0 : Fin 2) ≤ 24 :=
  (by decide +kernel : ∀ t : Fin grid7.N, _)

/-- Every block row is some point's. -/
theorem idx_onto7 : ∀ q0 : Fin 25, ∃ t : Fin cfg7.N, win7_3.index t = ![q0.val, 0] :=
  (by decide +kernel : ∀ q0 : Fin 25, ∃ t : Fin grid7.N, win7_3.index t = ![q0.val, 0])

/-- Window 1 is the whole of its array at every point. -/
theorem whole7_1 (c : Dev nD) (t : Fin cfg7.N) : iblk7 V c 1 t = V c main_arg23 := by
  obtain ⟨e0, e1, e2, e3, e4, e5, e6, e7⟩ := idx_facts7 t
  funext y
  refine congrArg (V c main_arg23) ?_
  funext a; apply Fin.ext
  match a with
  | ⟨0, _⟩ => show win7_1.index t (0 : Fin 2) * 64 + 1 * (y 0).val = (y 0).val; omega
  | ⟨1, _⟩ => show win7_1.index t (1 : Fin 2) * 1 + 1 * (y 1).val = (y 1).val; omega

/-- Window 2 is the whole of its array at every point. -/
theorem whole7_2 (c : Dev nD) (t : Fin cfg7.N) : iblk7 V c 2 t = V c main_v86 := by
  obtain ⟨e0, e1, e2, e3, e4, e5, e6, e7⟩ := idx_facts7 t
  funext y
  refine congrArg (V c main_v86) ?_
  funext a; apply Fin.ext
  match a with
  | ⟨0, _⟩ => show win7_2.index t (0 : Fin 2) * 1 + 1 * (y 0).val = (y 0).val; omega
  | ⟨1, _⟩ => show win7_2.index t (1 : Fin 2) * 1 + 1 * (y 1).val = (y 1).val; omega

/-- What point `t` writes back is block `t` of the whole arrays' form. -/
theorem flushed7 (c : Dev nD) (t : Fin cfg7.N) :
    (dat7 V c).flushed 3 t = ((cfg7.win 3).blk t).view.read (Elt Ideal) (biasedProduct (V c main_v85) (V c main_arg23) (V c main_v86)) := by
  show (cfg7.win 3).cut (grid7.coords t) ((dat7 V c).after 3 t) = _
  rw [after7_3]
  unfold out7_3
  rw [View.canon_unit_zero hz2]
  simp only [View.ld_unit_zero (S := S2000x64) hz2, View.ld_unit_zero (S := S64x1) hz2, View.ld_unit_zero (S := S1x1) hz2]
  rw [pay7_eq]
  obtain ⟨e0, e1, e2, e3, e4, e5, e6, e7⟩ := idx_facts7 t
  funext j
  have hj0 : (j 0).val < 2000 := (j 0).isLt
  have hj1 : (j 1).val < 1 := (j 1).isLt
  refine dense_at (V c main_v85) (iblk7 V c 0 t) (V c main_arg23) (iblk7 V c 1 t) (V c main_v86) (iblk7 V c 2 t) (whole7_1 V c t) (whole7_2 V c t) j (((cfg7.win 3).blk t).view.emb j) ?_ (fun k => ?_)
  · show (j 1).val = win7_3.index t (1 : Fin 2) * 1 + 1 * (j 1).val
    omega
  · refine congrArg (V c main_v85) ?_
    funext a; apply Fin.ext
    match a with
    | ⟨0, _⟩ => show win7_0.index t (0 : Fin 2) * 2000 + 1 * (j 0).val = win7_3.index t (0 : Fin 2) * 2000 + 1 * (j 0).val; omega
    | ⟨1, _⟩ => show win7_0.index t (1 : Fin 2) * 64 + 1 * k.val = k.val; omega

/-- An index of the result is in point `t`'s block iff each coordinate is in the block's range on its axis. -/
theorem mem_blk7 (t : Fin cfg7.N) (i : S50000x1.Idx) :
    i ∈ ((cfg7.win 3).blk t).view.set ↔ ∀ a : Fin 2, win7_3.index t a * S2000x1.size a ≤ (i a).val ∧ (i a).val < win7_3.index t a * S2000x1.size a + S2000x1.size a := by
  show i ∈ ((View.whole main_v87).slice (win7_3.rect t)).set ↔ _
  rw [View.set_slice_whole, Rect.mem_set_unit]
  exact Iff.rfl

/-- Every index of the result is in some point's block: row e is in block e / 2000. -/
theorem cover7 (i : S50000x1.Idx) :
    ∃ t : Fin cfg7.N, (cfg7.win 3).flush t = true ∧ i ∈ ((cfg7.win 3).blk t).view.set := by
  have hi0 : (i 0).val < 50000 := (i 0).isLt
  have hi1 : (i 1).val < 1 := (i 1).isLt
  obtain ⟨t, ht⟩ := idx_onto7 ⟨(i 0).val / 2000, by omega⟩
  have q0 : win7_3.index t (0 : Fin 2) = (i 0).val / 2000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 1 ≤ (i 1).val ∧ (i 1).val < win7_3.index t (1 : Fin 2) * 1 + 1; omega

/-- THE RESULT ARRAY when the call returns. -/
theorem final7 (c : Dev nD) :
    (dat7 V c).arrAt 3 cfg7.N = biasedProduct (V c main_v85) (V c main_arg23) (V c main_v86) :=
  (dat7 V c).arrAt_eq_of_cover 3 _ (fun t _ => flushed7 V c t) cover7

end Cert.KernelIdeal.Regions

end
-- ==== Proof.KernelValueA.lean ====
/-
  What the idealized device program returns, as one expression of its argument arrays: the first boundaries.
  The run's buffer contents are followed boundary by boundary: a stretch of host operations leaves every buffer it
  does not write as it was and each result at its operation's value of the operands; a device call leaves its
  result array at the whole-array function of the arrays it found (the eight region lemmas) and every other buffer
  as it was. Read at the places where each value is produced and consumed, this gives: the three dense stacks on the
  node and edge features; the symmetric degree normalization and the gathered node embeddings, by the same host
  operations as the reference program's; the first aggregate as the SUM of two scatter-adds over the two ranges of
  edges; the hidden layer; the second aggregate; and the final dense step.
-/
import proofs.«165014_j22557168239387_2_alg».proof.Proof.Region0
import proofs.«165014_j22557168239387_2_alg».proof.Proof.Region1
import proofs.«165014_j22557168239387_2_alg».proof.Proof.Region2
import proofs.«165014_j22557168239387_2_alg».proof.Proof.Region3
import proofs.«165014_j22557168239387_2_alg».proof.Proof.Region4
import proofs.«165014_j22557168239387_2_alg».proof.Proof.Region5
import proofs.«165014_j22557168239387_2_alg».proof.Proof.Region6
import proofs.«165014_j22557168239387_2_alg».proof.Proof.Region7
import proofs.«165014_j22557168239387_2_alg».proof.Proof.Gen.ReferenceIdeal.Read
import Idealize.ShloMosaic.Lib.StableHlo.Run

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The argument arrays at the boundaries where they are read -/

theorem a0_at1 : W1 m ρ c (Proc.devRef .tc main_arg0) = (m ((c : Thread nD τ).loc main_arg0)) := by
  show StableHlo.after hostOps0 (W0 m ρ c) (Proc.devRef .tc main_arg0) = _
  after_results <;> try rfl

theorem a3_at1 : W1 m ρ c (Proc.devRef .tc main_arg3) = (m ((c : Thread nD τ).loc main_arg3)) := by
  show StableHlo.after hostOps0 (W0 m ρ c) (Proc.devRef .tc main_arg3) = _
  after_results <;> try rfl

theorem a5_at1 : W1 m ρ c (Proc.devRef .tc main_arg5) = (m ((c : Thread nD τ).loc main_arg5)) := by
  show StableHlo.after hostOps0 (W0 m ρ c) (Proc.devRef .tc main_arg5) = _
  after_results <;> try rfl

theorem a7_at1 : W1 m ρ c (Proc.devRef .tc main_arg7) = (m ((c : Thread nD τ).loc main_arg7)) := by
  show StableHlo.after hostOps0 (W0 m ρ c) (Proc.devRef .tc main_arg7) = _
  after_results <;> try rfl

theorem a10_at2 : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results <;> try rfl

theorem a12_at2 : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results <;> try rfl

theorem a14_at2 : W2 m ρ c (Proc.devRef .tc main_arg14) = (m ((c : Thread nD τ).loc main_arg14)) := by
  rw [W2_of_ne m ρ c main_arg14 (by decide)]
  show StableHlo.after hostOps0 (W0 m ρ c) (Proc.devRef .tc main_arg14) = _
  after_results <;> try rfl

theorem a1_at3 : W3 m ρ c (Proc.devRef .tc main_arg1) = (m ((c : Thread nD τ).loc main_arg1)) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results <;> try rfl

theorem a9_at3 : W3 m ρ c (Proc.devRef .tc main_arg9) = (m ((c : Thread nD τ).loc main_arg9)) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results <;> try rfl

theorem a11_at3 : W3 m ρ c (Proc.devRef .tc main_arg11) = (m ((c : Thread nD τ).loc main_arg11)) := by
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results <;> try rfl

theorem a13_at3 : W3 m ρ c (Proc.devRef .tc main_arg13) = (m ((c : Thread nD τ).loc main_arg13)) := by
  show StableHlo.after hostOps1 (W2 m ρ c) (Proc.devRef .tc main_arg13) = _
  after_results
  rw [W2_of_ne m ρ c main_arg13 (by decide)]
  show StableHlo.after hostOps0 (W0 m ρ c) (Proc.devRef .tc main_arg13) = _
  after_results <;> try rfl

theorem a16_at4 : W4 m ρ c (Proc.devRef .tc main_arg16) = (m ((c : Thread nD τ).loc main_arg16)) := by
  rw [W4_of_ne m ρ c main_arg16 (by decide)]
  show StableHlo.after hostOps1 (W2 m ρ c) (Proc.devRef .tc main_arg16) = _
  after_results
  rw [W2_of_ne m ρ c main_arg16 (by decide)]
  show StableHlo.after hostOps0 (W0 m ρ c) (Proc.devRef .tc main_arg16) = _
  after_results <;> try rfl

theorem a18_at4 : W4 m ρ c (Proc.devRef .tc main_arg18) = (m ((c : Thread nD τ).loc main_arg18)) := by
  rw [W4_of_ne m ρ c main_arg18 (by decide)]
  show StableHlo.after hostOps1 (W2 m ρ c) (Proc.devRef .tc main_arg18) = _
  after_results
  rw [W2_of_ne m ρ c main_arg18 (by decide)]
  show StableHlo.after hostOps0 (W0 m ρ c) (Proc.devRef .tc main_arg18) = _
  after_results <;> try rfl

theorem a20_at4 : W4 m ρ c (Proc.devRef .tc main_arg20) = (m ((c : Thread nD τ).loc main_arg20)) := by
  rw [W4_of_ne m ρ c main_arg20 (by decide)]
  show StableHlo.after hostOps1 (W2 m ρ c) (Proc.devRef .tc main_arg20) = _
  after_results
  rw [W2_of_ne m ρ c main_arg20 (by decide)]
  show StableHlo.after hostOps0 (W0 m ρ c) (Proc.devRef .tc main_arg20) = _
  after_results <;> try rfl

theorem a2_at5 : W5 m ρ c (Proc.devRef .tc main_arg2) = (m ((c : Thread nD τ).loc main_arg2)) := by
  show StableHlo.after hostOps2 (W4 m ρ c) (Proc.devRef .tc main_arg2) = _
  after_results
  rw [W4_of_ne m ρ c main_arg2 (by decide)]
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results <;> try rfl

theorem a15_at5 : W5 m ρ c (Proc.devRef .tc main_arg15) = (m ((c : Thread nD τ).loc main_arg15)) := by
  show StableHlo.after hostOps2 (W4 m ρ c) (Proc.devRef .tc main_arg15) = _
  after_results
  rw [W4_of_ne m ρ c main_arg15 (by decide)]
  show StableHlo.after hostOps1 (W2 m ρ c) (Proc.devRef .tc main_arg15) = _
  after_results
  rw [W2_of_ne m ρ c main_arg15 (by decide)]
  show StableHlo.after hostOps0 (W0 m ρ c) (Proc.devRef .tc main_arg15) = _
  after_results <;> try rfl

theorem a17_at5 : W5 m ρ c (Proc.devRef .tc main_arg17) = (m ((c : Thread nD τ).loc main_arg17)) := by
  show StableHlo.after hostOps2 (W4 m ρ c) (Proc.devRef .tc main_arg17) = _
  after_results
  rw [W4_of_ne m ρ c main_arg17 (by decide)]
  show StableHlo.after hostOps1 (W2 m ρ c) (Proc.devRef .tc main_arg17) = _
  after_results
  rw [W2_of_ne m ρ c main_arg17 (by decide)]
  show StableHlo.after hostOps0 (W0 m ρ c) (Proc.devRef .tc main_arg17) = _
  after_results <;> try rfl

theorem a19_at5 : W5 m ρ c (Proc.devRef .tc main_arg19) = (m ((c : Thread nD τ).loc main_arg19)) := by
  show StableHlo.after hostOps2 (W4 m ρ c) (Proc.devRef .tc main_arg19) = _
  after_results
  rw [W4_of_ne m ρ c main_arg19 (by decide)]
  show StableHlo.after hostOps1 (W2 m ρ c) (Proc.devRef .tc main_arg19) = _
  after_results
  rw [W2_of_ne m ρ c main_arg19 (by decide)]
  show StableHlo.after hostOps0 (W0 m ρ c) (Proc.devRef .tc main_arg19) = _
  after_results <;> try rfl

theorem a25_at6 : W6 m ρ c (Proc.devRef .tc main_arg25) = (m ((c : Thread nD τ).loc main_arg25)) := by
  rw [W6_of_ne m ρ c main_arg25 (by decide)]
  show StableHlo.after hostOps2 (W4 m ρ c) (Proc.devRef .tc main_arg25) = _
  after_results
  rw [W4_of_ne m ρ c main_arg25 (by decide)]
  show StableHlo.after hostOps1 (W2 m ρ c) (Proc.devRef .tc main_arg25) = _
  after_results
  rw [W2_of_ne m ρ c main_arg25 (by decide)]
  show StableHlo.after hostOps0 (W0 m ρ c) (Proc.devRef .tc main_arg25) = _
  after_results <;> try rfl

theorem a26_at6 : W6 m ρ c (Proc.devRef .tc main_arg26) = (m ((c : Thread nD τ).loc main_arg26)) := by
  rw [W6_of_ne m ρ c main_arg26 (by decide)]
  show StableHlo.after hostOps2 (W4 m ρ c) (Proc.devRef .tc main_arg26) = _
  after_results
  rw [W4_of_ne m ρ c main_arg26 (by decide)]
  show StableHlo.after hostOps1 (W2 m ρ c) (Proc.devRef .tc main_arg26) = _
  after_results
  rw [W2_of_ne m ρ c main_arg26 (by decide)]
  show StableHlo.after hostOps0 (W0 m ρ c) (Proc.devRef .tc main_arg26) = _
  after_results <;> try rfl

/-! ## The three dense stacks -/

theorem v0_at1 : W1 m ρ c (Proc.devRef .tc main_v0) = (shapeCast S1x64 (m ((c : Thread nD τ).loc main_arg4)) shapeCasts_S64_S1x64) := by
  show StableHlo.after hostOps0 (W0 m ρ c) (Proc.devRef .tc main_v0) = _
  after_results
  rfl

theorem v1_at1 : W1 m ρ c (Proc.devRef .tc main_v1) = (shapeCast S1x64 (m ((c : Thread nD τ).loc main_arg6)) shapeCasts_S64_S1x64) := by
  show StableHlo.after hostOps0 (W0 m ρ c) (Proc.devRef .tc main_v1) = _
  after_results
  rfl

theorem v2_at1 : W1 m ρ c (Proc.devRef .tc main_v2) = (shapeCast S1x64 (m ((c : Thread nD τ).loc main_arg8)) shapeCasts_S64_S1x64) := by
  show StableHlo.after hostOps0 (W0 m ρ c) (Proc.devRef .tc main_v2) = _
  after_results
  rfl

theorem v4_at3 : W3 m ρ c (Proc.devRef .tc main_v4) = (shapeCast S1x64 (m ((c : Thread nD τ).loc main_arg10)) shapeCasts_S64_S1x64) := by
  show StableHlo.after hostOps1 (W2 m ρ c) (Proc.devRef .tc main_v4) = _
  after_results
  rw [a10_at2 m ρ c]
  rfl

theorem v5_at3 : W3 m ρ c (Proc.devRef .tc main_v5) = (shapeCast S1x64 (m ((c : Thread nD τ).loc main_arg12)) shapeCasts_S64_S1x64) := by
  show StableHlo.after hostOps1 (W2 m ρ c) (Proc.devRef .tc main_v5) = _
  after_results
  rw [a12_at2 m ρ c]
  rfl

theorem v6_at3 : W3 m ρ c (Proc.devRef .tc main_v6) = (shapeCast S1x64 (m ((c : Thread nD τ).loc main_arg14)) shapeCasts_S64_S1x64) := by
  show StableHlo.after hostOps1 (W2 m ρ c) (Proc.devRef .tc main_v6) = _
  after_results
  rw [a14_at2 m ρ c]
  rfl

theorem v8_at5 : W5 m ρ c (Proc.devRef .tc main_v8) = (shapeCast S1x64 (m ((c : Thread nD τ).loc main_arg16)) shapeCasts_S64_S1x64) := by
  show StableHlo.after hostOps2 (W4 m ρ c) (Proc.devRef .tc main_v8) = _
  after_results
  rw [a16_at4 m ρ c]
  rfl

theorem v9_at5 : W5 m ρ c (Proc.devRef .tc main_v9) = (shapeCast S1x64 (m ((c : Thread nD τ).loc main_arg18)) shapeCasts_S64_S1x64) := by
  show StableHlo.after hostOps2 (W4 m ρ c) (Proc.devRef .tc main_v9) = _
  after_results
  rw [a18_at4 m ρ c]
  rfl

theorem v10_at5 : W5 m ρ c (Proc.devRef .tc main_v10) = (shapeCast S1x64 (m ((c : Thread nD τ).loc main_arg20)) shapeCasts_S64_S1x64) := by
  show StableHlo.after hostOps2 (W4 m ρ c) (Proc.devRef .tc main_v10) = _
  after_results
  rw [a20_at4 m ρ c]
  rfl

/-- The node embeddings: the three-layer stack on the node features. -/
theorem hn_val : W2 m ρ c (Proc.devRef .tc main_v3) = mlp3 (m ((c : Thread nD τ).loc main_arg0)) (m ((c : Thread nD τ).loc main_arg3)) (shapeCast S1x64 (m ((c : Thread nD τ).loc main_arg4)) shapeCasts_S64_S1x64) (m ((c : Thread nD τ).loc main_arg5)) (shapeCast S1x64 (m ((c : Thread nD τ).loc main_arg6)) shapeCasts_S64_S1x64) (m ((c : Thread nD τ).loc main_arg7)) (shapeCast S1x64 (m ((c : Thread nD τ).loc main_arg8)) shapeCasts_S64_S1x64) := by
  refine (W2_arr m ρ c 7).trans ((final0 (V1 m ρ) c).trans ?_)
  have e0 : V1 m ρ c main_arg0 = (m ((c : Thread nD τ).loc main_arg0)) := a0_at1 m ρ c
  have e1 : V1 m ρ c main_arg3 = (m ((c : Thread nD τ).loc main_arg3)) := a3_at1 m ρ c
  have e2 : V1 m ρ c main_v0 = (shapeCast S1x64 (m ((c : Thread nD τ).loc main_arg4)) shapeCasts_S64_S1x64) := v0_at1 m ρ c
  have e3 : V1 m ρ c main_arg5 = (m ((c : Thread nD τ).loc main_arg5)) := a5_at1 m ρ c
  have e4 : V1 m ρ c main_v1 = (shapeCast S1x64 (m ((c : Thread nD τ).loc main_arg6)) shapeCasts_S64_S1x64) := v1_at1 m ρ c
  have e5 : V1 m ρ c main_arg7 = (m ((c : Thread nD τ).loc main_arg7)) := a7_at1 m ρ c
  have e6 : V1 m ρ c main_v2 = (shapeCast S1x64 (m ((c : Thread nD τ).loc main_arg8)) shapeCasts_S64_S1x64) := v2_at1 m ρ c
  rw [e0, e1, e2, e3, e4, e5, e6]

/-- The embeddings of the first kind of edge. -/
theorem he0_val : W4 m ρ c (Proc.devRef .tc main_v7) = mlp3 (m ((c : Thread nD τ).loc main_arg1)) (m ((c : Thread nD τ).loc main_arg9)) (shapeCast S1x64 (m ((c : Thread nD τ).loc main_arg10)) shapeCasts_S64_S1x64) (m ((c : Thread nD τ).loc main_arg11)) (shapeCast S1x64 (m ((c : Thread nD τ).loc main_arg12)) shapeCasts_S64_S1x64) (m ((c : Thread nD τ).loc main_arg13)) (shapeCast S1x64 (m ((c : Thread nD τ).loc main_arg14)) shapeCasts_S64_S1x64) := by
  refine (W4_arr m ρ c 7).trans ((final1 (V3 m ρ) c).trans ?_)
  have e0 : V3 m ρ c main_arg1 = (m ((c : Thread nD τ).loc main_arg1)) := a1_at3 m ρ c
  have e1 : V3 m ρ c main_arg9 = (m ((c : Thread nD τ).loc main_arg9)) := a9_at3 m ρ c
  have e2 : V3 m ρ c main_v4 = (shapeCast S1x64 (m ((c : Thread nD τ).loc main_arg10)) shapeCasts_S64_S1x64) := v4_at3 m ρ c
  have e3 : V3 m ρ c main_arg11 = (m ((c : Thread nD τ).loc main_arg11)) := a11_at3 m ρ c
  have e4 : V3 m ρ c main_v5 = (shapeCast S1x64 (m ((c : Thread nD τ).loc main_arg12)) shapeCasts_S64_S1x64) := v5_at3 m ρ c
  have e5 : V3 m ρ c main_arg13 = (m ((c : Thread nD τ).loc main_arg13)) := a13_at3 m ρ c
  have e6 : V3 m ρ c main_v6 = (shapeCast S1x64 (m ((c : Thread nD τ).loc main_arg14)) shapeCasts_S64_S1x64) := v6_at3 m ρ c
  rw [e0, e1, e2, e3, e4, e5, e6]

/-- The embeddings of the second kind of edge. -/
theorem he1_val : W6 m ρ c (Proc.devRef .tc main_v11) = mlp3 (m ((c : Thread nD τ).loc main_arg2)) (m ((c : Thread nD τ).loc main_arg15)) (shapeCast S1x64 (m ((c : Thread nD τ).loc main_arg16)) shapeCasts_S64_S1x64) (m ((c : Thread nD τ).loc main_arg17)) (shapeCast S1x64 (m ((c : Thread nD τ).loc main_arg18)) shapeCasts_S64_S1x64) (m ((c : Thread nD τ).loc main_arg19)) (shapeCast S1x64 (m ((c : Thread nD τ).loc main_arg20)) shapeCasts_S64_S1x64) := by
  refine (W6_arr m ρ c 7).trans ((final2 (V5 m ρ) c).trans ?_)
  have e0 : V5 m ρ c main_arg2 = (m ((c : Thread nD τ).loc main_arg2)) := a2_at5 m ρ c
  have e1 : V5 m ρ c main_arg15 = (m ((c : Thread nD τ).loc main_arg15)) := a15_at5 m ρ c
  have e2 : V5 m ρ c main_v8 = (shapeCast S1x64 (m ((c : Thread nD τ).loc main_arg16)) shapeCasts_S64_S1x64) := v8_at5 m ρ c
  have e3 : V5 m ρ c main_arg17 = (m ((c : Thread nD τ).loc main_arg17)) := a17_at5 m ρ c
  have e4 : V5 m ρ c main_v9 = (shapeCast S1x64 (m ((c : Thread nD τ).loc main_arg18)) shapeCasts_S64_S1x64) := v9_at5 m ρ c
  have e5 : V5 m ρ c main_arg19 = (m ((c : Thread nD τ).loc main_arg19)) := a19_at5 m ρ c
  have e6 : V5 m ρ c main_v10 = (shapeCast S1x64 (m ((c : Thread nD τ).loc main_arg20)) shapeCasts_S64_S1x64) := v10_at5 m ρ c
  rw [e0, e1, e2, e3, e4, e5, e6]

end Cert.KernelIdeal.Regions

end
-- ==== Proof.KernelValue.lean ====
/-
  What the idealized device program returns, as one expression of its argument arrays: the stages named, and the later boundaries.
  The run's buffer contents are followed boundary by boundary: a stretch of host operations leaves every buffer it
  does not write as it was and each result at its operation's value of the operands; a device call leaves its
  result array at the whole-array function of the arrays it found (the eight region lemmas) and every other buffer
  as it was. Read at the places where each value is produced and consumed, this gives: the three dense stacks on the
  node and edge features; the symmetric degree normalization and the gathered node embeddings, by the same host
  operations as the reference program's; the first aggregate as the SUM of two scatter-adds over the two ranges of
  edges; the hidden layer; the second aggregate; and the final dense step.
-/
import proofs.«165014_j22557168239387_2_alg».proof.Proof.KernelValueA

set_option maxRecDepth 16384

noncomputable section

namespace Cert.KernelIdeal.Regions

open Cert.KernelIdeal Cert.KernelIdeal.Gen Cert.Gnn Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The stages, named

Each is a function of the argument arrays only. The degree normalization and the three columns of row numbers
are the reference program's own stages (the two programs compute them by the same host operations). -/

/-- The node embeddings. -/
def HN : FVec Ideal S50000x64 .f32 := mlp3 (m ((c : Thread nD τ).loc main_arg0)) (m ((c : Thread nD τ).loc main_arg3)) (shapeCast S1x64 (m ((c : Thread nD τ).loc main_arg4)) shapeCasts_S64_S1x64) (m ((c : Thread nD τ).loc main_arg5)) (shapeCast S1x64 (m ((c : Thread nD τ).loc main_arg6)) shapeCasts_S64_S1x64) (m ((c : Thread nD τ).loc main_arg7)) (shapeCast S1x64 (m ((c : Thread nD τ).loc main_arg8)) shapeCasts_S64_S1x64)
/-- The embeddings of the two kinds of edge. -/
def HE0 : FVec Ideal S500000x64 .f32 := mlp3 (m ((c : Thread nD τ).loc main_arg1)) (m ((c : Thread nD τ).loc main_arg9)) (shapeCast S1x64 (m ((c : Thread nD τ).loc main_arg10)) shapeCasts_S64_S1x64) (m ((c : Thread nD τ).loc main_arg11)) (shapeCast S1x64 (m ((c : Thread nD τ).loc main_arg12)) shapeCasts_S64_S1x64) (m ((c : Thread nD τ).loc main_arg13)) (shapeCast S1x64 (m ((c : Thread nD τ).loc main_arg14)) shapeCasts_S64_S1x64)
def HE1 : FVec Ideal S300000x64 .f32 := mlp3 (m ((c : Thread nD τ).loc main_arg2)) (m ((c : Thread nD τ).loc main_arg15)) (shapeCast S1x64 (m ((c : Thread nD τ).loc main_arg16)) shapeCasts_S64_S1x64) (m ((c : Thread nD τ).loc main_arg17)) (shapeCast S1x64 (m ((c : Thread nD τ).loc main_arg18)) shapeCasts_S64_S1x64) (m ((c : Thread nD τ).loc main_arg19)) (shapeCast S1x64 (m ((c : Thread nD τ).loc main_arg20)) shapeCasts_S64_S1x64)
/-- The per-edge factor 1/sqrt(deg_out(src) · deg_in(dst)), degrees clamped below by 1, as an 800000 × 1 column. -/
def NORM : FVec Ideal S800000x1 .f32 := Cert.ReferenceIdeal.Read.val_main_v70 (F := Ideal) (m ((c : Thread nD τ).loc main_arg25)) (m ((c : Thread nD τ).loc main_arg26))
/-- The source and destination node of each edge as columns of row numbers (negative numbers wrapped once). -/
def NSRC : IVec S800000x1 32 := Cert.ReferenceIdeal.Read.val_main_v76 (F := Ideal) (m ((c : Thread nD τ).loc main_arg25))
def NDST : IVec S800000x1 32 := Cert.ReferenceIdeal.Read.val_main_v83 (F := Ideal) (m ((c : Thread nD τ).loc main_arg26))
def NSRC2 : IVec S800000x1 32 := Cert.ReferenceIdeal.Read.val_main_v102 (F := Ideal) (m ((c : Thread nD τ).loc main_arg25))
/-- The node embeddings gathered at each edge's source and destination. -/
def GS : FVec Ideal S800000x64 .f32 := Host.gather gather_S50000x64_S800000x1_S800000x64_1_0_n_n_0_1_164 (HN m c) (NSRC m c)
def GD : FVec Ideal S800000x64 .f32 := Host.gather gather_S50000x64_S800000x1_S800000x64_1_0_n_n_0_1_164 (HN m c) (NDST m c)
/-- The messages of the two ranges of edges: (source + destination + edge embedding) · factor. -/
def MSG0 : FVec Ideal S500000x64 .f32 :=
  combine (extractStridedSlice S500000x64 ![0, 0] (GS m c) slices_S800000x64_S500000x64_0_0)
    (extractStridedSlice S500000x64 ![0, 0] (GD m c) slices_S800000x64_S500000x64_0_0) (HE0 m c)
    (extractStridedSlice S500000x1 ![0, 0] (NORM m c) slices_S800000x1_S500000x1_0_0)
def MSG1 : FVec Ideal S300000x64 .f32 :=
  combine (extractStridedSlice S300000x64 ![500000, 0] (GS m c) slices_S800000x64_S300000x64_500000_0)
    (extractStridedSlice S300000x64 ![500000, 0] (GD m c) slices_S800000x64_S300000x64_500000_0) (HE1 m c)
    (extractStridedSlice S300000x1 ![500000, 0] (NORM m c) slices_S800000x1_S300000x1_500000_0)
/-- The first aggregate: the two ranges' messages summed at their destination nodes, then added. -/
def AGG1 : FVec Ideal S50000x64 .f32 :=
  addf (Host.scatterAdd scatter_S50000x64_S500000x1_S500000x64_1_0_0_1 (broadcastInDim S50000x64 ![] bcast_S_S50000x64 (constant (F := Ideal) S_ .f32 0x00000000#32))
      (broadcastInDim S500000x1 ![0] bcast_S500000_S500000x1_0 (extractStridedSlice S500000 ![0] (m ((c : Thread nD τ).loc main_arg26)) slices_S800000_S500000_0)) (MSG0 m c))
    (Host.scatterAdd scatter_S50000x64_S300000x1_S300000x64_1_0_0_1 (broadcastInDim S50000x64 ![] bcast_S_S50000x64 (constant (F := Ideal) S_ .f32 0x00000000#32))
      (broadcastInDim S300000x1 ![0] bcast_S300000_S300000x1_0 (extractStridedSlice S300000 ![500000] (m ((c : Thread nD τ).loc main_arg26)) slices_S800000_S300000_500000)) (MSG1 m c))
/-- The hidden layer. -/
def H1 : FVec Ideal S50000x64 .f32 := relu (biasedProduct (AGG1 m c) (m ((c : Thread nD τ).loc main_arg21)) (shapeCast S1x64 (m ((c : Thread nD τ).loc main_arg22)) shapeCasts_S64_S1x64))
/-- The second layer's messages and aggregate. -/
def SC : FVec Ideal S800000x64 .f32 := scaleRows (Host.gather gather_S50000x64_S800000x1_S800000x64_1_0_n_n_0_1_164 (H1 m c) (NSRC2 m c)) (NORM m c)
def AGG2 : FVec Ideal S50000x64 .f32 :=
  Host.scatterAdd scatter_S50000x64_S800000x1_S800000x64_1_0_0_1 (broadcastInDim S50000x64 ![] bcast_S_S50000x64 (constant (F := Ideal) S_ .f32 0x00000000#32))
    (broadcastInDim S800000x1 ![0] bcast_S800000_S800000x1_0 (m ((c : Thread nD τ).loc main_arg26))) (SC m c)
/-- What the program returns. -/
def OUT : FVec Ideal S50000x1 .f32 := biasedProduct (AGG2 m c) (m ((c : Thread nD τ).loc main_arg23)) (shapeCast S1x1 (m ((c : Thread nD τ).loc main_arg24)) shapeCasts_S1_S1x1)

/-! ## The boundaries, walked -/

theorem v3_at6 : W6 m ρ c (Proc.devRef .tc main_v3) = mlp3 (m ((c : Thread nD τ).loc main_arg0)) (m ((c : Thread nD τ).loc main_arg3)) (shapeCast S1x64 (m ((c : Thread nD τ).loc main_arg4)) shapeCasts_S64_S1x64) (m ((c : Thread nD τ).loc main_arg5)) (shapeCast S1x64 (m ((c : Thread nD τ).loc main_arg6)) shapeCasts_S64_S1x64) (m ((c : Thread nD τ).loc main_arg7)) (shapeCast S1x64 (m ((c : Thread nD τ).loc main_arg8)) shapeCasts_S64_S1x64) := by
  rw [W6_of_ne m ρ c main_v3 (by decide)]
  show StableHlo.after hostOps2 (W4 m ρ c) (Proc.devRef .tc main_v3) = _
  after_results
  rw [W4_of_ne m ρ c main_v3 (by decide)]
  show StableHlo.after hostOps1 (W2 m ρ c) (Proc.devRef .tc main_v3) = _
  after_results
  exact hn_val m ρ c

set_option maxHeartbeats 4000000 in
theorem norm_val : W7 m ρ c (Proc.devRef .tc main_v39) = NORM m c := by
  show StableHlo.after hostOps3 (W6 m ρ c) (Proc.devRef .tc main_v39) = _
  after_results_simp
  rw [a25_at6 m ρ c, a26_at6 m ρ c] <;> try rfl

set_option maxHeartbeats 4000000 in
theorem gs_val : W7 m ρ c (Proc.devRef .tc main_v46) = GS m c := by
  show StableHlo.after hostOps3 (W6 m ρ c) (Proc.devRef .tc main_v46) = _
  after_results_simp
  rw [v3_at6 m ρ c, a25_at6 m ρ c] <;> try rfl

set_option maxHeartbeats 4000000 in
theorem gd_val : W7 m ρ c (Proc.devRef .tc main_v53) = GD m c := by
  show StableHlo.after hostOps3 (W6 m ρ c) (Proc.devRef .tc main_v53) = _
  after_results_simp
  rw [v3_at6 m ρ c, a26_at6 m ρ c] <;> try rfl

set_option maxHeartbeats 4000000 in
theorem v55_at7 : W7 m ρ c (Proc.devRef .tc main_v55) = extractStridedSlice S500000 ![0] (m ((c : Thread nD τ).loc main_arg26)) slices_S800000_S500000_0 := by
  show StableHlo.after hostOps3 (W6 m ρ c) (Proc.devRef .tc main_v55) = _
  after_results_simp
  rw [a26_at6 m ρ c] <;> try rfl

set_option maxHeartbeats 4000000 in
theorem v57_at7 : W7 m ρ c (Proc.devRef .tc main_v57) = extractStridedSlice S300000 ![500000] (m ((c : Thread nD τ).loc main_arg26)) slices_S800000_S300000_500000 := by
  show StableHlo.after hostOps3 (W6 m ρ c) (Proc.devRef .tc main_v57) = _
  after_results_simp
  rw [a26_at6 m ρ c] <;> try rfl

set_option maxHeartbeats 4000000 in
theorem v58_at7 : W7 m ρ c (Proc.devRef .tc main_v58) = extractStridedSlice S500000x1 ![0, 0] (NORM m c) slices_S800000x1_S500000x1_0_0 := by
  show StableHlo.after hostOps3 (W6 m ρ c) (Proc.devRef .tc main_v58) = _
  after_results_simp
  rw [a25_at6 m ρ c, a26_at6 m ρ c] <;> try rfl

set_option maxHeartbeats 4000000 in
theorem v59_at7 : W7 m ρ c (Proc.devRef .tc main_v59) = extractStridedSlice S300000x1 ![500000, 0] (NORM m c) slices_S800000x1_S300000x1_500000_0 := by
  show StableHlo.after hostOps3 (W6 m ρ c) (Proc.devRef .tc main_v59) = _
  after_results_simp
  rw [a25_at6 m ρ c, a26_at6 m ρ c] <;> try rfl

set_option maxHeartbeats 4000000 in
theorem v60_at7 : W7 m ρ c (Proc.devRef .tc main_v60) = extractStridedSlice S500000x64 ![0, 0] (GS m c) slices_S800000x64_S500000x64_0_0 := by
  show StableHlo.after hostOps3 (W6 m ρ c) (Proc.devRef .tc main_v60) = _
  after_results_simp
  rw [v3_at6 m ρ c, a25_at6 m ρ c] <;> try rfl

set_option maxHeartbeats 4000000 in
theorem v61_at7 : W7 m ρ c (Proc.devRef .tc main_v61) = extractStridedSlice S300000x64 ![500000, 0] (GS m c) slices_S800000x64_S300000x64_500000_0 := by
  show StableHlo.after hostOps3 (W6 m ρ c) (Proc.devRef .tc main_v61) = _
  after_results_simp
  rw [v3_at6 m ρ c, a25_at6 m ρ c] <;> try rfl

set_option maxHeartbeats 4000000 in
theorem v62_at7 : W7 m ρ c (Proc.devRef .tc main_v62) = extractStridedSlice S500000x64 ![0, 0] (GD m c) slices_S800000x64_S500000x64_0_0 := by
  show StableHlo.after hostOps3 (W6 m ρ c) (Proc.devRef .tc main_v62) = _
  after_results_simp
  rw [v3_at6 m ρ c, a26_at6 m ρ c] <;> try rfl

set_option maxHeartbeats 4000000 in
theorem v63_at7 : W7 m ρ c (Proc.devRef .tc main_v63) = extractStridedSlice S300000x64 ![500000, 0] (GD m c) slices_S800000x64_S300000x64_500000_0 := by
  show StableHlo.after hostOps3 (W6 m ρ c) (Proc.devRef .tc main_v63) = _
  after_results_simp
  rw [v3_at6 m ρ c, a26_at6 m ρ c] <;> try rfl

theorem v7_at7 : W7 m ρ c (Proc.devRef .tc main_v7) = mlp3 (m ((c : Thread nD τ).loc main_arg1)) (m ((c : Thread nD τ).loc main_arg9)) (shapeCast S1x64 (m ((c : Thread nD τ).loc main_arg10)) shapeCasts_S64_S1x64) (m ((c : Thread nD τ).loc main_arg11)) (shapeCast S1x64 (m ((c : Thread nD τ).loc main_arg12)) shapeCasts_S64_S1x64) (m ((c : Thread nD τ).loc main_arg13)) (shapeCast S1x64 (m ((c : Thread nD τ).loc main_arg14)) shapeCasts_S64_S1x64) := by
  show StableHlo.after hostOps3 (W6 m ρ c) (Proc.devRef .tc main_v7) = _
  after_results
  rw [W6_of_ne m ρ c main_v7 (by decide)]
  show StableHlo.after hostOps2 (W4 m ρ c) (Proc.devRef .tc main_v7) = _
  after_results
  exact he0_val m ρ c

theorem msg0_val : W8 m ρ c (Proc.devRef .tc main_v64) = MSG0 m c := by
  refine (W8_arr m ρ c 4).trans ((final3 (V7 m ρ) c).trans ?_)
  have e0 : V7 m ρ c main_v60 = extractStridedSlice S500000x64 ![0, 0] (GS m c) slices_S800000x64_S500000x64_0_0 := v60_at7 m ρ c
  have e1 : V7 m ρ c main_v62 = extractStridedSlice S500000x64 ![0, 0] (GD m c) slices_S800000x64_S500000x64_0_0 := v62_at7 m ρ c
  have e2 : V7 m ρ c main_v7 = mlp3 (m ((c : Thread nD τ).loc main_arg1)) (m ((c : Thread nD τ).loc main_arg9)) (shapeCast S1x64 (m ((c : Thread nD τ).loc main_arg10)) shapeCasts_S64_S1x64) (m ((c : Thread nD τ).loc main_arg11)) (shapeCast S1x64 (m ((c : Thread nD τ).loc main_arg12)) shapeCasts_S64_S1x64) (m ((c : Thread nD τ).loc main_arg13)) (shapeCast S1x64 (m ((c : Thread nD τ).loc main_arg14)) shapeCasts_S64_S1x64) := v7_at7 m ρ c
  have e3 : V7 m ρ c main_v58 = extractStridedSlice S500000x1 ![0, 0] (NORM m c) slices_S800000x1_S500000x1_0_0 := v58_at7 m ρ c
  rw [e0, e1, e2, e3]
  rfl

theorem v61_at8 : W8 m ρ c (Proc.devRef .tc main_v61) = extractStridedSlice S300000x64 ![500000, 0] (GS m c) slices_S800000x64_S300000x64_500000_0 := by
  rw [W8_of_ne m ρ c main_v61 (by decide)]
  exact v61_at7 m ρ c

theorem v63_at8 : W8 m ρ c (Proc.devRef .tc main_v63) = extractStridedSlice S300000x64 ![500000, 0] (GD m c) slices_S800000x64_S300000x64_500000_0 := by
  rw [W8_of_ne m ρ c main_v63 (by decide)]
  exact v63_at7 m ρ c

theorem v59_at8 : W8 m ρ c (Proc.devRef .tc main_v59) = extractStridedSlice S300000x1 ![500000, 0] (NORM m c) slices_S800000x1_S300000x1_500000_0 := by
  rw [W8_of_ne m ρ c main_v59 (by decide)]
  exact v59_at7 m ρ c

theorem v11_at8 : W8 m ρ c (Proc.devRef .tc main_v11) = mlp3 (m ((c : Thread nD τ).loc main_arg2)) (m ((c : Thread nD τ).loc main_arg15)) (shapeCast S1x64 (m ((c : Thread nD τ).loc main_arg16)) shapeCasts_S64_S1x64) (m ((c : Thread nD τ).loc main_arg17)) (shapeCast S1x64 (m ((c : Thread nD τ).loc main_arg18)) shapeCasts_S64_S1x64) (m ((c : Thread nD τ).loc main_arg19)) (shapeCast S1x64 (m ((c : Thread nD τ).loc main_arg20)) shapeCasts_S64_S1x64) := by
  rw [W8_of_ne m ρ c main_v11 (by decide)]
  show StableHlo.after hostOps3 (W6 m ρ c) (Proc.devRef .tc main_v11) = _
  after_results
  exact he1_val m ρ c

theorem msg1_val : W9 m ρ c (Proc.devRef .tc main_v65) = MSG1 m c := by
  refine (W9_arr m ρ c 4).trans ((final4 (V8 m ρ) c).trans ?_)
  have e0 : V8 m ρ c main_v61 = extractStridedSlice S300000x64 ![500000, 0] (GS m c) slices_S800000x64_S300000x64_500000_0 := v61_at8 m ρ c
  have e1 : V8 m ρ c main_v63 = extractStridedSlice S300000x64 ![500000, 0] (GD m c) slices_S800000x64_S300000x64_500000_0 := v63_at8 m ρ c
  have e2 : V8 m ρ c main_v11 = mlp3 (m ((c : Thread nD τ).loc main_arg2)) (m ((c : Thread nD τ).loc main_arg15)) (shapeCast S1x64 (m ((c : Thread nD τ).loc main_arg16)) shapeCasts_S64_S1x64) (m ((c : Thread nD τ).loc main_arg17)) (shapeCast S1x64 (m ((c : Thread nD τ).loc main_arg18)) shapeCasts_S64_S1x64) (m ((c : Thread nD τ).loc main_arg19)) (shapeCast S1x64 (m ((c : Thread nD τ).loc main_arg20)) shapeCasts_S64_S1x64) := v11_at8 m ρ c
  have e3 : V8 m ρ c main_v59 = extractStridedSlice S300000x1 ![500000, 0] (NORM m c) slices_S800000x1_S300000x1_500000_0 := v59_at8 m ρ c
  rw [e0, e1, e2, e3]
  rfl

theorem v55_at9 : W9 m ρ c (Proc.devRef .tc main_v55) = extractStridedSlice S500000 ![0] (m ((c : Thread nD τ).loc main_arg26)) slices_S800000_S500000_0 := by
  rw [W9_of_ne m ρ c main_v55 (by decide)]
  rw [W8_of_ne m ρ c main_v55 (by decide)]
  exact v55_at7 m ρ c

theorem v57_at9 : W9 m ρ c (Proc.devRef .tc main_v57) = extractStridedSlice S300000 ![500000] (m ((c : Thread nD τ).loc main_arg26)) slices_S800000_S300000_500000 := by
  rw [W9_of_ne m ρ c main_v57 (by decide)]
  rw [W8_of_ne m ρ c main_v57 (by decide)]
  exact v57_at7 m ρ c

theorem v64_at9 : W9 m ρ c (Proc.devRef .tc main_v64) = MSG0 m c := by
  rw [W9_of_ne m ρ c main_v64 (by decide)]
  exact msg0_val m ρ c

theorem a22_at9 : W9 m ρ c (Proc.devRef .tc main_arg22) = (m ((c : Thread nD τ).loc main_arg22)) := by
  rw [W9_of_ne m ρ c main_arg22 (by decide)]
  rw [W8_of_ne m ρ c main_arg22 (by decide)]
  show StableHlo.after hostOps3 (W6 m ρ c) (Proc.devRef .tc main_arg22) = _
  after_results
  rw [W6_of_ne m ρ c main_arg22 (by decide)]
  show StableHlo.after hostOps2 (W4 m ρ c) (Proc.devRef .tc main_arg22) = _
  after_results
  rw [W4_of_ne m ρ c main_arg22 (by decide)]
  show StableHlo.after hostOps1 (W2 m ρ c) (Proc.devRef .tc main_arg22) = _
  after_results
  rw [W2_of_ne m ρ c main_arg22 (by decide)]
  show StableHlo.after hostOps0 (W0 m ρ c) (Proc.devRef .tc main_arg22) = _
  after_results <;> try rfl

theorem a21_at10 : W10 m ρ c (Proc.devRef .tc main_arg21) = (m ((c : Thread nD τ).loc main_arg21)) := by
  show StableHlo.after hostOps5 (W9 m ρ c) (Proc.devRef .tc main_arg21) = _
  after_results
  rw [W9_of_ne m ρ c main_arg21 (by decide)]
  rw [W8_of_ne m ρ c main_arg21 (by decide)]
  show StableHlo.after hostOps3 (W6 m ρ c) (Proc.devRef .tc main_arg21) = _
  after_results
  rw [W6_of_ne m ρ c main_arg21 (by decide)]
  show StableHlo.after hostOps2 (W4 m ρ c) (Proc.devRef .tc main_arg21) = _
  after_results
  rw [W4_of_ne m ρ c main_arg21 (by decide)]
  show StableHlo.after hostOps1 (W2 m ρ c) (Proc.devRef .tc main_arg21) = _
  after_results
  rw [W2_of_ne m ρ c main_arg21 (by decide)]
  show StableHlo.after hostOps0 (W0 m ρ c) (Proc.devRef .tc main_arg21) = _
  after_results <;> try rfl

theorem agg1_val : W10 m ρ c (Proc.devRef .tc main_v72) = AGG1 m c := by
  show StableHlo.after hostOps5 (W9 m ρ c) (Proc.devRef .tc main_v72) = _
  after_results
  rw [v55_at9 m ρ c, v64_at9 m ρ c, v57_at9 m ρ c, msg1_val m ρ c] <;> try rfl

theorem v73_at10 : W10 m ρ c (Proc.devRef .tc main_v73) = (shapeCast S1x64 (m ((c : Thread nD τ).loc main_arg22)) shapeCasts_S64_S1x64) := by
  show StableHlo.after hostOps5 (W9 m ρ c) (Proc.devRef .tc main_v73) = _
  after_results
  rw [a22_at9 m ρ c] <;> try rfl

theorem h1_val : W11 m ρ c (Proc.devRef .tc main_v74) = H1 m c := by
  refine (W11_arr m ρ c 3).trans ((final5 (V10 m ρ) c).trans ?_)
  have e0 : V10 m ρ c main_v72 = AGG1 m c := agg1_val m ρ c
  have e1 : V10 m ρ c main_arg21 = (m ((c : Thread nD τ).loc main_arg21)) := a21_at10 m ρ c
  have e2 : V10 m ρ c main_v73 = (shapeCast S1x64 (m ((c : Thread nD τ).loc main_arg22)) shapeCasts_S64_S1x64) := v73_at10 m ρ c
  rw [e0, e1, e2]
  rfl

theorem a25_at11 : W11 m ρ c (Proc.devRef .tc main_arg25) = (m ((c : Thread nD τ).loc main_arg25)) := by
  rw [W11_of_ne m ρ c main_arg25 (by decide)]
  show StableHlo.after hostOps5 (W9 m ρ c) (Proc.devRef .tc main_arg25) = _
  after_results
  rw [W9_of_ne m ρ c main_arg25 (by decide)]
  rw [W8_of_ne m ρ c main_arg25 (by decide)]
  show StableHlo.after hostOps3 (W6 m ρ c) (Proc.devRef .tc main_arg25) = _
  after_results
  exact a25_at6 m ρ c

theorem g3_val : W12 m ρ c (Proc.devRef .tc main_v81) = Host.gather gather_S50000x64_S800000x1_S800000x64_1_0_n_n_0_1_164 (H1 m c) (NSRC2 m c) := by
  show StableHlo.after hostOps6 (W11 m ρ c) (Proc.devRef .tc main_v81) = _
  after_results
  rw [h1_val m ρ c, a25_at11 m ρ c] <;> try rfl

theorem v39_at12 : W12 m ρ c (Proc.devRef .tc main_v39) = NORM m c := by
  show StableHlo.after hostOps6 (W11 m ρ c) (Proc.devRef .tc main_v39) = _
  after_results
  rw [W11_of_ne m ρ c main_v39 (by decide)]
  show StableHlo.after hostOps5 (W9 m ρ c) (Proc.devRef .tc main_v39) = _
  after_results
  rw [W9_of_ne m ρ c main_v39 (by decide)]
  rw [W8_of_ne m ρ c main_v39 (by decide)]
  exact norm_val m ρ c

theorem sc_val : W13 m ρ c (Proc.devRef .tc main_v82) = SC m c := by
  refine (W13_arr m ρ c 2).trans ((final6 (V12 m ρ) c).trans ?_)
  have e0 : V12 m ρ c main_v81 = Host.gather gather_S50000x64_S800000x1_S800000x64_1_0_n_n_0_1_164 (H1 m c) (NSRC2 m c) := g3_val m ρ c
  have e1 : V12 m ρ c main_v39 = NORM m c := v39_at12 m ρ c
  rw [e0, e1]
  rfl

theorem a26_at13 : W13 m ρ c (Proc.devRef .tc main_arg26) = (m ((c : Thread nD τ).loc main_arg26)) := by
  rw [W13_of_ne m ρ c main_arg26 (by decide)]
  show StableHlo.after hostOps6 (W11 m ρ c) (Proc.devRef .tc main_arg26) = _
  after_results
  rw [W11_of_ne m ρ c main_arg26 (by decide)]
  show StableHlo.after hostOps5 (W9 m ρ c) (Proc.devRef .tc main_arg26) = _
  after_results
  rw [W9_of_ne m ρ c main_arg26 (by decide)]
  rw [W8_of_ne m ρ c main_arg26 (by decide)]
  show StableHlo.after hostOps3 (W6 m ρ c) (Proc.devRef .tc main_arg26) = _
  after_results
  exact a26_at6 m ρ c

theorem a24_at13 : W13 m ρ c (Proc.devRef .tc main_arg24) = (m ((c : Thread nD τ).loc main_arg24)) := by
  rw [W13_of_ne m ρ c main_arg24 (by decide)]
  show StableHlo.after hostOps6 (W11 m ρ c) (Proc.devRef .tc main_arg24) = _
  after_results
  rw [W11_of_ne m ρ c main_arg24 (by decide)]
  show StableHlo.after hostOps5 (W9 m ρ c) (Proc.devRef .tc main_arg24) = _
  after_results
  rw [W9_of_ne m ρ c main_arg24 (by decide)]
  rw [W8_of_ne m ρ c main_arg24 (by decide)]
  show StableHlo.after hostOps3 (W6 m ρ c) (Proc.devRef .tc main_arg24) = _
  after_results
  rw [W6_of_ne m ρ c main_arg24 (by decide)]
  show StableHlo.after hostOps2 (W4 m ρ c) (Proc.devRef .tc main_arg24) = _
  after_results
  rw [W4_of_ne m ρ c main_arg24 (by decide)]
  show StableHlo.after hostOps1 (W2 m ρ c) (Proc.devRef .tc main_arg24) = _
  after_results
  rw [W2_of_ne m ρ c main_arg24 (by decide)]
  show StableHlo.after hostOps0 (W0 m ρ c) (Proc.devRef .tc main_arg24) = _
  after_results <;> try rfl

theorem a23_at14 : W14 m ρ c (Proc.devRef .tc main_arg23) = (m ((c : Thread nD τ).loc main_arg23)) := by
  show StableHlo.after hostOps7 (W13 m ρ c) (Proc.devRef .tc main_arg23) = _
  after_results
  rw [W13_of_ne m ρ c main_arg23 (by decide)]
  show StableHlo.after hostOps6 (W11 m ρ c) (Proc.devRef .tc main_arg23) = _
  after_results
  rw [W11_of_ne m ρ c main_arg23 (by decide)]
  show StableHlo.after hostOps5 (W9 m ρ c) (Proc.devRef .tc main_arg23) = _
  after_results
  rw [W9_of_ne m ρ c main_arg23 (by decide)]
  rw [W8_of_ne m ρ c main_arg23 (by decide)]
  show StableHlo.after hostOps3 (W6 m ρ c) (Proc.devRef .tc main_arg23) = _
  after_results
  rw [W6_of_ne m ρ c main_arg23 (by decide)]
  show StableHlo.after hostOps2 (W4 m ρ c) (Proc.devRef .tc main_arg23) = _
  after_results
  rw [W4_of_ne m ρ c main_arg23 (by decide)]
  show StableHlo.after hostOps1 (W2 m ρ c) (Proc.devRef .tc main_arg23) = _
  after_results
  rw [W2_of_ne m ρ c main_arg23 (by decide)]
  show StableHlo.after hostOps0 (W0 m ρ c) (Proc.devRef .tc main_arg23) = _
  after_results <;> try rfl

theorem agg2_val : W14 m ρ c (Proc.devRef .tc main_v85) = AGG2 m c := by
  show StableHlo.after hostOps7 (W13 m ρ c) (Proc.devRef .tc main_v85) = _
  after_results
  rw [a26_at13 m ρ c, sc_val m ρ c] <;> try rfl

theorem v86_at14 : W14 m ρ c (Proc.devRef .tc main_v86) = (shapeCast S1x1 (m ((c : Thread nD τ).loc main_arg24)) shapeCasts_S1_S1x1) := by
  show StableHlo.after hostOps7 (W13 m ρ c) (Proc.devRef .tc main_v86) = _
  after_results
  rw [a24_at13 m ρ c] <;> try rfl

/-- THE RESULT of the idealized device program, at the last boundary of its run. -/
theorem out_val : W15 m ρ c (Proc.devRef .tc main_v87) = OUT m c := by
  refine (W15_arr m ρ c 3).trans ((final7 (V14 m ρ) c).trans ?_)
  have e0 : V14 m ρ c main_v85 = AGG2 m c := agg2_val m ρ c
  have e1 : V14 m ρ c main_arg23 = (m ((c : Thread nD τ).loc main_arg23)) := a23_at14 m ρ c
  have e2 : V14 m ρ c main_v86 = (shapeCast S1x1 (m ((c : Thread nD τ).loc main_arg24)) shapeCasts_S1_S1x1) := v86_at14 m ρ c
  rw [e0, e1, e2]
  rfl

end Cert.KernelIdeal.Regions

end
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.LibScatterRead.lean ====
/-
  Reading the result of a scatter at one index.

  A scatter is a left fold over the update indices, in row-major order: the step for update index j replaces the element
  at the operand index j lands on (its start plus its window coordinate, axis by axis) by the combining function applied
  to that element and the update's, and does nothing when j lands outside the operand.  Three facts follow from the fold
  alone, for any dimension numbers, operand, scatter indices and update:

    * an operand index no update index lands on keeps the operand's value;
    * when the combining function returns the update, an operand index exactly one update index lands on holds that
      update's element;
    * update index j lands on operand index i exactly when, on every axis, i's coordinate is the start plus the window
      coordinate.

  From the third, an operand index differing from every landing on ONE axis is an index nothing lands on.
-/
import Idealize.ShloMosaic.PureOps.ShapeOps

namespace Cert.ScatterRead

open Idealize.ShloMosaic

variable {s si u : Shape} {α : Type} {w : Nat}

/-- One step of the fold a scatter is: update position n (row-major) overwrites the element it lands on. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- A scatter is the fold of its steps over the update positions in order. -/
theorem scatter_eq_foldl (d : ScatterDims s si u) (f : α → α → α) (x : s.Idx → α) (idx : IVec si w) (upd : u.Idx → α) :
    Host.scatter d f x idx upd = (List.finRange u.numel).foldl (step d f idx upd) x := rfl

/-- A step leaves every index other than the one it lands on as it was. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hres : d.resultIdx? (u.rowMajor.symm n) idx with
  | none => rfl
  | some i0 =>
    have hne : i ≠ i0 := fun e => h (e ▸ hres)
    exact if_neg hne

/-- A step combines the element it lands on with the update's. -/
theorem step_of_eq (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  exact if_pos rfl

/-- Folding steps none of which lands on i leaves the value at i. -/
theorem foldl_keep (d : ScatterDims s si u) (f : α → α → α) (idx : IVec si w) (upd : u.Idx → α)
    (l : List (Fin u.numel)) (x : s.Idx → α) (i : s.Idx)
    (h : ∀ n ∈ l, d.resultIdx? (u.rowMajor.symm n) idx ≠ some i) :
    l.foldl (step d f idx upd) x i = x i := by
  induction l generalizing x with
  | nil => rfl
  | cons n l ih =>
    rw [List.foldl_cons, ih _ (fun m hm => h m (List.mem_cons_of_mem _ hm)),
      step_of_ne d f idx upd x n i (h n List.mem_cons_self)]

/-- Folding overwriting steps over positions without repeats, exactly one of which lands on i, leaves that position's
    update at i. -/
theorem foldl_unique (d : ScatterDims s si u) (idx : IVec si w) (upd : u.Idx → α)
    (l : List (Fin u.numel)) (hl : l.Nodup) (x : s.Idx → α) (i : s.Idx) (n0 : Fin u.numel) (h0 : n0 ∈ l)
    (hland : d.resultIdx? (u.rowMajor.symm n0) idx = some i)
    (huniq : ∀ n ∈ l, d.resultIdx? (u.rowMajor.symm n) idx = some i → n = n0) :
    l.foldl (step d (fun _ b => b) idx upd) x i = upd (u.rowMajor.symm n0) := by
  induction l generalizing x with
  | nil => cases h0
  | cons n l ih =>
    rw [List.foldl_cons]
    rw [List.nodup_cons] at hl
    by_cases hn : n = n0
    · subst hn
      rw [foldl_keep d _ idx upd l _ i
        (fun m hm hm' => hl.1 ((huniq m (List.mem_cons_of_mem _ hm) hm') ▸ hm)),
        step_of_eq d _ idx upd x n i hland]
    · have h0' : n0 ∈ l := (List.mem_cons.1 h0).resolve_left (fun e => hn e.symm)
      exact ih hl.2 _ h0' (fun m hm => huniq m (List.mem_cons_of_mem _ hm))

/-- An operand index no update index lands on keeps the operand's value. -/
theorem scatter_apply_of_no_landing (d : ScatterDims s si u) (f : α → α → α) (x : s.Idx → α) (idx : IVec si w)
    (upd : u.Idx → α) (i : s.Idx) (h : ∀ j, d.resultIdx? j idx ≠ some i) :
    Host.scatter d f x idx upd i = x i :=
  foldl_keep d f idx upd _ x i (fun n _ => h _)

/-- When the combining function returns the update, an operand index that update index j0 lands on and no other does
    holds the update's element at j0. -/
theorem scatter_set_apply_of_unique (d : ScatterDims s si u) (x : s.Idx → α) (idx : IVec si w) (upd : u.Idx → α)
    (i : s.Idx) (j0 : u.Idx) (hland : d.resultIdx? j0 idx = some i)
    (huniq : ∀ j, d.resultIdx? j idx = some i → j = j0) :
    Host.scatter d (fun _ b => b) x idx upd i = upd j0 := by
  have key := foldl_unique d idx upd (List.finRange u.numel) (List.nodup_finRange _) x i (u.rowMajor j0)
    (List.mem_finRange _) (by rw [Equiv.symm_apply_apply]; exact hland)
    (fun n _ hn => by rw [← huniq _ hn, Equiv.apply_symm_apply])
  rw [Equiv.symm_apply_apply] at key
  exact key

/-- Update index j lands on operand index i exactly when, on every axis, i's coordinate is the start plus the window
    coordinate. -/
theorem resultIdx?_eq_some_iff (d : ScatterDims s si u) (idx : IVec si w) (j : u.Idx) (i : s.Idx) :
    d.resultIdx? j idx = some i ↔ ∀ a, d.start j idx a + (d.window j a : ℤ) = ((i a).val : ℤ) := by
  unfold ScatterDims.resultIdx?
  constructor
  · intro h a
    split at h
    · next hb =>
      have e := Option.some.inj h
      rw [← e]
      exact (Int.toNat_of_nonneg (hb a).1).symm
    · cases h
  · intro h
    have hb : ∀ a, 0 ≤ d.start j idx a + (d.window j a : ℤ) ∧ d.start j idx a + (d.window j a : ℤ) < s.size a :=
      fun a => by rw [h a]; exact ⟨Int.natCast_nonneg _, by exact_mod_cast (i a).isLt⟩
    rw [dif_pos hb]
    congr 1
    funext a
    apply Fin.ext
    show Int.toNat _ = (i a).val
    rw [h a]
    exact Int.toNat_natCast _

/-- An operand index whose coordinate on one axis differs from every landing's coordinate on that axis keeps the
    operand's value. -/
theorem scatter_apply_of_axis_ne (d : ScatterDims s si u) (f : α → α → α) (x : s.Idx → α) (idx : IVec si w)
    (upd : u.Idx → α) (i : s.Idx) (a : Fin s.rank)
    (h : ∀ j, d.start j idx a + (d.window j a : ℤ) ≠ ((i a).val : ℤ)) :
    Host.scatter d f x idx upd i = x i :=
  scatter_apply_of_no_landing d f x idx upd i
    (fun j hj => h j ((resultIdx?_eq_some_iff d idx j i).1 hj a))

end Cert.ScatterRead
-- ==== Proof.LibScatterSplit.lean ====
/-
  A scatter-add of rows, split at a row of the updates.

  A scatter-add of the E rows of an E × C array into an N × C matrix, driven by one E × 1 column of row numbers, adds
  to matrix entry (r, c) every update entry (e, c) whose row number, read as a signed integer without clamping, is r.
  Hence the sum of the updates landing on (r, c) is a sum over the update rows e alone, and when E = E0 + E1 that sum
  splits at E0 into the sum over the first E0 rows and the sum over the last E1 rows. Addition of extended reals is
  commutative and associative, so the split needs no finiteness assumption.
-/
import Idealize.ShloMosaic.Lib.ValueIdx
import Idealize.ShloMosaic.PureOps.Ideal
import proofs.«165014_j22557168239387_2_alg».proof.Proof.LibRowGather
import proofs.«165014_j22557168239387_2_alg».proof.Proof.LibScatterRead

noncomputable section

open scoped BigOperators

namespace Idealize.ShloMosaic.ValueIdx

open Idealize.ShloMosaic

/-- Along the row axis, the start of update entry `(e, l)` of a scatter of rows is the integer of row `e`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) :
    (rowScatterDims N E C wf).start (ix2 e l) idx (0 : Fin 2) = (idx (colEntry e)).toInt := by
  unfold ScatterDims.start
  rw [dif_pos (show (0 : Fin 2) ∈ (rowScatterDims N E C wf).scatterDimsToOperandDims from List.mem_singleton.mpr rfl)]
  have hsi : (rowScatterDims N E C wf).siIdx (ix2 e l) ⟨List.idxOf (0 : Fin 2) (rowScatterDims N E C wf).scatterDimsToOperandDims,
      List.idxOf_lt_length_iff.2 (List.mem_singleton.mpr rfl)⟩ = colEntry e := by
    funext b; refine Fin.ext ?_
    match b with
    | ⟨0, _⟩ => rfl
    | ⟨1, _⟩ => rfl
  rw [hsi]

/-- Along the row axis, the window coordinate of an update entry of a scatter of rows is zero. -/
theorem rowScatter_window0 {N E C : Nat}
    (wf : ScatterDims.WF ⟨2, ![N, C]⟩ ⟨2, ![E, 1]⟩ ⟨2, ![E, C]⟩ [1] [0] [0] 1) (e : Fin E) (l : Fin C) :
    (rowScatterDims N E C wf).window (ix2 e l) (0 : Fin 2) = 0 := by
  unfold ScatterDims.window
  rw [dif_neg (show (0 : Fin 2) ∉ (rowScatterDims N E C wf).sKept from (by decide : (0 : Fin 2) ∉ (List.finRange 2).filter (· ∉ ([0] : List (Fin 2)))))]

/-- Along the column axis, the start of an update entry of a scatter of rows is zero. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) :
    (rowScatterDims N E C wf).start (ix2 e l) idx (1 : Fin 2) = 0 := by
  unfold ScatterDims.start
  rw [dif_neg (show (1 : Fin 2) ∉ ([0] : List (Fin 2)) by decide)]

/-- Along the column axis, the window coordinate of update entry `(e, l)` of a scatter of rows is `l`. -/
theorem rowScatter_window1 {N E C : Nat}
    (wf : ScatterDims.WF ⟨2, ![N, C]⟩ ⟨2, ![E, 1]⟩ ⟨2, ![E, C]⟩ [1] [0] [0] 1) (e : Fin E) (l : Fin C) :
    (rowScatterDims N E C wf).window (ix2 e l) (1 : Fin 2) = l.val := by
  unfold ScatterDims.window
  rw [dif_pos (show (1 : Fin 2) ∈ (rowScatterDims N E C wf).sKept from (by decide : (1 : Fin 2) ∈ (List.finRange 2).filter (· ∉ ([0] : List (Fin 2)))))]
  rfl

/-- WHERE A SCATTERED ROW LANDS, both ways: update entry `(e, l)` lands on matrix entry `i` exactly when the integer of
    row `e`, read signed, is the row number of `i` and `i` is in column `l`. -/
theorem scatter_rows_lands_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx) :
    (rowScatterDims N E C wf).resultIdx? (ix2 e l) idx = some i ↔
      (idx (colEntry e)).toInt = ((i 0).val : Int) ∧ (i 1).val = l.val := by
  constructor
  · exact scatter_rows_lands wf idx e l i
  · rintro ⟨h0, h1⟩
    rw [Cert.ScatterRead.resultIdx?_eq_some_iff]
    intro a
    match a with
    | ⟨0, _⟩ =>
      show (rowScatterDims N E C wf).start (ix2 e l) idx (0 : Fin 2)
        + (((rowScatterDims N E C wf).window (ix2 e l) (0 : Fin 2) : Nat) : Int) = ((i 0).val : Int)
      rw [rowScatter_start0, rowScatter_window0, h0]
      simp
    | ⟨1, _⟩ =>
      show (rowScatterDims N E C wf).start (ix2 e l) idx (1 : Fin 2)
        + (((rowScatterDims N E C wf).window (ix2 e l) (1 : Fin 2) : Nat) : Int) = ((i 1).val : Int)
      rw [rowScatter_start1, rowScatter_window1, h1]
      simp

/-- The updates of a scatter of rows that land on matrix entry `i`, summed: the sum over the update rows `e` whose
    integer, read signed, is the row number of `i`, of the update entry of row `e` in the column of `i`. -/
theorem scatter_rows_sum {N E C w : Nat}
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → EReal) (i : (⟨2, ![N, C]⟩ : Shape).Idx)
    [DecidablePred (fun j => (rowScatterDims N E C wf).resultIdx? j idx = some i)] :
    (∑ j ∈ Finset.univ.filter (fun j => (rowScatterDims N E C wf).resultIdx? j idx = some i), upd j)
      = ∑ e : Fin E, if (idx (colEntry e)).toInt = ((i 0).val : Int) then upd (ix2 e ⟨(i 1).val, idx2_lt1 i⟩) else 0 := by
  rw [Finset.sum_filter, sum_idx2]
  refine Finset.sum_congr rfl (fun e _ => ?_)
  by_cases h : (idx (colEntry e)).toInt = ((i 0).val : Int)
  · rw [if_pos h, Finset.sum_eq_single (⟨(i 1).val, idx2_lt1 i⟩ : Fin C)]
    · rw [if_pos ((scatter_rows_lands_iff wf idx e ⟨(i 1).val, idx2_lt1 i⟩ i).2 ⟨h, rfl⟩)]
    · intro l _ hl
      rw [if_neg]
      intro hh
      exact hl (Fin.ext ((scatter_rows_lands_iff wf idx e l i).1 hh).2.symm)
    · intro hh
      exact absurd (Finset.mem_univ _) hh
  · rw [if_neg h]
    refine Finset.sum_eq_zero (fun l _ => ?_)
    rw [if_neg]
    intro hh
    exact h ((scatter_rows_lands_iff wf idx e l i).1 hh).1

/-- A SCATTER-ADD OF ROWS SPLITS AT A ROW OF THE UPDATES. Let `E = E0 + E1`. Scatter-adding the `E` rows of an `E × C`
    array into an `N × C` matrix `x`, by one column of `E` row numbers, gives entry by entry the sum of two
    scatter-adds into `N × C` matrices `x0` and `x1` with `x = x0 + x1` entrywise: that of the first `E0` update rows with
    the first `E0` row numbers into `x0`, and that of the last `E1` update rows with the last `E1` row numbers into `x1`. -/
theorem scatterAdd_rows_split {N C E0 E1 E w : ℕ} (hE : E = E0 + E1)
    (wf : ScatterDims.WF ⟨2, ![N, C]⟩ ⟨2, ![E, 1]⟩ ⟨2, ![E, C]⟩ [1] [0] [0] 1)
    (wf0 : ScatterDims.WF ⟨2, ![N, C]⟩ ⟨2, ![E0, 1]⟩ ⟨2, ![E0, C]⟩ [1] [0] [0] 1)
    (wf1 : ScatterDims.WF ⟨2, ![N, C]⟩ ⟨2, ![E1, 1]⟩ ⟨2, ![E1, C]⟩ [1] [0] [0] 1)
    (x x0 x1 : (⟨2, ![N, C]⟩ : Shape).Idx → EReal) (hx : ∀ i, x i = x0 i + x1 i)
    (idx : IVec ⟨2, ![E, 1]⟩ w) (idx0 : IVec ⟨2, ![E0, 1]⟩ w) (idx1 : IVec ⟨2, ![E1, 1]⟩ w)
    (hi0 : ∀ e : Fin E0, idx0 (colEntry e) = idx (colEntry ⟨e.val, by omega⟩))
    (hi1 : ∀ e : Fin E1, idx1 (colEntry e) = idx (colEntry ⟨E0 + e.val, by omega⟩))
    (upd : (⟨2, ![E, C]⟩ : Shape).Idx → EReal) (upd0 : (⟨2, ![E0, C]⟩ : Shape).Idx → EReal)
    (upd1 : (⟨2, ![E1, C]⟩ : Shape).Idx → EReal)
    (hu0 : ∀ (e : Fin E0) (l : Fin C), upd0 (ix2 e l) = upd (ix2 ⟨e.val, by omega⟩ l))
    (hu1 : ∀ (e : Fin E1) (l : Fin C), upd1 (ix2 e l) = upd (ix2 ⟨E0 + e.val, by omega⟩ l)) :
    Ideal.hostScatterAdd (rowScatterDims N E C wf) x idx upd
      = fun i => Ideal.hostScatterAdd (rowScatterDims N E0 C wf0) x0 idx0 upd0 i
          + Ideal.hostScatterAdd (rowScatterDims N E1 C wf1) x1 idx1 upd1 i := by
  subst hE
  funext i
  unfold Ideal.hostScatterAdd
  rw [scatter_rows_sum wf idx upd i, scatter_rows_sum wf0 idx0 upd0 i, scatter_rows_sum wf1 idx1 upd1 i,
    Fin.sum_univ_add, hx i]
  have hA : (∑ e : Fin E0, if (idx (colEntry (Fin.castAdd E1 e))).toInt = ((i 0).val : Int)
        then upd (ix2 (Fin.castAdd E1 e) ⟨(i 1).val, idx2_lt1 i⟩) else 0)
      = ∑ e : Fin E0, if (idx0 (colEntry e)).toInt = ((i 0).val : Int) then upd0 (ix2 e ⟨(i 1).val, idx2_lt1 i⟩) else 0 :=
    Finset.sum_congr rfl (fun e _ => by rw [hi0 e, hu0 e ⟨(i 1).val, idx2_lt1 i⟩]; rfl)
  have hB : (∑ e : Fin E1, if (idx (colEntry (Fin.natAdd E0 e))).toInt = ((i 0).val : Int)
        then upd (ix2 (Fin.natAdd E0 e) ⟨(i 1).val, idx2_lt1 i⟩) else 0)
      = ∑ e : Fin E1, if (idx1 (colEntry e)).toInt = ((i 0).val : Int) then upd1 (ix2 e ⟨(i 1).val, idx2_lt1 i⟩) else 0 :=
    Finset.sum_congr rfl (fun e _ => by rw [hi1 e, hu1 e ⟨(i 1).val, idx2_lt1 i⟩]; rfl)
  rw [hA, hB]
  exact add_add_add_comm _ _ _ _

end Idealize.ShloMosaic.ValueIdx
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.HostForms.lean ====
/-
  The host's spellings of the array functions of the graph network, over the extended reals.

  * The positive part written as the larger of an array and a splat of the zero word.
  * A dense layer written as a `dot_general` plus a vector broadcast first to a 1 × N row and then down the rows; the
    same followed by the positive part; and three such layers in a row.
  * Row scaling written as a product with a one-column array broadcast along the rows.
  * The aggregate of the first graph layer: a scatter-add, into a matrix of zeros and by one column of row numbers, of
    the rows of (A + B + C) scaled by a one-column array, where C is two arrays one above the other. It is the sum of
    the scatter-add of the top rows and the scatter-add of the bottom rows, each into a matrix of zeros, each part's
    rows being `combine` of the matching slices.
-/
import proofs.«165014_j22557168239387_2_alg».proof.Proof.Forms
import proofs.«165014_j22557168239387_2_alg».proof.Proof.LibScatterSplit
import proofs.«165014_j22557168239387_2_alg».proof.Proof.LibConcatRead
import Idealize.ShloMosaic.Lib.Pipeline.Value
import Idealize.ShloMosaic.Lib.ValueIdx
import Idealize.ShloMosaic.PureOps.Ideal.Laws

noncomputable section

namespace Cert.Gnn

open Idealize.ShloMosaic Idealize.ShloMosaic.ValueIdx Cert.MatrixProduct Cert.Gcn

/-! ## The positive part and the dense layers -/

/-- The host's positive part: the larger of each entry and a splat of the zero word. -/
theorem host_relu {s : Shape} (hz : (⟨0, ![]⟩ : Shape).BroadcastsInDim s ![]) (A : FVec Ideal s .f32) :
    maximumf A (broadcastInDim s ![] hz (constant (F := Ideal) ⟨0, ![]⟩ .f32 0x00000000#32)) = relu A := by
  funext j
  rfl

/-- The host's dense layer: a `dot_general` plus a vector of length N made a 1 × N row and repeated down the M rows. -/
theorem host_dense {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : FVec Ideal ⟨2, ![M, K]⟩ .f32) (W : FVec Ideal ⟨2, ![K, N]⟩ .f32) (b : FVec Ideal ⟨1, ![N]⟩ .f32) :
    addf (Host.dotGeneral (⟨[1], [0], [0], [1], [], [], w⟩ : DotDims ⟨2, ![M, K]⟩ ⟨2, ![K, N]⟩ ⟨2, ![M, N]⟩) none X W)
        (broadcastInDim ⟨2, ![M, N]⟩ (![0, 1] : Fin 2 → Fin 2) h2
          (broadcastInDim ⟨2, ![1, N]⟩ (![1] : Fin 1 → Fin 2) h1 b))
      = biasedProduct X W (rowOf b) := by
  rw [bcast_row_eq_rowOf, host_linear]

/-- The host's dense layer followed by the positive part. -/
theorem host_relu_dense {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : (⟨0, ![]⟩ : Shape).BroadcastsInDim ⟨2, ![M, N]⟩ ![])
    (X : FVec Ideal ⟨2, ![M, K]⟩ .f32) (W : FVec Ideal ⟨2, ![K, N]⟩ .f32) (b : FVec Ideal ⟨1, ![N]⟩ .f32) :
    maximumf
        (addf (Host.dotGeneral (⟨[1], [0], [0], [1], [], [], w⟩ : DotDims ⟨2, ![M, K]⟩ ⟨2, ![K, N]⟩ ⟨2, ![M, N]⟩) none X W)
          (broadcastInDim ⟨2, ![M, N]⟩ (![0, 1] : Fin 2 → Fin 2) h2
            (broadcastInDim ⟨2, ![1, N]⟩ (![1] : Fin 1 → Fin 2) h1 b)))
        (broadcastInDim ⟨2, ![M, N]⟩ ![] hz (constant (F := Ideal) ⟨0, ![]⟩ .f32 0x00000000#32))
      = relu (biasedProduct X W (rowOf b)) := by
  rw [host_dense, host_relu]

/-- The host's three dense layers with the positive part after the first two. -/
theorem host_mlp3 {M K D : ℕ}
    (w0 : DotDims.WF ⟨2, ![M, K]⟩ ⟨2, ![K, D]⟩ ⟨2, ![M, D]⟩ [1] [0] [0] [1] [] [])
    (w1 : DotDims.WF ⟨2, ![M, D]⟩ ⟨2, ![D, D]⟩ ⟨2, ![M, D]⟩ [1] [0] [0] [1] [] [])
    (h1 : (⟨1, ![D]⟩ : Shape).BroadcastsInDim ⟨2, ![1, D]⟩ (![1] : Fin 1 → Fin 2))
    (h2 : (⟨2, ![1, D]⟩ : Shape).BroadcastsInDim ⟨2, ![M, D]⟩ (![0, 1] : Fin 2 → Fin 2))
    (hz : (⟨0, ![]⟩ : Shape).BroadcastsInDim ⟨2, ![M, D]⟩ ![])
    (X : FVec Ideal ⟨2, ![M, K]⟩ .f32) (W0 : FVec Ideal ⟨2, ![K, D]⟩ .f32) (b0 : FVec Ideal ⟨1, ![D]⟩ .f32)
    (W1 : FVec Ideal ⟨2, ![D, D]⟩ .f32) (b1 : FVec Ideal ⟨1, ![D]⟩ .f32)
    (W2 : FVec Ideal ⟨2, ![D, D]⟩ .f32) (b2 : FVec Ideal ⟨1, ![D]⟩ .f32) :
    addf (Host.dotGeneral (⟨[1], [0], [0], [1], [], [], w1⟩ : DotDims ⟨2, ![M, D]⟩ ⟨2, ![D, D]⟩ ⟨2, ![M, D]⟩) none
          (maximumf
            (addf (Host.dotGeneral (⟨[1], [0], [0], [1], [], [], w1⟩ : DotDims ⟨2, ![M, D]⟩ ⟨2, ![D, D]⟩ ⟨2, ![M, D]⟩) none
                (maximumf
                  (addf (Host.dotGeneral (⟨[1], [0], [0], [1], [], [], w0⟩ : DotDims ⟨2, ![M, K]⟩ ⟨2, ![K, D]⟩ ⟨2, ![M, D]⟩) none X W0)
                    (broadcastInDim ⟨2, ![M, D]⟩ (![0, 1] : Fin 2 → Fin 2) h2
                      (broadcastInDim ⟨2, ![1, D]⟩ (![1] : Fin 1 → Fin 2) h1 b0)))
                  (broadcastInDim ⟨2, ![M, D]⟩ ![] hz (constant (F := Ideal) ⟨0, ![]⟩ .f32 0x00000000#32)))
                W1)
              (broadcastInDim ⟨2, ![M, D]⟩ (![0, 1] : Fin 2 → Fin 2) h2
                (broadcastInDim ⟨2, ![1, D]⟩ (![1] : Fin 1 → Fin 2) h1 b1)))
            (broadcastInDim ⟨2, ![M, D]⟩ ![] hz (constant (F := Ideal) ⟨0, ![]⟩ .f32 0x00000000#32)))
          W2)
        (broadcastInDim ⟨2, ![M, D]⟩ (![0, 1] : Fin 2 → Fin 2) h2
          (broadcastInDim ⟨2, ![1, D]⟩ (![1] : Fin 1 → Fin 2) h1 b2))
      = mlp3 X W0 (rowOf b0) W1 (rowOf b1) W2 (rowOf b2) := by
  rw [host_relu_dense w0 h1 h2 hz X W0 b0, host_relu_dense w1 h1 h2 hz _ W1 b1, host_dense w1 h1 h2 _ W2 b2]
  rfl

/-! ## Row scaling -/

/-- A one-column array broadcast along the rows, read at `(p, l)`: its entry of row `p`. -/
theorem bcast_col_apply {α : Type} {E C : ℕ}
    (h : (⟨2, ![E, 1]⟩ : Shape).BroadcastsInDim ⟨2, ![E, C]⟩ (![0, 1] : Fin 2 → Fin 2))
    (N : (⟨2, ![E, 1]⟩ : Shape).Idx → α) (p : Fin E) (l : Fin C) :
    broadcastInDim ⟨2, ![E, C]⟩ (![0, 1] : Fin 2 → Fin 2) h N (ix2 p l) = N (ix2 p (0 : Fin 1)) := by
  refine broadcastInDim_apply _ h N (ix2 p l) (ix2 p (0 : Fin 1)) (fun ax => ?_)
  match ax with
  | ⟨0, _⟩ =>
    show p.val = if E = 1 then 0 else p.val
    split
    · have := p.isLt; omega
    · rfl
  | ⟨1, _⟩ => show 0 = if (1 : ℕ) = 1 then 0 else l.val; rw [if_pos rfl]

/-- The host's row scaling: the array times a one-column array broadcast along the rows. -/
theorem host_scale {E C : ℕ}
    (h : (⟨2, ![E, 1]⟩ : Shape).BroadcastsInDim ⟨2, ![E, C]⟩ (![0, 1] : Fin 2 → Fin 2))
    (A : (⟨2, ![E, C]⟩ : Shape).Idx → EReal) (N : (⟨2, ![E, 1]⟩ : Shape).Idx → EReal) :
    mulf (F := Ideal) (φ := .f32) A (broadcastInDim ⟨2, ![E, C]⟩ (![0, 1] : Fin 2 → Fin 2) h N) = scaleRows A N := by
  funext j
  obtain ⟨p, l, rfl⟩ : ∃ (p : Fin E) (l : Fin C), j = ix2 p l := ⟨j 0, j 1, eq_ix2 j⟩
  rw [mulf_apply, bcast_col_apply]
  rfl

/-! ## Slices and the column of row numbers, read at an index -/

/-- A vector made a one-column array, read at row `e`: the vector's entry `e`. -/
theorem col_of_vec_apply {α : Type} {E : ℕ}
    (hc : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ (![0] : Fin 1 → Fin 2) hc v (colEntry e) = v (ix1 e) := by
  refine broadcastInDim_apply _ hc v (colEntry e) (ix1 e) (fun ax => ?_)
  match ax with
  | ⟨0, _⟩ =>
    show e.val = if E = 1 then 0 else e.val
    split
    · have := e.isLt; omega
    · rfl

/-- A run of a vector's entries starting at `off`, read at `e`: the vector's entry `off + e`. -/
theorem slice_vec_apply {α : Type} {E E' : ℕ} (off : ℕ)
    (hs : (⟨1, ![E]⟩ : Shape).Slices ![off] ⟨1, ![E']⟩) (v : (⟨1, ![E]⟩ : Shape).Idx → α)
    (e : Fin E') (e' : Fin E) (he : e'.val = off + e.val) :
    extractStridedSlice ⟨1, ![E']⟩ ![off] v hs (ix1 e) = v (ix1 e') := by
  refine extractStridedSlice_apply _ v hs (ix1 e) (ix1 e') (fun ax => ?_)
  match ax with
  | ⟨0, _⟩ => show e'.val = off + e.val; exact he

/-- A run of a matrix's rows starting at `off`, read at `(e, l)`: the matrix's entry `(off + e, l)`. -/
theorem slice_rows_apply {α : Type} {E E' C : ℕ} (off : ℕ)
    (hs : (⟨2, ![E, C]⟩ : Shape).Slices ![off, 0] ⟨2, ![E', C]⟩) (X : (⟨2, ![E, C]⟩ : Shape).Idx → α)
    (e : Fin E') (e' : Fin E) (l : Fin C) (he : e'.val = off + e.val) :
    extractStridedSlice ⟨2, ![E', C]⟩ ![off, 0] X hs (ix2 e l) = X (ix2 e' l) := by
  refine extractStridedSlice_apply _ X hs (ix2 e l) (ix2 e' l) (fun ax => ?_)
  match ax with
  | ⟨0, _⟩ => show e'.val = off + e.val; exact he
  | ⟨1, _⟩ => show l.val = 0 + l.val; omega

/-! ## The aggregate of the first graph layer, split at a row of the edges -/

/-- THE AGGREGATE SPLITS. Let `E = E0 + E1`. Scatter-add, into an `N × C` matrix of zeros and by the column of the `E`
    row numbers `dst`, the rows of `(A + B + C) · n`, where `C` is `C0` (its first `E0` rows) above `C1` (its last `E1`)
    and row `e` is scaled by `n(e)`. The result is the entrywise sum of two such scatter-adds into matrices of zeros:
    one by the first `E0` row numbers of the rows `combine` of the first `E0` rows of `A`, `B`, `n` and of `C0`, the other
    by the last `E1` row numbers of the rows `combine` of the last `E1` rows of `A`, `B`, `n` and of `C1`. -/
theorem agg_split {N C E0 E1 E : ℕ} (hE : E = E0 + E1)
    (wf : ScatterDims.WF ⟨2, ![N, C]⟩ ⟨2, ![E, 1]⟩ ⟨2, ![E, C]⟩ [1] [0] [0] 1)
    (wf0 : ScatterDims.WF ⟨2, ![N, C]⟩ ⟨2, ![E0, 1]⟩ ⟨2, ![E0, C]⟩ [1] [0] [0] 1)
    (wf1 : ScatterDims.WF ⟨2, ![N, C]⟩ ⟨2, ![E1, 1]⟩ ⟨2, ![E1, C]⟩ [1] [0] [0] 1)
    (hz : (⟨0, ![]⟩ : Shape).BroadcastsInDim ⟨2, ![N, C]⟩ ![])
    (hc : (⟨1, ![E]⟩ : Shape).BroadcastsInDim ⟨2, ![E, 1]⟩ (![0] : Fin 1 → Fin 2))
    (hc0 : (⟨1, ![E0]⟩ : Shape).BroadcastsInDim ⟨2, ![E0, 1]⟩ (![0] : Fin 1 → Fin 2))
    (hc1 : (⟨1, ![E1]⟩ : Shape).BroadcastsInDim ⟨2, ![E1, 1]⟩ (![0] : Fin 1 → Fin 2))
    (hs0 : (⟨1, ![E]⟩ : Shape).Slices ![0] ⟨1, ![E0]⟩) (hs1 : (⟨1, ![E]⟩ : Shape).Slices ![E0] ⟨1, ![E1]⟩)
    (hr0 : (⟨2, ![E, C]⟩ : Shape).Slices ![0, 0] ⟨2, ![E0, C]⟩) (hr1 : (⟨2, ![E, C]⟩ : Shape).Slices ![E0, 0] ⟨2, ![E1, C]⟩)
    (hn0 : (⟨2, ![E, 1]⟩ : Shape).Slices ![0, 0] ⟨2, ![E0, 1]⟩) (hn1 : (⟨2, ![E, 1]⟩ : Shape).Slices ![E0, 0] ⟨2, ![E1, 1]⟩)
    (hcat : Shape.Concatenates [⟨2, ![E0, C]⟩, ⟨2, ![E1, C]⟩] ⟨2, ![E, C]⟩ 0)
    (hb : (⟨2, ![E, 1]⟩ : Shape).BroadcastsInDim ⟨2, ![E, C]⟩ (![0, 1] : Fin 2 → Fin 2))
    (dst : IVec ⟨1, ![E]⟩ 32) (A B : (⟨2, ![E, C]⟩ : Shape).Idx → EReal)
    (C0 : (⟨2, ![E0, C]⟩ : Shape).Idx → EReal) (C1 : (⟨2, ![E1, C]⟩ : Shape).Idx → EReal)
    (Nn : (⟨2, ![E, 1]⟩ : Shape).Idx → EReal) :
    Host.scatterAdd (F := Ideal) (φ := .f32) (rowScatterDims N E C wf)
        (broadcastInDim ⟨2, ![N, C]⟩ ![] hz (constant (F := Ideal) ⟨0, ![]⟩ .f32 0x00000000#32))
        (broadcastInDim ⟨2, ![E, 1]⟩ (![0] : Fin 1 → Fin 2) hc dst)
        (mulf (addf (addf A B) (concatenate ⟨2, ![E, C]⟩ 0 [⟨⟨2, ![E0, C]⟩, C0⟩, ⟨⟨2, ![E1, C]⟩, C1⟩] hcat))
          (broadcastInDim ⟨2, ![E, C]⟩ (![0, 1] : Fin 2 → Fin 2) hb Nn))
      = addf
          (Host.scatterAdd (F := Ideal) (φ := .f32) (rowScatterDims N E0 C wf0)
            (broadcastInDim ⟨2, ![N, C]⟩ ![] hz (constant (F := Ideal) ⟨0, ![]⟩ .f32 0x00000000#32))
            (broadcastInDim ⟨2, ![E0, 1]⟩ (![0] : Fin 1 → Fin 2) hc0 (extractStridedSlice ⟨1, ![E0]⟩ ![0] dst hs0))
            (combine (extractStridedSlice ⟨2, ![E0, C]⟩ ![0, 0] A hr0) (extractStridedSlice ⟨2, ![E0, C]⟩ ![0, 0] B hr0) C0
              (extractStridedSlice ⟨2, ![E0, 1]⟩ ![0, 0] Nn hn0)))
          (Host.scatterAdd (F := Ideal) (φ := .f32) (rowScatterDims N E1 C wf1)
            (broadcastInDim ⟨2, ![N, C]⟩ ![] hz (constant (F := Ideal) ⟨0, ![]⟩ .f32 0x00000000#32))
            (broadcastInDim ⟨2, ![E1, 1]⟩ (![0] : Fin 1 → Fin 2) hc1 (extractStridedSlice ⟨1, ![E1]⟩ ![E0] dst hs1))
            (combine (extractStridedSlice ⟨2, ![E1, C]⟩ ![E0, 0] A hr1) (extractStridedSlice ⟨2, ![E1, C]⟩ ![E0, 0] B hr1) C1
              (extractStridedSlice ⟨2, ![E1, 1]⟩ ![E0, 0] Nn hn1))) := by
  have hZ : ∀ i : (⟨2, ![N, C]⟩ : Shape).Idx,
      (broadcastInDim ⟨2, ![N, C]⟩ ![] hz (constant (F := Ideal) ⟨0, ![]⟩ .f32 0x00000000#32) :
          (⟨2, ![N, C]⟩ : Shape).Idx → EReal) i
        = (broadcastInDim ⟨2, ![N, C]⟩ ![] hz (constant (F := Ideal) ⟨0, ![]⟩ .f32 0x00000000#32) :
            (⟨2, ![N, C]⟩ : Shape).Idx → EReal) i
          + (broadcastInDim ⟨2, ![N, C]⟩ ![] hz (constant (F := Ideal) ⟨0, ![]⟩ .f32 0x00000000#32) :
            (⟨2, ![N, C]⟩ : Shape).Idx → EReal) i := by
    intro i
    show Ideal.ofBits .f32 0x00000000#32 = Ideal.ofBits .f32 0x00000000#32 + Ideal.ofBits .f32 0x00000000#32
    rw [Ideal.ofBits_zero_f32, zero_add]
  refine scatterAdd_rows_split hE wf wf0 wf1 _ _ _ hZ _ _ _ ?_ ?_ _ _ _ ?_ ?_
  · intro e
    have hlt : e.val < E := by have := e.isLt; omega
    rw [col_of_vec_apply, col_of_vec_apply, slice_vec_apply 0 hs0 dst e ⟨e.val, hlt⟩ (Nat.zero_add _).symm]
  · intro e
    have hlt : E0 + e.val < E := by have := e.isLt; omega
    rw [col_of_vec_apply, col_of_vec_apply, slice_vec_apply E0 hs1 dst e ⟨E0 + e.val, hlt⟩ rfl]
  · intro e l
    have hlt : e.val < E := by have := e.isLt; omega
    rw [host_scale]
    show (extractStridedSlice ⟨2, ![E0, C]⟩ ![0, 0] A hr0 (ix2 e l) + extractStridedSlice ⟨2, ![E0, C]⟩ ![0, 0] B hr0 (ix2 e l)
          + C0 (ix2 e l)) * extractStridedSlice ⟨2, ![E0, 1]⟩ ![0, 0] Nn hn0 (ix2 e (0 : Fin 1))
      = (A (ix2 ⟨e.val, hlt⟩ l) + B (ix2 ⟨e.val, hlt⟩ l)
          + concatenate ⟨2, ![E, C]⟩ 0 [⟨⟨2, ![E0, C]⟩, C0⟩, ⟨⟨2, ![E1, C]⟩, C1⟩] hcat (ix2 ⟨e.val, hlt⟩ l))
        * Nn (ix2 ⟨e.val, hlt⟩ (0 : Fin 1))
    rw [slice_rows_apply 0 hr0 A e ⟨e.val, hlt⟩ l (Nat.zero_add _).symm,
      slice_rows_apply 0 hr0 B e ⟨e.val, hlt⟩ l (Nat.zero_add _).symm,
      slice_rows_apply 0 hn0 Nn e ⟨e.val, hlt⟩ 0 (Nat.zero_add _).symm,
      concat_rows_top C0 C1 hcat e ⟨e.val, hlt⟩ l rfl]
  · intro e l
    have hlt : E0 + e.val < E := by have := e.isLt; omega
    rw [host_scale]
    show (extractStridedSlice ⟨2, ![E1, C]⟩ ![E0, 0] A hr1 (ix2 e l) + extractStridedSlice ⟨2, ![E1, C]⟩ ![E0, 0] B hr1 (ix2 e l)
          + C1 (ix2 e l)) * extractStridedSlice ⟨2, ![E1, 1]⟩ ![E0, 0] Nn hn1 (ix2 e (0 : Fin 1))
      = (A (ix2 ⟨E0 + e.val, hlt⟩ l) + B (ix2 ⟨E0 + e.val, hlt⟩ l)
          + concatenate ⟨2, ![E, C]⟩ 0 [⟨⟨2, ![E0, C]⟩, C0⟩, ⟨⟨2, ![E1, C]⟩, C1⟩] hcat (ix2 ⟨E0 + e.val, hlt⟩ l))
        * Nn (ix2 ⟨E0 + e.val, hlt⟩ (0 : Fin 1))
    rw [slice_rows_apply E0 hr1 A e ⟨E0 + e.val, hlt⟩ l rfl,
      slice_rows_apply E0 hr1 B e ⟨E0 + e.val, hlt⟩ l rfl,
      slice_rows_apply E0 hn1 Nn e ⟨E0 + e.val, hlt⟩ 0 rfl,
      concat_rows_bottom C0 C1 hcat e ⟨E0 + e.val, hlt⟩ l rfl]

end Cert.Gnn

end
-- ==== Proof.RefValue.lean ====
/-
  The reference program's stages as the array functions of the graph network, over the extended reals.

  Each stage of the reference is a function of the arrays the program is given. Written with the array functions:
    * the node stack and the two edge stacks are three dense layers with the positive part after the first two;
    * the hidden layer is the positive part of a dense layer of the first aggregate;
    * the second aggregate scatter-adds, into zeros and by the column of destination rows, the gathered hidden rows
      each scaled by its entry of the normalization column;
    * the result is a dense layer, of output width one, of the second aggregate.
  Read at the launch memory of a device, the reference's result is then the value the idealized device program returns:
  the two differ only in the first aggregate, which the reference scatter-adds once over all the edges and the device
  program as the sum of two scatter-adds over the two ranges of edges.
-/
import proofs.«165014_j22557168239387_2_alg».proof.Proof.Gen.ReferenceIdeal.Read
import proofs.«165014_j22557168239387_2_alg».proof.Proof.HostForms
import proofs.«165014_j22557168239387_2_alg».proof.Proof.KernelValue

set_option maxRecDepth 16384

noncomputable section

namespace Cert.ReferenceIdeal.RefValue

open Cert.ReferenceIdeal Cert.ReferenceIdeal.Gen Cert.ReferenceIdeal.Read Cert.Gnn Cert.Gcn Cert.MatrixProduct
open Idealize.ShloMosaic Idealize.ShloMosaic.ValueIdx

/-- The node stack: three dense layers of the node features, the positive part after the first two. -/
theorem r13 (x0 : (⟨S50000x32, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v13 (F := Ideal) x0 x3 x4 x5 x6 x7 x8
      = mlp3 x0 x3 (rowOf x4) x5 (rowOf x6) x7 (rowOf x8) := by
  unfold val_main_v13 val_main_v12 val_main_v11 val_main_v10 val_main_v9 val_main_call1_v0 val_main_call1_cst val_main_v8 val_main_v7 val_main_v6 val_main_v5 val_main_v4 val_main_call0_v0 val_main_call0_cst val_main_v3 val_main_v2 val_main_v1 val_main_v0
  exact host_mlp3 _ _ _ _ _ x0 x3 x4 x5 x6 x7 x8

/-- The first edge stack: three dense layers of the first edge features, the positive part after the first two. -/
theorem r27 (x1 : (⟨S500000x16, .f32⟩ : BufTy).Contents (Elt Ideal)) (x9 : (⟨S16x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v27 (F := Ideal) x1 x9 x10 x11 x12 x13 x14
      = mlp3 x1 x9 (rowOf x10) x11 (rowOf x12) x13 (rowOf x14) := by
  unfold val_main_v27 val_main_v26 val_main_v25 val_main_v24 val_main_v23 val_main_call3_v0 val_main_call3_cst val_main_v22 val_main_v21 val_main_v20 val_main_v19 val_main_v18 val_main_call2_v0 val_main_call2_cst val_main_v17 val_main_v16 val_main_v15 val_main_v14
  exact host_mlp3 _ _ _ _ _ x1 x9 x10 x11 x12 x13 x14

/-- The second edge stack: three dense layers of the second edge features, the positive part after the first two. -/
theorem r41 (x2 : (⟨S300000x8, .f32⟩ : BufTy).Contents (Elt Ideal)) (x15 : (⟨S8x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) :
    val_main_v41 (F := Ideal) x2 x15 x16 x17 x18 x19 x20
      = mlp3 x2 x15 (rowOf x16) x17 (rowOf x18) x19 (rowOf x20) := by
  unfold val_main_v41 val_main_v40 val_main_v39 val_main_v38 val_main_v37 val_main_call5_v0 val_main_call5_cst val_main_v36 val_main_v35 val_main_v34 val_main_v33 val_main_v32 val_main_call4_v0 val_main_call4_cst val_main_v31 val_main_v30 val_main_v29 val_main_v28
  exact host_mlp3 _ _ _ _ _ x2 x15 x16 x17 x18 x19 x20

/-- The hidden layer: the positive part of a dense layer of the first aggregate. -/
theorem r96 (x0 : (⟨S50000x32, .f32⟩ : BufTy).Contents (Elt Ideal)) (x1 : (⟨S500000x16, .f32⟩ : BufTy).Contents (Elt Ideal)) (x2 : (⟨S300000x8, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S16x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S8x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x25 x26 : (⟨S800000, .i32⟩ : BufTy).Contents (Elt Ideal)) :
    val_main_v96 (F := Ideal) x0 x1 x2 x3 x4 x5 x6 x7 x8 x9 x10 x11 x12 x13 x14 x15 x16 x17 x18 x19 x20 x21 x22 x25 x26
      = relu (biasedProduct (val_main_v91 (F := Ideal) x0 x1 x2 x3 x4 x5 x6 x7 x8 x9 x10 x11 x12 x13 x14 x15 x16 x17 x18 x19 x20 x25 x26) x21 (rowOf x22)) := by
  unfold val_main_v96 val_main_call6_v0 val_main_call6_cst val_main_v95 val_main_v94 val_main_v93 val_main_v92
  exact host_relu_dense _ _ _ _ _ x21 x22

/-- The second aggregate: the scatter-add, into zeros and by the column of destination rows, of the gathered hidden
    rows each scaled by its entry of the normalization column. -/
theorem r108 (x0 : (⟨S50000x32, .f32⟩ : BufTy).Contents (Elt Ideal)) (x1 : (⟨S500000x16, .f32⟩ : BufTy).Contents (Elt Ideal)) (x2 : (⟨S300000x8, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S16x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S8x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x25 x26 : (⟨S800000, .i32⟩ : BufTy).Contents (Elt Ideal)) :
    val_main_v108 (F := Ideal) x0 x1 x2 x3 x4 x5 x6 x7 x8 x9 x10 x11 x12 x13 x14 x15 x16 x17 x18 x19 x20 x21 x22 x25 x26
      = Host.scatterAdd (F := Ideal) (φ := .f32) scatter_S50000x64_S800000x1_S800000x64_1_0_0_1 (val_main_v106 (F := Ideal))
          (val_main_v107 (F := Ideal) x26)
          (scaleRows (val_main_v103 (F := Ideal) x0 x1 x2 x3 x4 x5 x6 x7 x8 x9 x10 x11 x12 x13 x14 x15 x16 x17 x18 x19 x20 x21 x22 x25 x26) (val_main_v70 (F := Ideal) x25 x26)) := by
  unfold val_main_v108 val_main_v105 val_main_v104
  exact congrArg (Host.scatterAdd (F := Ideal) (φ := .f32) scatter_S50000x64_S800000x1_S800000x64_1_0_0_1 (val_main_v106 (F := Ideal)) (val_main_v107 (F := Ideal) x26))
    (host_scale _ _ _)

/-- The result: a dense layer, of output width one, of the second aggregate. -/
theorem r112 (x0 : (⟨S50000x32, .f32⟩ : BufTy).Contents (Elt Ideal)) (x1 : (⟨S500000x16, .f32⟩ : BufTy).Contents (Elt Ideal)) (x2 : (⟨S300000x8, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S16x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S8x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S64x64, .f32⟩ : BufTy).Contents (Elt Ideal)) (x22 : (⟨S64, .f32⟩ : BufTy).Contents (Elt Ideal)) (x23 : (⟨S64x1, .f32⟩ : BufTy).Contents (Elt Ideal)) (x24 : (⟨S1, .f32⟩ : BufTy).Contents (Elt Ideal)) (x25 x26 : (⟨S800000, .i32⟩ : BufTy).Contents (Elt Ideal)) :
    val_main_v112 (F := Ideal) x0 x1 x2 x3 x4 x5 x6 x7 x8 x9 x10 x11 x12 x13 x14 x15 x16 x17 x18 x19 x20 x21 x22 x23 x24 x25 x26
      = biasedProduct (val_main_v108 (F := Ideal) x0 x1 x2 x3 x4 x5 x6 x7 x8 x9 x10 x11 x12 x13 x14 x15 x16 x17 x18 x19 x20 x21 x22 x25 x26) x23 (rowOf x24) := by
  unfold val_main_v112 val_main_v111 val_main_v110 val_main_v109
  exact host_dense _ _ _ _ x23 x24

/-! ## The reference's result is the idealized device program's

The arguments are read off the launch memory `m` of device `c`. The two programs build the node and edge stacks, the
normalization column and the columns of row numbers by the same operations; the reference adds the concatenated edge
embeddings to the gathered node embeddings over all edges at once and scatter-adds once, where the device program
scatter-adds the two ranges of edges separately and adds the two results. -/

section

open Cert.KernelIdeal.Regions Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- The node stack is the device program's. -/
theorem ref_hn : val_main_v13 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) = HN m c := by
  rw [r13]
  unfold HN
  rw [cast_row_eq_rowOf, cast_row_eq_rowOf, cast_row_eq_rowOf]

/-- The first edge stack is the device program's. -/
theorem ref_he0 : val_main_v27 (F := Ideal) (m ((c : Thread Cert.KernelIdeal.nD Cert.KernelIdeal.τ).loc Cert.KernelIdeal.main_arg1)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) = HE0 m c := by
  rw [r27]
  unfold HE0
  rw [cast_row_eq_rowOf, cast_row_eq_rowOf, cast_row_eq_rowOf]

/-- The second edge stack is the device program's. -/
theorem ref_he1 : val_main_v41 (F := Ideal) (m ((c : Thread Cert.KernelIdeal.nD Cert.KernelIdeal.τ).loc Cert.KernelIdeal.main_arg2)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) = HE1 m c := by
  rw [r41]
  unfold HE1
  rw [cast_row_eq_rowOf, cast_row_eq_rowOf, cast_row_eq_rowOf]

/-- The node embeddings gathered at the sources are the device program's. -/
theorem ref_gs : val_main_v77 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg25)) = GS m c := by
  unfold val_main_v77 GS NSRC
  rw [ref_hn m c]
  rfl

/-- The node embeddings gathered at the destinations are the device program's. -/
theorem ref_gd : val_main_v84 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg26)) = GD m c := by
  unfold val_main_v84 GD NDST
  rw [ref_hn m c]
  rfl

/-- The first aggregate: one scatter-add over all the edges is the sum of the scatter-adds over the two ranges. -/
theorem ref_agg1 : val_main_v91 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg25)) (m ((c : Thread Cert.KernelIdeal.nD Cert.KernelIdeal.τ).loc Cert.KernelIdeal.main_arg26)) = AGG1 m c := by
  unfold val_main_v91 val_main_v90 val_main_v89 val_main_cst_11 val_main_v88 val_main_v87 val_main_v86 val_main_v85 val_main_v42
  rw [ref_gs m c, ref_gd m c, ref_he0 m c, ref_he1 m c]
  unfold AGG1 MSG0 MSG1 NORM
  exact agg_split (N := 50000) (C := 64) (E0 := 500000) (E1 := 300000) (E := 800000) rfl
    _ _ _ _ _ _ _ _ _ _ _ _ _ _ _ _ _ _ _ _ _

/-- THE REFERENCE'S RESULT is the value the idealized device program returns. -/
theorem ref_eq : val_main_v112 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) (m ((c : Thread Cert.KernelIdeal.nD Cert.KernelIdeal.τ).loc Cert.KernelIdeal.main_arg24)) (m ((c : Thread Cert.KernelIdeal.nD Cert.KernelIdeal.τ).loc Cert.KernelIdeal.main_arg25)) (m ((c : Thread Cert.KernelIdeal.nD Cert.KernelIdeal.τ).loc Cert.KernelIdeal.main_arg26)) = OUT m c := by
  rw [r112, r108]
  unfold val_main_v103
  rw [r96, ref_agg1 m c]
  unfold OUT AGG2 SC H1 NORM NSRC2 val_main_v106 val_main_cst_14 val_main_v107
  rw [cast_row_eq_rowOf, cast_row_eq_rowOf]
  rfl

end

end Cert.ReferenceIdeal.RefValue

end
-- ==== Proof.lean ====
/-
  The certificate of a two-layer graph network: a device program of eight calls against a plain host program.

  Both programs embed the node features and the features of two kinds of edge by three dense stacks
  (X ↦ relu(relu(X·W0 + b0)·W1 + b1)·W2 + b2), form for every edge e the message
  (hn[src e] + hn[dst e] + he[e]) · norm(e) with norm(e) = 1 / sqrt(max(deg_out(src e), 1) · max(deg_in(dst e), 1)),
  sum the messages at their destination nodes, apply a dense layer with the positive part, gather the hidden rows at the
  sources, scale by norm again, sum at the destinations, and finish with a dense layer to one column.

  Over the extended reals (every float an exact extended real, a change of float format the identity) the device
  program differs from the host program in three ways only, none of which changes the value:
    * each dense stack, each per-edge message and each dense layer is computed a block of rows at a time — an entry of
      each depends on one row of the row-indexed operands, and the blocks tile the rows;
    * the bias vectors reach the device as 1 × n rows by a reshape where the host broadcasts them: the same row;
    * the edge embeddings are never concatenated: the first aggregate is the sum at the destinations over the first
      500000 edges PLUS that over the last 300000, where the host sums once over all 800000 — a finite sum split in
      two, which needs only that addition of extended reals is commutative and associative. So the precondition
      (finite inputs) is never opened.
  The idealization rewrote no operation, so its preservation claim is trivial; the three frames are the generated ones
  (the reference's is its generated run with the result dropped).
-/
import proofs.«165014_j22557168239387_2_alg».proof.Defs
import proofs.«165014_j22557168239387_2_alg».proof.Proof.Gen.Kernel
import proofs.«165014_j22557168239387_2_alg».proof.Proof.Gen.Kernel.Skeleton
import proofs.«165014_j22557168239387_2_alg».proof.Proof.Gen.Kernel.Launch
import proofs.«165014_j22557168239387_2_alg».proof.Proof.Gen.Kernel.Points
import proofs.«165014_j22557168239387_2_alg».proof.Proof.Gen.Kernel.Frame
import proofs.«165014_j22557168239387_2_alg».proof.Proof.Gen.KernelIdeal
import proofs.«165014_j22557168239387_2_alg».proof.Proof.Gen.KernelIdeal.Skeleton
import proofs.«165014_j22557168239387_2_alg».proof.Proof.Gen.KernelIdeal.Launch
import proofs.«165014_j22557168239387_2_alg».proof.Proof.Gen.KernelIdeal.Points
import proofs.«165014_j22557168239387_2_alg».proof.Proof.Gen.KernelIdeal.Frame
import proofs.«165014_j22557168239387_2_alg».proof.Proof.Gen.ReferenceIdeal
import proofs.«165014_j22557168239387_2_alg».proof.Proof.Gen.Pre_finite_inputs
import proofs.«165014_j22557168239387_2_alg».proof.Proof.Gen.ReferenceIdeal.Run
import proofs.«165014_j22557168239387_2_alg».proof.Proof.Gen.ReferenceIdeal.Read
import proofs.«165014_j22557168239387_2_alg».proof.Proof.KernelRun
import proofs.«165014_j22557168239387_2_alg».proof.Proof.KernelValue
import proofs.«165014_j22557168239387_2_alg».proof.Proof.RefValue
import Idealize.ShloMosaic.Adequacy
import Idealize.ShloMosaic.Init

noncomputable section

namespace Cert.Proof

open Idealize.ShloMosaic Idealize.SL.Sem

/-- The reference runs and leaves its arguments as they were: its generated run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, both end, with the same
    result: the device program's run leaves its result at the expression `OUT` of the arguments (the boundaries of
    its run, walked), and the host program's composed term is that expression (the sum over all edges split in two). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Regions.OUT m c, ?_, ?_⟩
  · exact (θ_run Cert.KernelIdeal.defs _ _).mono
      (fun r h c => ⟨(h c).1.trans (Cert.KernelIdeal.Regions.out_val m ρ c), (h c).2⟩)
      (Cert.KernelIdeal.Regions.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26⟩ := hagree c
    rw [Cert.ReferenceIdeal.Read.val_main_v112_eq, h0, h1, h2, h3, h4, h5, h6, h7, h8, h9, h10, h11, h12, h13, h14, h15, h16, h17, h18, h19, h20, h21, h22, h23, h24, h25, h26]
    exact Cert.ReferenceIdeal.RefValue.ref_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
